-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x640000 : Shape := ⟨2, ![2, 640000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x256 .f32) (main_arg1 : IVec S2x640000 32) (main_arg2 : FVec F S256x128 .f32) (main_arg3 : FVec F S128 .f32) (main_arg4 : FVec F S128x64 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S10000x256 : Shape := ⟨2, ![10000, 256]⟩
abbrev S2x640000 : Shape := ⟨2, ![2, 640000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x256 : Shape := ⟨2, ![10240, 256]⟩
abbrev S1x128 : Shape := ⟨2, ![1, 128]⟩
abbrev S128x128 : Shape := ⟨2, ![128, 128]⟩
abbrev S10240x128 : Shape := ⟨2, ![10240, 128]⟩
abbrev S2048x256 : Shape := ⟨2, ![2048, 256]⟩
abbrev S2048x128 : Shape := ⟨2, ![2048, 128]⟩
abbrev S1024x1024 : Shape := ⟨2, ![1024, 1024]⟩
abbrev S1024x128 : Shape := ⟨2, ![1024, 128]⟩
abbrev S10000x64 : Shape := ⟨2, ![10000, 64]⟩

abbrev nBuf : Space → Nat
  | .hbm => 82
  | .vmem => 28
  | .smem => 0
  | _ => 0

abbrev bufTy : (tb : Table) → Fin (tcTables nBuf tb) → BufTy
  | .hbm, ⟨0, _⟩ => ⟨S10000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S10000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S_, .f32⟩
  | .hbm, ⟨47, _⟩ => ⟨S10240x10240, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x1, .i32⟩
  | .hbm, ⟨64, _⟩ => ⟨S650000x2, .i32⟩
  | .hbm, ⟨65, _⟩ => ⟨S10240x10240, .f32⟩
  | .hbm, ⟨66, _⟩ => ⟨S_, .i32⟩
  | .hbm, ⟨67, _⟩ => ⟨S_, .f32⟩
  | .hbm, ⟨68, _⟩ => ⟨S10240x256, .f32⟩
  | .hbm, ⟨69, _⟩ => ⟨S1x128, .f32⟩
  | .hbm, ⟨70, _⟩ => ⟨S_, .i32⟩
  | .hbm, ⟨71, _⟩ => ⟨S_, .f32⟩
  | .hbm, ⟨72, _⟩ => ⟨S128x128, .f32⟩
  | .hbm, ⟨73, _⟩ => ⟨S_, .i32⟩
  | .hbm, ⟨74, _⟩ => ⟨S_, .f32⟩
  | .hbm, ⟨75, _⟩ => ⟨S128, .f32⟩
  | .hbm, ⟨76, _⟩ => ⟨S1x128, .f32⟩
  | .hbm, ⟨77, _⟩ => ⟨S10240x128, .f32⟩
  | .hbm, ⟨78, _⟩ => ⟨S10240x128, .f32⟩
  | .hbm, ⟨79, _⟩ => ⟨S10240x128, .f32⟩
  | .hbm, ⟨80, _⟩ => ⟨S10240x128, .f32⟩
  | .hbm, ⟨81, _⟩ => ⟨S10000x64, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S2048x128, .f32⟩
  | .local _ .vmem, ⟨15, _⟩ => ⟨S2048x128, .f32⟩
  | .local _ .vmem, ⟨16, _⟩ => ⟨S128x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S1024x1024, .f32⟩
  | .local _ .vmem, ⟨21, _⟩ => ⟨S1024x1024, .f32⟩
  | .local _ .vmem, ⟨22, _⟩ => ⟨S1024x128, .f32⟩
  | .local _ .vmem, ⟨23, _⟩ => ⟨S1024x128, .f32⟩
  | .local _ .vmem, ⟨24, _⟩ => ⟨S1x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_call2_v0 : Ref sig .tc := ⟨.hbm, 71, rfl⟩
abbrev main_v47 : Ref sig .tc := ⟨.hbm, 72, rfl⟩
abbrev main_c_13 : Ref sig .tc := ⟨.hbm, 73, rfl⟩
abbrev main_call3_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨2, ![5, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![5, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![10, 10], ![false, false]⟩

def k3_cond2 (i : grid3.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  pads_S10000x256_S10240x256_02400_000 : S10000x256.Pads (![0, 0] : Fin 2 → Nat) ![240, 0] ![0, 0] S10240x256
  h_S_ : 0 < S_.numel
  shapeCasts_S128_S1x128 : S128.ShapeCasts S1x128
  pads_S128x64_S128x128_000_0640 : S128x64.Pads (![0, 0] : Fin 2 → Nat) ![0, 64] ![0, 0] S128x128
  pads_S64_S128_0640 : S64.Pads (![0] : Fin 1 → Nat) ![64] ![0] S128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  iota_S1024x128_d0_w32 : S1024x128.Iotas .tc 32 [0]
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S10240x128_S10000x64_0_0 : S10240x128.Slices ![0, 0] S10000x64
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  dot_S2048x256_S256x128_S2048x128_1_0_0_1_n_n_wf : DotDims.WF S2048x256 S256x128 S2048x128 [1] [0] [0] [1] [] []
  dot_S1024x1024_S1024x128_S1024x128_1_0_0_1_n_n_wf : DotDims.WF S1024x1024 S1024x128 S1024x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S10240x256.size a
  hwx0_0 : ∀ i : grid0.Coords, EltTy.bits .f32 = 32 ∨ (Rect.block (s := S10240x256) S2048x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S10240x128.size a
  hwx0_2 : ∀ i : grid0.Coords, EltTy.bits .f32 = 32 ∨ (Rect.block (s := S10240x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .f32 = 32 ∨ (Rect.block (s := S10240x10240) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S10240x128.size a
  hwx1_1 : ∀ i : grid1.Coords, EltTy.bits .f32 = 32 ∨ (Rect.block (s := S10240x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S10240x128.size a
  hwx1_3 : ∀ i : grid1.Coords, EltTy.bits .f32 = 32 ∨ (Rect.block (s := S10240x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S10240x128.size a
  hwx2_0 : ∀ i : grid2.Coords, EltTy.bits .f32 = 32 ∨ (Rect.block (s := S10240x128) S2048x128.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S10240x128.size a
  hwx2_2 : ∀ i : grid2.Coords, EltTy.bits .f32 = 32 ∨ (Rect.block (s := S10240x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S10240x10240.size a
  hwx3_0 : ∀ i : grid3.Coords, EltTy.bits .f32 = 32 ∨ (Rect.block (s := S10240x10240) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S10240x128.size a
  hwx3_1 : ∀ i : grid3.Coords, EltTy.bits .f32 = 32 ∨ (Rect.block (s := S10240x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S10240x128.size a
  hwx3_3 : ∀ i : grid3.Coords, EltTy.bits .f32 = 32 ∨ (Rect.block (s := S10240x128) S1024x128.size (cc3_transform_3 i) (hinb3_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v45) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v44) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v51) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v44) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S10000x256 : Shape := ⟨2, ![10000, 256]⟩
abbrev S2x640000 : Shape := ⟨2, ![2, 640000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S10000x128 : Shape := ⟨2, ![10000, 128]⟩
abbrev S650000x128 : Shape := ⟨2, ![650000, 128]⟩
abbrev S1x128 : Shape := ⟨2, ![1, 128]⟩
abbrev S10000x64 : Shape := ⟨2, ![10000, 64]⟩
abbrev S650000x64 : Shape := ⟨2, ![650000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S10000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S10000x128, .f32⟩
  | .hbm, ⟨61, _⟩ => ⟨S650000x1, .i32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x64, .f32⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x64, .f32⟩
  | .hbm, ⟨79, _⟩ => ⟨S650000x1, .f32⟩
  | .hbm, ⟨80, _⟩ => ⟨S650000x64, .f32⟩
  | .hbm, ⟨81, _⟩ => ⟨S650000x64, .f32⟩
  | .hbm, ⟨82, _⟩ => ⟨S_, .f32⟩
  | .hbm, ⟨83, _⟩ => ⟨S10000x64, .f32⟩
  | .hbm, ⟨84, _⟩ => ⟨S650000x1, .i32⟩
  | .hbm, ⟨85, _⟩ => ⟨S10000x64, .f32⟩
  | .hbm, ⟨86, _⟩ => ⟨S1x64, .f32⟩
  | .hbm, ⟨87, _⟩ => ⟨S10000x64, .f32⟩
  | .hbm, ⟨88, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x64_0_1 : S650000x1.BroadcastsInDim S650000x64 (![0, 1] : Fin 2 → Fin S650000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x256_S256x128_S10000x128_1_0_0_1_n_n_wf : DotDims.WF S10000x256 S256x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x128_S128x64_S10000x64_1_0_0_1_n_n_wf : DotDims.WF S10000x128 S128x64 S10000x64 [1] [0] [0] [1] [] []
  gather_S10000x64_S650000x1_S650000x64_1_0_n_n_0_1_164_wf : GatherDims.WF S10000x64 S650000x1 S650000x64 [1] [0] [] [0] [] 1 ![1, 64]
  scatter_S10000x64_S650000x1_S650000x64_1_0_0_1_wf : ScatterDims.WF S10000x64 S650000x1 S650000x64 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S650000x1_S650000x64_1_0_n_n_0_1_164 : GatherDims S10000x64 S650000x1 S650000x64 where
  offsetDims := [1]
  collapsedSliceDims := [0]
  operandBatchingDims := []
  startIndicesBatchingDims := []
  startIndexMap := [0]
  indexVectorDim := 1
  sliceSizes := ![1, 64]
  wf := gather_S10000x64_S650000x1_S650000x64_1_0_n_n_0_1_164_wf
def scatter_S10000x64_S650000x1_S650000x64_1_0_0_1 : ScatterDims S10000x64 S650000x1 S650000x64 where
  updateWindowDims := [1]
  insertedWindowDims := [0]
  scatterDimsToOperandDims := [0]
  indexVectorDim := 1
  wf := scatter_S10000x64_S650000x1_S650000x64_1_0_0_1_wf

class Facts : Prop extends Facts₀ where

variable [Facts]
-- ==== Proof.K.R0Run.lean ====
/- The first dense product of the network, h1 = xpad · W1, one block of 2048 rows at a grid point.
   At every point of the 5 × 1 grid the second coordinate is 0, so the body both clears its
   accumulator and writes its result: it stores the zero block into the accumulator, adds the
   product of the two input blocks to what it reads back, and copies the accumulator into the
   output block. This module runs that body once, symbolically, on whole buffers. -/
import proofs.«133914_j16801912062630_2_alg».proof.Proof.Gen.Kernel.Launch
import proofs.«133914_j16801912062630_2_alg».proof.Proof.Gen.Kernel.Skeleton
import proofs.«133914_j16801912062630_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- "This is the first step along the contraction axis": the accumulator is cleared. -/
abbrev cond0_0 (i : grid0.Coords) : Prop := (Scalar.cmpi .ne (Scalar.extui (Scalar.cmpi .eq (BitVec.ofNat 32 (i 1).val) 0#32)) 0#32) = 1#1
/-- The contraction axis has one step, so it is the first at every point. -/
theorem hcond0_0 : ∀ t : Fin cfg0.N, cond0_0 (grid0.coords t) :=
  (by decide +kernel : ∀ t : Fin grid0.N, cond0_0 (grid0.coords t))

/-- "This is the last step along the contraction axis": the accumulator is written out. -/
abbrev cond0_1 (i : grid0.Coords) : Prop := k0_cond2 i = 1#1
/-- And the last. -/
theorem hcond0_1 : ∀ t : Fin cfg0.N, cond0_1 (grid0.coords t) :=
  (by decide +kernel : ∀ t : Fin grid0.N, cond0_1 (grid0.coords t))

/-! ## The body's run -/

set_option maxHeartbeats 1000000 in
/-- The body at a point where both conditions hold, on whole buffers: the two input blocks at
    `x0`, `x1`, the output block and the accumulator at anything. It runs to the continuation with
    the inputs as they were and the output block and the accumulator each written by a list of
    pieces; the lists are what the symbolic run finds. -/
noncomputable def kernelRun0 (c : Dev nD) (i : grid0.Coords) (arg2 : Memref sig .tc .vmem S2048x256 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : cond0_1 i)
    (x0 : Vec F S2048x256 .f32) (x1 : Vec F S256x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R0Frame.lean ====
/- The first dense product of the network, h1 = xpad · W1, as a pipelined region: the proof data
   of the pipeline (what each staging buffer holds after the body at each grid point) and the
   body's obligation at every point, for any contents V of the arrays when the region is entered.
   The accumulator is cleared at every point before it is used, so nothing is carried between
   points and the region invariant is the same at every point: the accumulator at anything, the
   other scoped buffers untouched, the generator register at some state. -/
import proofs.«133914_j16801912062630_2_alg».proof.Proof.K.R0Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 2048 rows of the left factor is in its staging buffer at every point, for any proof data
    over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor (one block, fetched once) is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## No window is idle at any point -/

theorem liveAt0_0 : ∀ t : Fin cfg0.N, cfg0.idle 0 (grid0.coords t) = false := by decide +kernel
theorem liveAt0_1 : ∀ t : Fin cfg0.N, cfg0.idle 1 (grid0.coords t) = false := by decide +kernel
/-- The output block is stored at every point (the contraction axis has one step). -/
theorem liveAt0_2 : ∀ t : Fin cfg0.N, cfg0.idle 2 (grid0.coords t) = false := by decide +kernel

/-! ## The memrefs the body is called with -/

/-- One staging buffer of the output window, through which its contents are stated. -/
abbrev VO0_2 : View sig .tc .vmem S2048x128 .f32 := (Memref.whole cc0_stg2_0 : Memref sig .tc .vmem S2048x128 .f32).view
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S2048x128 .f32 := Memref.whole cc0_scratch0

/-- The region invariant with the accumulator taken out as a memref owned at some contents; the other
    scoped buffers (the other calls' staging buffers and accumulators) stay together, unopened. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [BI.bigSepL_singleton, scM0_0, owns_whole]; try rfl

/-! ## What the body leaves in the output block -/

/-- The pieces the body's run found for the output block tile it. -/
theorem cover0_2 (c : Dev nD) (i : grid0.Coords) (arg2 : Memref sig .tc .vmem S2048x256 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : cond0_1 i)
    (x0 : Vec F S2048x256 .f32) (x1 : Vec F S256x128 .f32) (y : S2048x128.Idx) :
    ∃ pc ∈ (kernelRun0 c i arg2 harg2 arg3 harg3 arg4 harg4 arg5 harg5 hc0 hc1 x0 x1).1, y ∈ pc.1.set :=
  View.cover_of_tiledL (kernelRun0 c i arg2 harg2 arg3 harg3 arg4 harg4 arg5 harg5 hc0 hc1 x0 x1).1 S2048x128.size (by sl_kernel_rfl) y

/-- What the body leaves in the output's staging buffer: its pieces read back. -/
def out0_2 (c : Dev nD) (i : grid0.Coords) (arg2 : Memref sig .tc .vmem S2048x256 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : cond0_1 i)
    (x0 : Vec F S2048x256 .f32) (x1 : Vec F S256x128 .f32) : Vec F S2048x128 .f32 :=
  VO0_2.read (Elt F) (VO0_2.writes (Elt F) VO0_2.junk (kernelRun0 c i arg2 harg2 arg3 harg3 arg4 harg4 arg5 harg5 hc0 hc1 x0 x1).1)

/-! ## The pipeline's proof data -/

/-- The proof data of the pipeline on core `c`: the arrays as the region finds them; after the body at
    point `t` each factor's buffer at its block and the output's at what the body's stores leave; the
    invariant the same at every point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant is the same at every point. -/
theorem Phi0 (c : Dev nD) (t : Fin (cfg0.N + 1)) : (dat0 V c).Φ t = Pipeline.ΦA spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point: the factors' buffers hold their blocks, the invariant hands over the
    accumulator at anything and takes it back at anything; the output's buffer ends at the pieces
    the run found, which tile it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0, Phi0, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold out0_2
  iintro ⟨⟨⟨HS0, Hrest⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Runs.lean ====
/-
  Region 1 (the aggregation kernel of layer 1): what its per-case runs and its proof data share.

  The kernel runs on a 10 x 10 grid, point t = 10·i + k.  At k = 0 it zeroes its accumulator; at every point it adds the
  product of the point's 1024 x 1024 block of the weight matrix and 1024 x 128 block of the features to the accumulator;
  at k = 9 it adds the bias row, takes the positive part, zeroes the rows whose global number is not below 10000, and stores the
  result into the output block.  So there are three control cases: first (k = 0), middle (1 ≤ k ≤ 8), last (k = 9);
  the output window is idle, and not written back, except in the last case.  Everything is stated at a parameter V:
  the buffers' contents when the region is entered.
-/
import proofs.«133914_j16801912062630_2_alg».proof.Proof.Gen.Kernel.Launch
import proofs.«133914_j16801912062630_2_alg».proof.Proof.Gen.Kernel.Skeleton
import proofs.«133914_j16801912062630_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first step along the reduction axis" (k = 0). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- "This is the last step along the reduction axis" (k = 9). -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Except at the last step the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x128 .f32 := (Memref.whole cc1_stg3_0 : Memref sig .tc .vmem S1024x128 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x128 .f32 := Memref.whole cc1_scratch0
abbrev VS1_0 : View sig .tc .vmem S1024x128 .f32 := scM1_0.view

/-- The scoped buffers that are neither a staging buffer of this region nor its accumulator, each at some contents:
    carried through the region unopened. -/
abbrev Rest1 (c : Dev nD) : sProp 𝕄 :=
  Pipeline.scopedRestBut (Ix := Unit) (Name := ℕ) (U := UR sig nD τ) (Lvl := ℕ) (Val := Elt F) spec1 c [cc1_scratch0]

/-- The region's class invariant with the accumulator split off as an owned memref. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, bigSepL]
  try rfl

end Cert.Kernel.Hand

end
-- ==== Proof.K.R1RunA.lean ====
/-
  Region 1, the FIRST step (k = 0): the accumulator is zeroed, then the step's product is added; the output block is left untouched.
  The body's separation-logic triple on any whole memrefs, the stores each buffer ends with found as a list of pieces.
-/
import proofs.«133914_j16801912062630_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at contents handed back untouched and the accumulator at anything, the body runs to a
    state with the inputs as they were and each stored buffer with its pieces written. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunB.lean ====
/-
  Region 1, a MIDDLE step (1 ≤ k ≤ 8): the step's product is added to the accumulator the step before left; the output block is left untouched.
  The body's separation-logic triple on any whole memrefs, the stores each buffer ends with found as a list of pieces.
-/
import proofs.«133914_j16801912062630_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at contents handed back untouched and the accumulator at what the step before left, the body runs to a
    state with the inputs as they were and each stored buffer with its pieces written. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunC.lean ====
/-
  Region 1, the LAST step (k = 9): the step's product is added to the accumulator, and the finished block is stored into the output.
  The body's separation-logic triple on any whole memrefs, the stores each buffer ends with found as a list of pieces.
-/
import proofs.«133914_j16801912062630_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at anything and the accumulator at what the step before left, the body runs to a
    state with the inputs as they were and each stored buffer with its pieces written. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1Frame.lean ====
/-
  Region 1: what the output block and the accumulator hold after every grid point, the region's proof data, the body
  obligation, and the invariant's two ends.

  The accumulator's contents after point t are defined by recursion on t: at a first step the zeroed accumulator plus
  the step's product, at a later step the previous point's accumulator plus the step's product; the output block is
  stored at last steps only.  The region invariant carries the accumulator at exactly those contents from one point
  to the next, beside the scoped buffers the region never opens and the generator register.
-/
import proofs.«133914_j16801912062630_2_alg».proof.Proof.K.R1RunA
import proofs.«133914_j16801912062630_2_alg».proof.Proof.K.R1RunB
import proofs.«133914_j16801912062630_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output block where the case stores nothing into it (the window is idle there). -/
def out1_A_3 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) : Vec F S1024x128 .f32 :=
  VO1_3.read (Elt F) (VO1_3.writes (Elt F) VO1_3.junk (kernelRun1_A c i arg2 harg2 arg3 harg3 arg4 harg4 arg5 harg5 arg6 harg6 hc0 hc1 x0 x1 x2).1)

/-- The case's stores into the accumulator tile it. -/
theorem scover1_A_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) (y : S1024x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x128.size (by sl_kernel_rfl) y

/-- What the case leaves in the accumulator. -/
def sout1_A_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) : Vec F S1024x128 .f32 :=
  VS1_0.read (Elt F) (VS1_0.writes (Elt F) VS1_0.junk (kernelRun1_A c i arg2 harg2 arg3 harg3 arg4 harg4 arg5 harg5 arg6 harg6 hc0 hc1 x0 x1 x2).2.1)

/-- A placeholder for the output block where the case stores nothing into it (the window is idle there). -/
def out1_B_3 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) : Vec F S1024x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The case's stores into the accumulator tile it. -/
theorem scover1_B_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) (y : S1024x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x128.size (by sl_kernel_rfl) y

/-- What the case leaves in the accumulator. -/
def sout1_B_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The last step's stores into the output block tile it. -/
theorem cover1_C_3 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x128.size (by sl_kernel_rfl) y

/-- What the last step leaves in the output block. -/
def out1_C_3 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) : Vec F S1024x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- The case's stores into the accumulator tile it. -/
theorem scover1_C_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x128.size (by sl_kernel_rfl) y

/-- What the case leaves in the accumulator. -/
def sout1_C_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block and the accumulator hold after each point -/

/-- After the body at position n: (the output block, the accumulator). -/
def outsAt1 (c : Dev nD) : (n : ℕ) → n < cfg1.N → Vec F S1024x128 .f32 × Vec F S1024x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 10 = 0 then
      if h1 : (n + 1) % 10 = 9 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 10 = 9 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class's invariant (every scoped buffer the region does not stage at
    anything, the generator register at some state); afterwards the accumulator at what the point before left, the
    other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The proof data -/

/-- The region's proof data on core c: the arrays as the region finds them; after the body at point t each input's
    buffer at its block and the output's at outsAt's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point.  The inputs' memrefs hold their blocks; the point's position along the reduction axis says
    which case applies; the invariant hands the body the accumulator at what the point before left (at anything
    before the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 10 = 0
  · by_cases h1 : t.val % 10 = 9
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 100 := N_1; omega), PhiA1_eq]
  iintro ⟨⟨HS0, HR⟩, Hg⟩
  isplitl [HS0 HR]
  · isplitl [HS0]
    · iexists _; iexact HS0
    iexact HR
  iexact Hg

end Cert.Kernel.Hand

end
-- ==== Proof.K.R2Run.lean ====
/- The second dense product of the network, h2 = h · W2pad, one block of 2048 rows at a grid point.
   At every point of the 5 × 1 grid the second coordinate is 0, so the body both clears its
   accumulator and writes its result: it stores the zero block into the accumulator, adds the
   product of the two input blocks to what it reads back, and copies the accumulator into the
   output block. This module runs that body once, symbolically, on whole buffers. -/
import proofs.«133914_j16801912062630_2_alg».proof.Proof.Gen.Kernel.Launch
import proofs.«133914_j16801912062630_2_alg».proof.Proof.Gen.Kernel.Skeleton
import proofs.«133914_j16801912062630_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- "This is the first step along the contraction axis": the accumulator is cleared. -/
abbrev cond2_0 (i : grid2.Coords) : Prop := (Scalar.cmpi .ne (Scalar.extui (Scalar.cmpi .eq (BitVec.ofNat 32 (i 1).val) 0#32)) 0#32) = 1#1
/-- The contraction axis has one step, so it is the first at every point. -/
theorem hcond2_0 : ∀ t : Fin cfg2.N, cond2_0 (grid2.coords t) :=
  (by decide +kernel : ∀ t : Fin grid2.N, cond2_0 (grid2.coords t))

/-- "This is the last step along the contraction axis": the accumulator is written out. -/
abbrev cond2_1 (i : grid2.Coords) : Prop := k2_cond2 i = 1#1
/-- And the last. -/
theorem hcond2_1 : ∀ t : Fin cfg2.N, cond2_1 (grid2.coords t) :=
  (by decide +kernel : ∀ t : Fin grid2.N, cond2_1 (grid2.coords t))

/-! ## The body's run -/

set_option maxHeartbeats 1000000 in
/-- The body at a point where both conditions hold, on whole buffers: the two input blocks at
    `x0`, `x1`, the output block and the accumulator at anything. It runs to the continuation with
    the inputs as they were and the output block and the accumulator each written by a list of
    pieces; the lists are what the symbolic run finds. -/
noncomputable def kernelRun2 (c : Dev nD) (i : grid2.Coords) (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : cond2_1 i)
    (x0 : Vec F S2048x128 .f32) (x1 : Vec F S128x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R2Frame.lean ====
/- The second dense product of the network, h2 = h · W2pad, as a pipelined region: the proof data
   of the pipeline (what each staging buffer holds after the body at each grid point) and the
   body's obligation at every point, for any contents V of the arrays when the region is entered.
   The accumulator is cleared at every point before it is used, so nothing is carried between
   points and the region invariant is the same at every point: the accumulator at anything, the
   other scoped buffers untouched, the generator register at some state. -/
import proofs.«133914_j16801912062630_2_alg».proof.Proof.K.R2Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of 2048 rows of the left factor is in its staging buffer at every point, for any proof data
    over `V` whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor (one block, fetched once) is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## No window is idle at any point -/

theorem liveAt2_0 : ∀ t : Fin cfg2.N, cfg2.idle 0 (grid2.coords t) = false := by decide +kernel
theorem liveAt2_1 : ∀ t : Fin cfg2.N, cfg2.idle 1 (grid2.coords t) = false := by decide +kernel
/-- The output block is stored at every point (the contraction axis has one step). -/
theorem liveAt2_2 : ∀ t : Fin cfg2.N, cfg2.idle 2 (grid2.coords t) = false := by decide +kernel

/-! ## The memrefs the body is called with -/

/-- One staging buffer of the output window, through which its contents are stated. -/
abbrev VO2_2 : View sig .tc .vmem S2048x128 .f32 := (Memref.whole cc2_stg2_0 : Memref sig .tc .vmem S2048x128 .f32).view
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S2048x128 .f32 := Memref.whole cc2_scratch0

/-- The region invariant with the accumulator taken out as a memref owned at some contents; the other
    scoped buffers (the other calls' staging buffers and accumulators) stay together, unopened. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [BI.bigSepL_singleton, scM2_0, owns_whole]; try rfl

/-! ## What the body leaves in the output block -/

/-- The pieces the body's run found for the output block tile it. -/
theorem cover2_2 (c : Dev nD) (i : grid2.Coords) (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : cond2_1 i)
    (x0 : Vec F S2048x128 .f32) (x1 : Vec F S128x128 .f32) (y : S2048x128.Idx) :
    ∃ pc ∈ (kernelRun2 c i arg2 harg2 arg3 harg3 arg4 harg4 arg5 harg5 hc0 hc1 x0 x1).1, y ∈ pc.1.set :=
  View.cover_of_tiledL (kernelRun2 c i arg2 harg2 arg3 harg3 arg4 harg4 arg5 harg5 hc0 hc1 x0 x1).1 S2048x128.size (by sl_kernel_rfl) y

/-- What the body leaves in the output's staging buffer: its pieces read back. -/
def out2_2 (c : Dev nD) (i : grid2.Coords) (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : cond2_1 i)
    (x0 : Vec F S2048x128 .f32) (x1 : Vec F S128x128 .f32) : Vec F S2048x128 .f32 :=
  VO2_2.read (Elt F) (VO2_2.writes (Elt F) VO2_2.junk (kernelRun2 c i arg2 harg2 arg3 harg3 arg4 harg4 arg5 harg5 hc0 hc1 x0 x1).1)

/-! ## The pipeline's proof data -/

/-- The proof data of the pipeline on core `c`: the arrays as the region finds them; after the body at
    point `t` each factor's buffer at its block and the output's at what the body's stores leave; the
    invariant the same at every point; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant is the same at every point. -/
theorem Phi2 (c : Dev nD) (t : Fin (cfg2.N + 1)) : (dat2 V c).Φ t = Pipeline.ΦA spec2 c := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 1600000 in
/-- The body at any point: the factors' buffers hold their blocks, the invariant hands over the
    accumulator at anything and takes it back at anything; the output's buffer ends at the pieces
    the run found, which tile it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [Phi2, Phi2, PhiA2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  unfold out2_2
  iintro ⟨⟨⟨HS0, Hrest⟩, Hg⟩, Ho, ⟨%d0, H0⟩, ⟨%d1, H1⟩, ⟨%d2, H2⟩⟩
  iapply ((kernelRun2 c (grid2.coords t) _ _ _ _ _ _ _ _ (hcond2_0 t) (hcond2_1 t) (iblk2 V c 0 t) (iblk2 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.R3Runs.lean ====
/-
  Region 3 (the aggregation kernel of layer 2): what its per-case runs and its proof data share.

  The kernel runs on a 10 x 10 grid, point t = 10·i + k.  At k = 0 it zeroes its accumulator; at every point it adds the
  product of the point's 1024 x 1024 block of the weight matrix and 1024 x 128 block of the features to the accumulator;
  at k = 9 it adds the bias row, zeroes the rows whose global number is not below 10000, and stores the
  result into the output block.  So there are three control cases: first (k = 0), middle (1 ≤ k ≤ 8), last (k = 9);
  the output window is idle, and not written back, except in the last case.  Everything is stated at a parameter V:
  the buffers' contents when the region is entered.
-/
import proofs.«133914_j16801912062630_2_alg».proof.Proof.Gen.Kernel.Launch
import proofs.«133914_j16801912062630_2_alg».proof.Proof.Gen.Kernel.Skeleton
import proofs.«133914_j16801912062630_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- "This is the first step along the reduction axis" (k = 0). -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)
/-- "This is the last step along the reduction axis" (k = 9). -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Except at the last step the output window is idle and is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

/-- One staging buffer of the output window, through which its contents are stated. -/
abbrev VO3_3 : View sig .tc .vmem S1024x128 .f32 := (Memref.whole cc3_stg3_0 : Memref sig .tc .vmem S1024x128 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
/-- The accumulator: a whole scoped buffer of the kernel's own, carried from point to point. -/
abbrev scM3_0 : Memref sig .tc .vmem S1024x128 .f32 := Memref.whole cc3_scratch0
abbrev VS3_0 : View sig .tc .vmem S1024x128 .f32 := scM3_0.view

/-- The scoped buffers that are neither a staging buffer of this region nor its accumulator, each at some contents:
    carried through the region unopened. -/
abbrev Rest3 (c : Dev nD) : sProp 𝕄 :=
  Pipeline.scopedRestBut (Ix := Unit) (Name := ℕ) (U := UR sig nD τ) (Lvl := ℕ) (Val := Elt F) spec3 c [cc3_scratch0]

/-- The region's class invariant with the accumulator split off as an owned memref. -/
theorem PhiA3_eq (c : Dev nD) :
    (Pipeline.ΦA spec3 c : sProp 𝕄)
      = iprop(iprop((∃ d, owns (c : Thread nD τ) scM3_0 fullShare d) ∗ Rest3 (F := F) c) ∗ (∃ r, prngReg c r)) := by
  unfold Pipeline.ΦA
  rw [Pipeline.scopedRest_split_of_list spec3 c [cc3_scratch0] (by decide) (by decide)]
  simp only [scM3_0, owns_whole, bigSepL]
  try rfl

end Cert.Kernel.Hand

end
-- ==== Proof.K.R3RunA.lean ====
/-
  Region 3, the FIRST step (k = 0): the accumulator is zeroed, then the step's product is added; the output block is left untouched.
  The body's separation-logic triple on any whole memrefs, the stores each buffer ends with found as a list of pieces.
-/
import proofs.«133914_j16801912062630_2_alg».proof.Proof.K.R3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at contents handed back untouched and the accumulator at anything, the body runs to a
    state with the inputs as they were and each stored buffer with its pieces written. -/
noncomputable def kernelRun3_A (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R3RunB.lean ====
/-
  Region 3, a MIDDLE step (1 ≤ k ≤ 8): the step's product is added to the accumulator the step before left; the output block is left untouched.
  The body's separation-logic triple on any whole memrefs, the stores each buffer ends with found as a list of pieces.
-/
import proofs.«133914_j16801912062630_2_alg».proof.Proof.K.R3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at contents handed back untouched and the accumulator at what the step before left, the body runs to a
    state with the inputs as they were and each stored buffer with its pieces written. -/
noncomputable def kernelRun3_B (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R3RunC.lean ====
/-
  Region 3, the LAST step (k = 9): the step's product is added to the accumulator, and the finished block is stored into the output.
  The body's separation-logic triple on any whole memrefs, the stores each buffer ends with found as a list of pieces.
-/
import proofs.«133914_j16801912062630_2_alg».proof.Proof.K.R3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at anything and the accumulator at what the step before left, the body runs to a
    state with the inputs as they were and each stored buffer with its pieces written. -/
noncomputable def kernelRun3_C (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R3Frame.lean ====
/-
  Region 3: what the output block and the accumulator hold after every grid point, the region's proof data, the body
  obligation, and the invariant's two ends.

  The accumulator's contents after point t are defined by recursion on t: at a first step the zeroed accumulator plus
  the step's product, at a later step the previous point's accumulator plus the step's product; the output block is
  stored at last steps only.  The region invariant carries the accumulator at exactly those contents from one point
  to the next, beside the scoped buffers the region never opens and the generator register.
-/
import proofs.«133914_j16801912062630_2_alg».proof.Proof.K.R3RunA
import proofs.«133914_j16801912062630_2_alg».proof.Proof.K.R3RunB
import proofs.«133914_j16801912062630_2_alg».proof.Proof.K.R3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output block where the case stores nothing into it (the window is idle there). -/
def out3_A_3 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) : Vec F S1024x128 .f32 :=
  VO3_3.read (Elt F) (VO3_3.writes (Elt F) VO3_3.junk (kernelRun3_A c i arg2 harg2 arg3 harg3 arg4 harg4 arg5 harg5 arg6 harg6 hc0 hc1 x0 x1 x2).1)

/-- The case's stores into the accumulator tile it. -/
theorem scover3_A_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) (y : S1024x128.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x128.size (by sl_kernel_rfl) y

/-- What the case leaves in the accumulator. -/
def sout3_A_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) : Vec F S1024x128 .f32 :=
  VS3_0.read (Elt F) (VS3_0.writes (Elt F) VS3_0.junk (kernelRun3_A c i arg2 harg2 arg3 harg3 arg4 harg4 arg5 harg5 arg6 harg6 hc0 hc1 x0 x1 x2).2.1)

/-- A placeholder for the output block where the case stores nothing into it (the window is idle there). -/
def out3_B_3 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) : Vec F S1024x128 .f32 :=
  VO3_3.read (Elt F) (VO3_3.writes (Elt F) VO3_3.junk (kernelRun3_B c i arg2 harg2 arg3 harg3 arg4 harg4 arg5 harg5 arg6 harg6 hc0 hc1 x0 x1 x2 xs0).1)

/-- The case's stores into the accumulator tile it. -/
theorem scover3_B_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) (y : S1024x128.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1024x128.size (by sl_kernel_rfl) y

/-- What the case leaves in the accumulator. -/
def sout3_B_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) : Vec F S1024x128 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- The last step's stores into the output block tile it. -/
theorem cover3_C_3 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) (y : S1024x128.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x128.size (by sl_kernel_rfl) y

/-- What the last step leaves in the output block. -/
def out3_C_3 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) : Vec F S1024x128 .f32 :=
  VO3_3.read (Elt F) (VO3_3.writes (Elt F) VO3_3.junk (kernelRun3_C c i arg2 harg2 arg3 harg3 arg4 harg4 arg5 harg5 arg6 harg6 hc0 hc1 x0 x1 x2 xs0).1)

/-- The case's stores into the accumulator tile it. -/
theorem scover3_C_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) (y : S1024x128.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x128.size (by sl_kernel_rfl) y

/-- What the case leaves in the accumulator. -/
def sout3_C_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) : Vec F S1024x128 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output block and the accumulator hold after each point -/

/-- After the body at position n: (the output block, the accumulator). -/
def outsAt3 (c : Dev nD) : (n : ℕ) → n < cfg3.N → Vec F S1024x128 .f32 × Vec F S1024x128 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 10 = 0 then
      if h1 : (n + 1) % 10 = 9 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 10 = 9 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 10 = 0) (h1 : ¬t.val % 10 = 9) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 10 = 0) (h1 : t.val % 10 = 9) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class's invariant (every scoped buffer the region does not stage at
    anything, the generator register at some state); afterwards the accumulator at what the point before left, the
    other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Rest3 (F := F) c) ∗ (∃ r, prngReg c r)) := by
  cases n with
  | zero => exact absurd rfl hz
  | succ n => rfl

/-! ## The proof data -/

/-- The region's proof data on core c: the arrays as the region finds them; after the body at point t each input's
    buffer at its block and the output's at outsAt's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point.  The inputs' memrefs hold their blocks; the point's position along the reduction axis says
    which case applies; the invariant hands the body the accumulator at what the point before left (at anything
    before the first point) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 100 := lt_of_lt_of_eq t.isLt (show cfg3.N = 100 from N_3)
  by_cases h0 : t.val % 10 = 0
  · by_cases h1 : t.val % 10 = 9
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 100 := N_3; omega), PhiA3_eq]
  iintro ⟨⟨HS0, HR⟩, Hg⟩
  isplitl [HS0 HR]
  · isplitl [HS0]
    · iexists _; iexact HS0
    iexact HR
  iexact Hg

end Cert.Kernel.Hand

end
-- ==== Proof.K.Assembly.lean ====
/-
  The program's four kernel regions as segments of its run, and the program's frame.

  Between two items of the program a core's unscoped buffers are held whole at known contents: the launch memory, then
  each stretch of host operations applied, then, after a region, the region's result array at what its write-backs leave
  and every other buffer unchanged.  Each region is entered from that state, splits its windows' arrays off, runs its
  pipeline under its own invariant and body obligation, and puts the arrays back.  Beside the buffers ride the core's
  generator register (at some state) and its debt to the other cores (none).
-/
import proofs.«133914_j16801912062630_2_alg».proof.Proof.Gen.Kernel.Regions
import proofs.«133914_j16801912062630_2_alg».proof.Proof.K.R0Frame
import proofs.«133914_j16801912062630_2_alg».proof.Proof.K.R1Frame
import proofs.«133914_j16801912062630_2_alg».proof.Proof.K.R2Frame
import proofs.«133914_j16801912062630_2_alg».proof.Proof.K.R3Frame
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- When region 0 is entered: the launch memory after every host operation before the regions. -/
abbrev X9 (c : Dev nD) : Valuation τ sig (Elt F) := Gen.V9 m c
abbrev E9 (c : Dev nD) (b : Ref sig .tc) : Buf (Elt F) ((c : Thread nD τ).loc b) := X9 m c b

/-- What region 0 leaves in its result array. -/
def o0 (c : Dev nD) : Buf (Elt F) ((c : Thread nD τ).loc main_v50) := (dat0 (E9 m) c).arrAt 2 cfg0.N
/-- The unscoped buffers when region 0 is left: its result array at what the write-backs leave, every other buffer as entered. -/
def X10 (c : Dev nD) : Valuation τ sig (Elt F) := Function.update (X9 m c) main_v50 (o0 m c)
/-- The same read at a TensorCore reference. -/
abbrev E10 (c : Dev nD) (b : Ref sig .tc) : Buf (Elt F) ((c : Thread nD τ).loc b) := X10 m c b
theorem X10_self (c : Dev nD) : X10 m c main_v50 = o0 m c := by unfold X10; exact Function.update_self ..
theorem X10_of_ne (c : Dev nD) (b : Ref sig .tc) (hb : b ≠ main_v50) : X10 m c b = X9 m c b := by
  unfold X10; exact Function.update_of_ne (StableHlo.devRef_ne_of_ne hb) ..

/-- What region 1 leaves in its result array. -/
def o1 (c : Dev nD) : Buf (Elt F) ((c : Thread nD τ).loc main_v51) := (dat1 (E10 m) c).arrAt 3 cfg1.N
/-- The unscoped buffers when region 1 is left: its result array at what the write-backs leave, every other buffer as entered. -/
def X11 (c : Dev nD) : Valuation τ sig (Elt F) := Function.update (X10 m c) main_v51 (o1 m c)
/-- The same read at a TensorCore reference. -/
abbrev E11 (c : Dev nD) (b : Ref sig .tc) : Buf (Elt F) ((c : Thread nD τ).loc b) := X11 m c b
theorem X11_self (c : Dev nD) : X11 m c main_v51 = o1 m c := by unfold X11; exact Function.update_self ..
theorem X11_of_ne (c : Dev nD) (b : Ref sig .tc) (hb : b ≠ main_v51) : X11 m c b = X10 m c b := by
  unfold X11; exact Function.update_of_ne (StableHlo.devRef_ne_of_ne hb) ..

/-- What region 2 leaves in its result array. -/
def o2 (c : Dev nD) : Buf (Elt F) ((c : Thread nD τ).loc main_v52) := (dat2 (E11 m) c).arrAt 2 cfg2.N
/-- The unscoped buffers when region 2 is left: its result array at what the write-backs leave, every other buffer as entered. -/
def X12 (c : Dev nD) : Valuation τ sig (Elt F) := Function.update (X11 m c) main_v52 (o2 m c)
/-- The same read at a TensorCore reference. -/
abbrev E12 (c : Dev nD) (b : Ref sig .tc) : Buf (Elt F) ((c : Thread nD τ).loc b) := X12 m c b
theorem X12_self (c : Dev nD) : X12 m c main_v52 = o2 m c := by unfold X12; exact Function.update_self ..
theorem X12_of_ne (c : Dev nD) (b : Ref sig .tc) (hb : b ≠ main_v52) : X12 m c b = X11 m c b := by
  unfold X12; exact Function.update_of_ne (StableHlo.devRef_ne_of_ne hb) ..

/-- What region 3 leaves in its result array. -/
def o3 (c : Dev nD) : Buf (Elt F) ((c : Thread nD τ).loc main_v53) := (dat3 (E12 m) c).arrAt 3 cfg3.N
/-- The unscoped buffers when region 3 is left: its result array at what the write-backs leave, every other buffer as entered. -/
def X13 (c : Dev nD) : Valuation τ sig (Elt F) := Function.update (X12 m c) main_v53 (o3 m c)
/-- The same read at a TensorCore reference. -/
abbrev E13 (c : Dev nD) (b : Ref sig .tc) : Buf (Elt F) ((c : Thread nD τ).loc b) := X13 m c b
theorem X13_self (c : Dev nD) : X13 m c main_v53 = o3 m c := by unfold X13; exact Function.update_self ..
theorem X13_of_ne (c : Dev nD) (b : Ref sig .tc) (hb : b ≠ main_v53) : X13 m c b = X12 m c b := by
  unfold X13; exact Function.update_of_ne (StableHlo.devRef_ne_of_ne hb) ..

/-- What the regions leave, as the unknowns the program's conditional frame is stated over. -/
def outs : Gen.Outs (F := F) := fun J r c =>
  if J = 10 then X10 m c r else if J = 11 then X11 m c r else if J = 12 then X12 m c r else X13 m c r

theorem V10_eq (c : Dev nD) : Gen.V10 m (outs m) c = X10 m c := by
  show Function.update (Gen.V9 m c) main_v50 (outs m 10 main_v50 c) = Function.update (X9 m c) main_v50 (o0 m c)
  refine congrArg _ ?_
  show (if (10 : ℕ) = 10 then X10 m c main_v50 else _) = _
  rw [if_pos rfl]; exact X10_self m c
theorem V11_eq (c : Dev nD) : Gen.V11 m (outs m) c = X11 m c := by
  show Function.update (Gen.V10 m (outs m) c) main_v51 (outs m 11 main_v51 c) = Function.update (X10 m c) main_v51 (o1 m c)
  rw [V10_eq]
  refine congrArg _ ?_
  show (if (11 : ℕ) = 10 then _ else if (11 : ℕ) = 11 then X11 m c main_v51 else _) = _
  rw [if_neg (by decide), if_pos rfl]; exact X11_self m c
theorem V12_eq (c : Dev nD) : Gen.V12 m (outs m) c = X12 m c := by
  show Function.update (Gen.V11 m (outs m) c) main_v52 (outs m 12 main_v52 c) = Function.update (X11 m c) main_v52 (o2 m c)
  rw [V11_eq]
  refine congrArg _ ?_
  show (if (12 : ℕ) = 10 then _ else if (12 : ℕ) = 11 then _ else if (12 : ℕ) = 12 then X12 m c main_v52 else _) = _
  rw [if_neg (by decide), if_neg (by decide), if_pos rfl]; exact X12_self m c
theorem V13_eq (c : Dev nD) : Gen.V13 m (outs m) c = X13 m c := by
  show Function.update (Gen.V12 m (outs m) c) main_v53 (outs m 13 main_v53 c) = Function.update (X12 m c) main_v53 (o3 m c)
  rw [V12_eq]
  refine congrArg _ ?_
  show (if (13 : ℕ) = 10 then _ else if (13 : ℕ) = 11 then _ else if (13 : ℕ) = 12 then _ else X13 m c main_v53) = _
  rw [if_neg (by decide), if_neg (by decide), if_neg (by decide)]; exact X13_self m c

/-! ## The proof data family and what rides beside the buffers -/

/-- Every region's proof data, each at its entry contents. -/
def pdats : (p : Fin 4) → (c : Dev nD) → Dat τ (Elt F) Unit ℕ (UR sig nD τ) ℕ (cfgs p) c
  | ⟨0, _⟩ => fun c => dat0 (E9 m) c
  | ⟨1, _⟩ => fun c => dat1 (E10 m) c
  | ⟨2, _⟩ => fun c => dat2 (E11 m) c
  | ⟨3, _⟩ => fun c => dat3 (E12 m) c

abbrev 𝒱n : Variants := Variants.none
/-- No core owes another anything: no level is assigned. -/
abbrev Ln : GSem nD τ sig → Finset Unit := fun _ => ∅
abbrev lvn : GSem nD τ sig → Unit → ℕ := fun _ _ => 0
/-- Beside the buffers: the generator register at some state, and the core's debt, at nothing. -/
abbrev Rr (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = E10 m c (Pipeline.arrRef spec0 w) := by
  show (dat0 (E9 m) c).arrAt w cfg0.N = _
  fin_cases w
  · exact (((dat0 (E9 m) c).arrAt_in 0 rfl _).trans (A_eq0 (E9 m) c 0)).trans (X10_of_ne m c _ (by decide)).symm
  · exact (((dat0 (E9 m) c).arrAt_in 1 rfl _).trans (A_eq0 (E9 m) c 1)).trans (X10_of_ne m c _ (by decide)).symm
  · exact (X10_self m c).symm
theorem hrest0 (c : Dev nD) : ∀ b, b ∉ Finset.univ.image (Pipeline.arrRef spec0) → E10 m c b = E9 m c b :=
  fun b hb => X10_of_ne m c b fun e => hb (Finset.mem_image.mpr ⟨2, Finset.mem_univ _, e.symm⟩)

theorem hF1 (c : Dev nD) (w : Fin cfg1.W) : (pdats m 1 c).arrAt w cfg1.N = E11 m c (Pipeline.arrRef spec1 w) := by
  show (dat1 (E10 m) c).arrAt w cfg1.N = _
  fin_cases w
  · exact (((dat1 (E10 m) c).arrAt_in 0 rfl _).trans (A_eq1 (E10 m) c 0)).trans (X11_of_ne m c _ (by decide)).symm
  · exact (((dat1 (E10 m) c).arrAt_in 1 rfl _).trans (A_eq1 (E10 m) c 1)).trans (X11_of_ne m c _ (by decide)).symm
  · exact (((dat1 (E10 m) c).arrAt_in 2 rfl _).trans (A_eq1 (E10 m) c 2)).trans (X11_of_ne m c _ (by decide)).symm
  · exact (X11_self m c).symm
theorem hrest1 (c : Dev nD) : ∀ b, b ∉ Finset.univ.image (Pipeline.arrRef spec1) → E11 m c b = E10 m c b :=
  fun b hb => X11_of_ne m c b fun e => hb (Finset.mem_image.mpr ⟨3, Finset.mem_univ _, e.symm⟩)

theorem hF2 (c : Dev nD) (w : Fin cfg2.W) : (pdats m 2 c).arrAt w cfg2.N = E12 m c (Pipeline.arrRef spec2 w) := by
  show (dat2 (E11 m) c).arrAt w cfg2.N = _
  fin_cases w
  · exact (((dat2 (E11 m) c).arrAt_in 0 rfl _).trans (A_eq2 (E11 m) c 0)).trans (X12_of_ne m c _ (by decide)).symm
  · exact (((dat2 (E11 m) c).arrAt_in 1 rfl _).trans (A_eq2 (E11 m) c 1)).trans (X12_of_ne m c _ (by decide)).symm
  · exact (X12_self m c).symm
theorem hrest2 (c : Dev nD) : ∀ b, b ∉ Finset.univ.image (Pipeline.arrRef spec2) → E12 m c b = E11 m c b :=
  fun b hb => X12_of_ne m c b fun e => hb (Finset.mem_image.mpr ⟨2, Finset.mem_univ _, e.symm⟩)

theorem hF3 (c : Dev nD) (w : Fin cfg3.W) : (pdats m 3 c).arrAt w cfg3.N = E13 m c (Pipeline.arrRef spec3 w) := by
  show (dat3 (E12 m) c).arrAt w cfg3.N = _
  fin_cases w
  · exact (((dat3 (E12 m) c).arrAt_in 0 rfl _).trans (A_eq3 (E12 m) c 0)).trans (X13_of_ne m c _ (by decide)).symm
  · exact (((dat3 (E12 m) c).arrAt_in 1 rfl _).trans (A_eq3 (E12 m) c 1)).trans (X13_of_ne m c _ (by decide)).symm
  · exact (((dat3 (E12 m) c).arrAt_in 2 rfl _).trans (A_eq3 (E12 m) c 2)).trans (X13_of_ne m c _ (by decide)).symm
  · exact (X13_self m c).symm
theorem hrest3 (c : Dev nD) : ∀ b, b ∉ Finset.univ.image (Pipeline.arrRef spec3) → E13 m c b = E12 m c b :=
  fun b hb => X13_of_ne m c b fun e => hb (Finset.mem_image.mpr ⟨3, Finset.mem_univ _, e.symm⟩)

/-! ## The regions as segments -/

-- a library lemma stated over the pinned configuration unifies with the printed one only when unification may unfold plain
-- definitions in a metavariable's type
set_option backward.isDefEq.respectTransparency.types false in
/-- REGION 0 as a segment of the program: entered with every unscoped buffer at X9, left with them at X10.  Its arrays
    are split out of the unscoped buffers and put back at their final contents; the generator register goes into the region's
    invariant and comes back; nothing is owed; the kernel has no semaphore of its own. -/
def reg0 : Pipeline.RegionSeg (pcfgs (F := F)) Gen.adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E9 m) c).loose
  hwaits := Pipeline.hwaits_of_owed_zero _ _ _ _ Ln lvn 0 fun _ _ => rfl
  pre c := iprop(StableHlo.held (c : Thread nD τ) (Pipeline.ucRefs τ sig) (X9 m c) ∗ Rr (F := F) c)
  post c := iprop(StableHlo.held (c : Thread nD τ) (Pipeline.ucRefs τ sig) (X10 m c) ∗ Rr (F := F) c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E9 m c) (E10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 1 as a segment of the program: entered with every unscoped buffer at X10, left with them at X11.  Its arrays
    are split out of the unscoped buffers and put back at their final contents; the generator register goes into the region's
    invariant and comes back; nothing is owed; the kernel has no semaphore of its own. -/
def reg1 : Pipeline.RegionSeg (pcfgs (F := F)) Gen.adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E10 m) c).loose
  hwaits := Pipeline.hwaits_of_owed_zero _ _ _ _ Ln lvn 1 fun _ _ => rfl
  pre c := iprop(StableHlo.held (c : Thread nD τ) (Pipeline.ucRefs τ sig) (X10 m c) ∗ Rr (F := F) c)
  post c := iprop(StableHlo.held (c : Thread nD τ) (Pipeline.ucRefs τ sig) (X11 m c) ∗ Rr (F := F) c)
  X c := iprop(∃ r, prngReg c r)
  Y c := iprop(∃ r, prngReg c r)
  Z c := Pipeline.unscopedRest (Ix := Unit) (Name := ℕ) (U := UR sig nD τ) (Lvl := ℕ) spec1 c (E10 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E10 m) c
    unfold Pipeline.ΦA at h
    rw [show (pdats m 1 c).Φ 0 = (dat1 (E10 m) c).Φ 0 from rfl]
    iintro ⟨Hp, -, Hr⟩
    iapply h
    isplitl [Hr]; · iexact Hr
    iexact Hp
  hout c := by
    have h := hout1 (E10 m) c
    unfold Pipeline.ΦA at h
    rw [Pipeline.ownSems0_none, show (pdats m 1 c).Φ (Fin.last _) = (dat1 (E10 m) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E10 m c) (E11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 2 as a segment of the program: entered with every unscoped buffer at X11, left with them at X12.  Its arrays
    are split out of the unscoped buffers and put back at their final contents; the generator register goes into the region's
    invariant and comes back; nothing is owed; the kernel has no semaphore of its own. -/
def reg2 : Pipeline.RegionSeg (pcfgs (F := F)) Gen.adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ Ln lvn 2 fun _ _ => rfl
  pre c := iprop(StableHlo.held (c : Thread nD τ) (Pipeline.ucRefs τ sig) (X11 m c) ∗ Rr (F := F) c)
  post c := iprop(StableHlo.held (c : Thread nD τ) (Pipeline.ucRefs τ sig) (X12 m c) ∗ Rr (F := F) c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E11 m c) (E12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 3 as a segment of the program: entered with every unscoped buffer at X12, left with them at X13.  Its arrays
    are split out of the unscoped buffers and put back at their final contents; the generator register goes into the region's
    invariant and comes back; nothing is owed; the kernel has no semaphore of its own. -/
def reg3 : Pipeline.RegionSeg (pcfgs (F := F)) Gen.adm (pdats m) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (E12 m) c).loose
  hwaits := Pipeline.hwaits_of_owed_zero _ _ _ _ Ln lvn 3 fun _ _ => rfl
  pre c := iprop(StableHlo.held (c : Thread nD τ) (Pipeline.ucRefs τ sig) (X12 m c) ∗ Rr (F := F) c)
  post c := iprop(StableHlo.held (c : Thread nD τ) (Pipeline.ucRefs τ sig) (X13 m c) ∗ Rr (F := F) c)
  X c := iprop(∃ r, prngReg c r)
  Y c := iprop(∃ r, prngReg c r)
  Z c := Pipeline.unscopedRest (Ix := Unit) (Name := ℕ) (U := UR sig nD τ) (Lvl := ℕ) spec3 c (E12 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (E12 m) c
    unfold Pipeline.ΦA at h
    rw [show (pdats m 3 c).Φ 0 = (dat3 (E12 m) c).Φ 0 from rfl]
    iintro ⟨Hp, -, Hr⟩
    iapply h
    isplitl [Hr]; · iexact Hr
    iexact Hp
  hout c := by
    have h := hout3 (E12 m) c
    unfold Pipeline.ΦA at h
    rw [Pipeline.ownSems0_none, show (pdats m 3 c).Φ (Fin.last _) = (dat3 (E12 m) c).Φ (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (E12 m c) (E13 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

variable (ρ : Dev nD → PrngReg)

/-- What the launch leaves beside the buffers makes the riding state on every core. -/
theorem rest_of_launch (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ Rr (F := F) c := by
  iintro ⟨-, HO, -, Hp, -⟩
  isplitl [Hp]; · iexists _; iexact Hp
  iexists ∅; iexact HO

set_option backward.isDefEq.respectTransparency.types false in
/-- THE FRAME: from any memory with zero counters every weakly fair execution of the program terminates, nothing faulting,
    and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb _ 𝕄) () 𝒱n Ln lvn (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr (F := F) c)
    (by
      have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          ⊢ (bigSep Finset.univ fun c : Dev nD => Rr (F := F) c : sProp 𝕄) := bigSep_mono fun c _ => rest_of_launch ρ c
      iintro ⟨H, -⟩
      imodintro
      iapply hm
      iexact H)
    (fun c => by iintro ⟨-, H⟩; iexact H)
    (reg0 m) (fun c => .rfl) (fun c => by rw [V10_eq]; exact .rfl)
    (reg1 m) (fun c => by rw [V10_eq]; exact .rfl) (fun c => by rw [V11_eq]; exact .rfl)
    (reg2 m) (fun c => by rw [V11_eq]; exact .rfl) (fun c => by rw [V12_eq]; exact .rfl)
    (reg3 m) (fun c => by rw [V12_eq]; exact .rfl) (fun c => by rw [V13_eq]; exact .rfl)

end Cert.Kernel.Hand

end
-- ==== Proof.R0Run.lean ====
/- The first dense product of the network, h1 = xpad · W1, one block of 2048 rows at a grid point.
   At every point of the 5 × 1 grid the second coordinate is 0, so the body both clears its
   accumulator and writes its result: it stores the zero block into the accumulator, adds the
   product of the two input blocks to what it reads back, and copies the accumulator into the
   output block. This module runs that body once, symbolically, on whole buffers. -/
import proofs.«133914_j16801912062630_2_alg».proof.Proof.Gen.KernelIdeal.Launch
import proofs.«133914_j16801912062630_2_alg».proof.Proof.Gen.KernelIdeal.Skeleton
import proofs.«133914_j16801912062630_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- "This is the first step along the contraction axis": the accumulator is cleared. -/
abbrev cond0_0 (i : grid0.Coords) : Prop := (Scalar.cmpi .ne (Scalar.extui (Scalar.cmpi .eq (BitVec.ofNat 32 (i 1).val) 0#32)) 0#32) = 1#1
/-- The contraction axis has one step, so it is the first at every point. -/
theorem hcond0_0 : ∀ t : Fin cfg0.N, cond0_0 (grid0.coords t) :=
  (by decide +kernel : ∀ t : Fin grid0.N, cond0_0 (grid0.coords t))

/-- "This is the last step along the contraction axis": the accumulator is written out. -/
abbrev cond0_1 (i : grid0.Coords) : Prop := k0_cond2 i = 1#1
/-- And the last. -/
theorem hcond0_1 : ∀ t : Fin cfg0.N, cond0_1 (grid0.coords t) :=
  (by decide +kernel : ∀ t : Fin grid0.N, cond0_1 (grid0.coords t))

/-! ## The body's run -/

set_option maxHeartbeats 1000000 in
/-- The body at a point where both conditions hold, on whole buffers: the two input blocks at
    `x0`, `x1`, the output block and the accumulator at anything. It runs to the continuation with
    the inputs as they were and the output block and the accumulator each written by a list of
    pieces; the lists are what the symbolic run finds. -/
noncomputable def kernelRun0 (c : Dev nD) (i : grid0.Coords) (arg2 : Memref sig .tc .vmem S2048x256 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : cond0_1 i)
    (x0 : Vec F S2048x256 .f32) (x1 : Vec F S256x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R0Frame.lean ====
/- The first dense product of the network, h1 = xpad · W1, as a pipelined region: the proof data
   of the pipeline (what each staging buffer holds after the body at each grid point) and the
   body's obligation at every point, for any contents V of the arrays when the region is entered.
   The accumulator is cleared at every point before it is used, so nothing is carried between
   points and the region invariant is the same at every point: the accumulator at anything, the
   other scoped buffers untouched, the generator register at some state. -/
import proofs.«133914_j16801912062630_2_alg».proof.Proof.R0Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 2048 rows of the left factor is in its staging buffer at every point, for any proof data
    over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor (one block, fetched once) is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## No window is idle at any point -/

theorem liveAt0_0 : ∀ t : Fin cfg0.N, cfg0.idle 0 (grid0.coords t) = false := by decide +kernel
theorem liveAt0_1 : ∀ t : Fin cfg0.N, cfg0.idle 1 (grid0.coords t) = false := by decide +kernel
/-- The output block is stored at every point (the contraction axis has one step). -/
theorem liveAt0_2 : ∀ t : Fin cfg0.N, cfg0.idle 2 (grid0.coords t) = false := by decide +kernel

/-! ## The memrefs the body is called with -/

/-- One staging buffer of the output window, through which its contents are stated. -/
abbrev VO0_2 : View sig .tc .vmem S2048x128 .f32 := (Memref.whole cc0_stg2_0 : Memref sig .tc .vmem S2048x128 .f32).view
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S2048x128 .f32 := Memref.whole cc0_scratch0

/-- The region invariant with the accumulator taken out as a memref owned at some contents; the other
    scoped buffers (the other calls' staging buffers and accumulators) stay together, unopened. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [BI.bigSepL_singleton, scM0_0, owns_whole]; try rfl

/-! ## What the body leaves in the output block -/

/-- The pieces the body's run found for the output block tile it. -/
theorem cover0_2 (c : Dev nD) (i : grid0.Coords) (arg2 : Memref sig .tc .vmem S2048x256 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : cond0_1 i)
    (x0 : Vec F S2048x256 .f32) (x1 : Vec F S256x128 .f32) (y : S2048x128.Idx) :
    ∃ pc ∈ (kernelRun0 c i arg2 harg2 arg3 harg3 arg4 harg4 arg5 harg5 hc0 hc1 x0 x1).1, y ∈ pc.1.set :=
  View.cover_of_tiledL (kernelRun0 c i arg2 harg2 arg3 harg3 arg4 harg4 arg5 harg5 hc0 hc1 x0 x1).1 S2048x128.size (by sl_kernel_rfl) y

/-- What the body leaves in the output's staging buffer: its pieces read back. -/
def out0_2 (c : Dev nD) (i : grid0.Coords) (arg2 : Memref sig .tc .vmem S2048x256 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : cond0_1 i)
    (x0 : Vec F S2048x256 .f32) (x1 : Vec F S256x128 .f32) : Vec F S2048x128 .f32 :=
  VO0_2.read (Elt F) (VO0_2.writes (Elt F) VO0_2.junk (kernelRun0 c i arg2 harg2 arg3 harg3 arg4 harg4 arg5 harg5 hc0 hc1 x0 x1).1)

/-! ## The pipeline's proof data -/

/-- The proof data of the pipeline on core `c`: the arrays as the region finds them; after the body at
    point `t` each factor's buffer at its block and the output's at what the body's stores leave; the
    invariant the same at every point; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant is the same at every point. -/
theorem Phi0 (c : Dev nD) (t : Fin (cfg0.N + 1)) : (dat0 V c).Φ t = Pipeline.ΦA spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) scM0_0 (Memref.isWhole_whole _) (hcond0_0 t) (hcond0_1 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point: the factors' buffers hold their blocks, the invariant hands over the
    accumulator at anything and takes it back at anything; the output's buffer ends at the pieces
    the run found, which tile it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0, Phi0, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold out0_2
  iintro ⟨⟨⟨HS0, Hrest⟩, Hg⟩, Ho, ⟨%d0, H0⟩, ⟨%d1, H1⟩, ⟨%d2, H2⟩⟩
  iapply ((kernelRun0 c (grid0.coords t) _ _ _ _ _ _ _ _ (hcond0_0 t) (hcond0_1 t) (iblk0 V c 0 t) (iblk0 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Runs.lean ====
/-
  Region 1 (the aggregation kernel of layer 1): what its per-case runs and its proof data share.

  The kernel runs on a 10 x 10 grid, point t = 10·i + k.  At k = 0 it zeroes its accumulator; at every point it adds the
  product of the point's 1024 x 1024 block of the weight matrix and 1024 x 128 block of the features to the accumulator;
  at k = 9 it adds the bias row, takes the positive part, zeroes the rows whose global number is not below 10000, and stores the
  result into the output block.  So there are three control cases: first (k = 0), middle (1 ≤ k ≤ 8), last (k = 9);
  the output window is idle, and not written back, except in the last case.  Everything is stated at a parameter V:
  the buffers' contents when the region is entered.
-/
import proofs.«133914_j16801912062630_2_alg».proof.Proof.Gen.KernelIdeal.Launch
import proofs.«133914_j16801912062630_2_alg».proof.Proof.Gen.KernelIdeal.Skeleton
import proofs.«133914_j16801912062630_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first step along the reduction axis" (k = 0). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- "This is the last step along the reduction axis" (k = 9). -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Except at the last step the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x128 .f32 := (Memref.whole cc1_stg3_0 : Memref sig .tc .vmem S1024x128 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x128 .f32 := Memref.whole cc1_scratch0
abbrev VS1_0 : View sig .tc .vmem S1024x128 .f32 := scM1_0.view

/-- The scoped buffers that are neither a staging buffer of this region nor its accumulator, each at some contents:
    carried through the region unopened. -/
abbrev Rest1 (c : Dev nD) : sProp 𝕄 :=
  Pipeline.scopedRestBut (Ix := Unit) (Name := ℕ) (U := UR sig nD τ) (Lvl := ℕ) (Val := Elt F) spec1 c [cc1_scratch0]

/-- The region's class invariant with the accumulator split off as an owned memref. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, bigSepL]
  try rfl

end Cert.KernelIdeal.Hand

end
-- ==== Proof.R1RunA.lean ====
/-
  Region 1, the FIRST step (k = 0): the accumulator is zeroed, then the step's product is added; the output block is left untouched.
  The body's separation-logic triple on any whole memrefs, the stores each buffer ends with found as a list of pieces.
-/
import proofs.«133914_j16801912062630_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at contents handed back untouched and the accumulator at anything, the body runs to a
    state with the inputs as they were and each stored buffer with its pieces written. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R1RunB.lean ====
/-
  Region 1, a MIDDLE step (1 ≤ k ≤ 8): the step's product is added to the accumulator the step before left; the output block is left untouched.
  The body's separation-logic triple on any whole memrefs, the stores each buffer ends with found as a list of pieces.
-/
import proofs.«133914_j16801912062630_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at contents handed back untouched and the accumulator at what the step before left, the body runs to a
    state with the inputs as they were and each stored buffer with its pieces written. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R1RunC.lean ====
/-
  Region 1, the LAST step (k = 9): the step's product is added to the accumulator, and the finished block is stored into the output.
  The body's separation-logic triple on any whole memrefs, the stores each buffer ends with found as a list of pieces.
-/
import proofs.«133914_j16801912062630_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at anything and the accumulator at what the step before left, the body runs to a
    state with the inputs as they were and each stored buffer with its pieces written. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R1Frame.lean ====
/-
  Region 1: what the output block and the accumulator hold after every grid point, the region's proof data, the body
  obligation, and the invariant's two ends.

  The accumulator's contents after point t are defined by recursion on t: at a first step the zeroed accumulator plus
  the step's product, at a later step the previous point's accumulator plus the step's product; the output block is
  stored at last steps only.  The region invariant carries the accumulator at exactly those contents from one point
  to the next, beside the scoped buffers the region never opens and the generator register.
-/
import proofs.«133914_j16801912062630_2_alg».proof.Proof.R1RunA
import proofs.«133914_j16801912062630_2_alg».proof.Proof.R1RunB
import proofs.«133914_j16801912062630_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output block where the case stores nothing into it (the window is idle there). -/
def out1_A_3 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) : Vec F S1024x128 .f32 :=
  VO1_3.read (Elt F) (VO1_3.writes (Elt F) VO1_3.junk (kernelRun1_A c i arg2 harg2 arg3 harg3 arg4 harg4 arg5 harg5 arg6 harg6 hc0 hc1 x0 x1 x2).1)

/-- The case's stores into the accumulator tile it. -/
theorem scover1_A_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) (y : S1024x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x128.size (by sl_kernel_rfl) y

/-- What the case leaves in the accumulator. -/
def sout1_A_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) : Vec F S1024x128 .f32 :=
  VS1_0.read (Elt F) (VS1_0.writes (Elt F) VS1_0.junk (kernelRun1_A c i arg2 harg2 arg3 harg3 arg4 harg4 arg5 harg5 arg6 harg6 hc0 hc1 x0 x1 x2).2.1)

/-- A placeholder for the output block where the case stores nothing into it (the window is idle there). -/
def out1_B_3 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) : Vec F S1024x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The case's stores into the accumulator tile it. -/
theorem scover1_B_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) (y : S1024x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x128.size (by sl_kernel_rfl) y

/-- What the case leaves in the accumulator. -/
def sout1_B_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The last step's stores into the output block tile it. -/
theorem cover1_C_3 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x128.size (by sl_kernel_rfl) y

/-- What the last step leaves in the output block. -/
def out1_C_3 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) : Vec F S1024x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- The case's stores into the accumulator tile it. -/
theorem scover1_C_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) (y : S1024x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x128.size (by sl_kernel_rfl) y

/-- What the case leaves in the accumulator. -/
def sout1_C_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block and the accumulator hold after each point -/

/-- After the body at position n: (the output block, the accumulator). -/
def outsAt1 (c : Dev nD) : (n : ℕ) → n < cfg1.N → Vec F S1024x128 .f32 × Vec F S1024x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 10 = 0 then
      if h1 : (n + 1) % 10 = 9 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 10 = 9 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class's invariant (every scoped buffer the region does not stage at
    anything, the generator register at some state); afterwards the accumulator at what the point before left, the
    other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The proof data -/

/-- The region's proof data on core c: the arrays as the region finds them; after the body at point t each input's
    buffer at its block and the output's at outsAt's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point.  The inputs' memrefs hold their blocks; the point's position along the reduction axis says
    which case applies; the invariant hands the body the accumulator at what the point before left (at anything
    before the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 10 = 0
  · by_cases h1 : t.val % 10 = 9
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 100 := N_1; omega), PhiA1_eq]
  iintro ⟨⟨HS0, HR⟩, Hg⟩
  isplitl [HS0 HR]
  · isplitl [HS0]
    · iexists _; iexact HS0
    iexact HR
  iexact Hg

end Cert.KernelIdeal.Hand

end
-- ==== Proof.R2Run.lean ====
/- The second dense product of the network, h2 = h · W2pad, one block of 2048 rows at a grid point.
   At every point of the 5 × 1 grid the second coordinate is 0, so the body both clears its
   accumulator and writes its result: it stores the zero block into the accumulator, adds the
   product of the two input blocks to what it reads back, and copies the accumulator into the
   output block. This module runs that body once, symbolically, on whole buffers. -/
import proofs.«133914_j16801912062630_2_alg».proof.Proof.Gen.KernelIdeal.Launch
import proofs.«133914_j16801912062630_2_alg».proof.Proof.Gen.KernelIdeal.Skeleton
import proofs.«133914_j16801912062630_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- "This is the first step along the contraction axis": the accumulator is cleared. -/
abbrev cond2_0 (i : grid2.Coords) : Prop := (Scalar.cmpi .ne (Scalar.extui (Scalar.cmpi .eq (BitVec.ofNat 32 (i 1).val) 0#32)) 0#32) = 1#1
/-- The contraction axis has one step, so it is the first at every point. -/
theorem hcond2_0 : ∀ t : Fin cfg2.N, cond2_0 (grid2.coords t) :=
  (by decide +kernel : ∀ t : Fin grid2.N, cond2_0 (grid2.coords t))

/-- "This is the last step along the contraction axis": the accumulator is written out. -/
abbrev cond2_1 (i : grid2.Coords) : Prop := k2_cond2 i = 1#1
/-- And the last. -/
theorem hcond2_1 : ∀ t : Fin cfg2.N, cond2_1 (grid2.coords t) :=
  (by decide +kernel : ∀ t : Fin grid2.N, cond2_1 (grid2.coords t))

/-! ## The body's run -/

set_option maxHeartbeats 1000000 in
/-- The body at a point where both conditions hold, on whole buffers: the two input blocks at
    `x0`, `x1`, the output block and the accumulator at anything. It runs to the continuation with
    the inputs as they were and the output block and the accumulator each written by a list of
    pieces; the lists are what the symbolic run finds. -/
noncomputable def kernelRun2 (c : Dev nD) (i : grid2.Coords) (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : cond2_1 i)
    (x0 : Vec F S2048x128 .f32) (x1 : Vec F S128x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R2Frame.lean ====
/- The second dense product of the network, h2 = h · W2pad, as a pipelined region: the proof data
   of the pipeline (what each staging buffer holds after the body at each grid point) and the
   body's obligation at every point, for any contents V of the arrays when the region is entered.
   The accumulator is cleared at every point before it is used, so nothing is carried between
   points and the region invariant is the same at every point: the accumulator at anything, the
   other scoped buffers untouched, the generator register at some state. -/
import proofs.«133914_j16801912062630_2_alg».proof.Proof.R2Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of 2048 rows of the left factor is in its staging buffer at every point, for any proof data
    over `V` whose body leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor (one block, fetched once) is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## No window is idle at any point -/

theorem liveAt2_0 : ∀ t : Fin cfg2.N, cfg2.idle 0 (grid2.coords t) = false := by decide +kernel
theorem liveAt2_1 : ∀ t : Fin cfg2.N, cfg2.idle 1 (grid2.coords t) = false := by decide +kernel
/-- The output block is stored at every point (the contraction axis has one step). -/
theorem liveAt2_2 : ∀ t : Fin cfg2.N, cfg2.idle 2 (grid2.coords t) = false := by decide +kernel

/-! ## The memrefs the body is called with -/

/-- One staging buffer of the output window, through which its contents are stated. -/
abbrev VO2_2 : View sig .tc .vmem S2048x128 .f32 := (Memref.whole cc2_stg2_0 : Memref sig .tc .vmem S2048x128 .f32).view
abbrev ms2_0 (t : Fin cfg2.N) : Memref sig .tc .vmem S2048x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S2048x128 .f32 := Memref.whole cc2_scratch0

/-- The region invariant with the accumulator taken out as a memref owned at some contents; the other
    scoped buffers (the other calls' staging buffers and accumulators) stay together, unopened. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [BI.bigSepL_singleton, scM2_0, owns_whole]; try rfl

/-! ## What the body leaves in the output block -/

/-- The pieces the body's run found for the output block tile it. -/
theorem cover2_2 (c : Dev nD) (i : grid2.Coords) (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : cond2_1 i)
    (x0 : Vec F S2048x128 .f32) (x1 : Vec F S128x128 .f32) (y : S2048x128.Idx) :
    ∃ pc ∈ (kernelRun2 c i arg2 harg2 arg3 harg3 arg4 harg4 arg5 harg5 hc0 hc1 x0 x1).1, y ∈ pc.1.set :=
  View.cover_of_tiledL (kernelRun2 c i arg2 harg2 arg3 harg3 arg4 harg4 arg5 harg5 hc0 hc1 x0 x1).1 S2048x128.size (by sl_kernel_rfl) y

/-- What the body leaves in the output's staging buffer: its pieces read back. -/
def out2_2 (c : Dev nD) (i : grid2.Coords) (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : cond2_1 i)
    (x0 : Vec F S2048x128 .f32) (x1 : Vec F S128x128 .f32) : Vec F S2048x128 .f32 :=
  VO2_2.read (Elt F) (VO2_2.writes (Elt F) VO2_2.junk (kernelRun2 c i arg2 harg2 arg3 harg3 arg4 harg4 arg5 harg5 hc0 hc1 x0 x1).1)

/-! ## The pipeline's proof data -/

/-- The proof data of the pipeline on core `c`: the arrays as the region finds them; after the body at
    point `t` each factor's buffer at its block and the output's at what the body's stores leave; the
    invariant the same at every point; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant is the same at every point. -/
theorem Phi2 (c : Dev nD) (t : Fin (cfg2.N + 1)) : (dat2 V c).Φ t = Pipeline.ΦA spec2 c := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 c (grid2.coords t) (ms2_0 t) (hs2_0 t) (ms2_1 t) (hs2_1 t) (ms2_2 t) (hs2_2 t) scM2_0 (Memref.isWhole_whole _) (hcond2_0 t) (hcond2_1 t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 1600000 in
/-- The body at any point: the factors' buffers hold their blocks, the invariant hands over the
    accumulator at anything and takes it back at anything; the output's buffer ends at the pieces
    the run found, which tile it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [Phi2, Phi2, PhiA2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  unfold out2_2
  iintro ⟨⟨⟨HS0, Hrest⟩, Hg⟩, Ho, ⟨%d0, H0⟩, ⟨%d1, H1⟩, ⟨%d2, H2⟩⟩
  iapply ((kernelRun2 c (grid2.coords t) _ _ _ _ _ _ _ _ (hcond2_0 t) (hcond2_1 t) (iblk2 V c 0 t) (iblk2 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover2_2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.R3Runs.lean ====
/-
  Region 3 (the aggregation kernel of layer 2): what its per-case runs and its proof data share.

  The kernel runs on a 10 x 10 grid, point t = 10·i + k.  At k = 0 it zeroes its accumulator; at every point it adds the
  product of the point's 1024 x 1024 block of the weight matrix and 1024 x 128 block of the features to the accumulator;
  at k = 9 it adds the bias row, zeroes the rows whose global number is not below 10000, and stores the
  result into the output block.  So there are three control cases: first (k = 0), middle (1 ≤ k ≤ 8), last (k = 9);
  the output window is idle, and not written back, except in the last case.  Everything is stated at a parameter V:
  the buffers' contents when the region is entered.
-/
import proofs.«133914_j16801912062630_2_alg».proof.Proof.Gen.KernelIdeal.Launch
import proofs.«133914_j16801912062630_2_alg».proof.Proof.Gen.KernelIdeal.Skeleton
import proofs.«133914_j16801912062630_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- "This is the first step along the reduction axis" (k = 0). -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)
/-- "This is the last step along the reduction axis" (k = 9). -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Except at the last step the output window is idle and is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

/-- One staging buffer of the output window, through which its contents are stated. -/
abbrev VO3_3 : View sig .tc .vmem S1024x128 .f32 := (Memref.whole cc3_stg3_0 : Memref sig .tc .vmem S1024x128 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
/-- The accumulator: a whole scoped buffer of the kernel's own, carried from point to point. -/
abbrev scM3_0 : Memref sig .tc .vmem S1024x128 .f32 := Memref.whole cc3_scratch0
abbrev VS3_0 : View sig .tc .vmem S1024x128 .f32 := scM3_0.view

/-- The scoped buffers that are neither a staging buffer of this region nor its accumulator, each at some contents:
    carried through the region unopened. -/
abbrev Rest3 (c : Dev nD) : sProp 𝕄 :=
  Pipeline.scopedRestBut (Ix := Unit) (Name := ℕ) (U := UR sig nD τ) (Lvl := ℕ) (Val := Elt F) spec3 c [cc3_scratch0]

/-- The region's class invariant with the accumulator split off as an owned memref. -/
theorem PhiA3_eq (c : Dev nD) :
    (Pipeline.ΦA spec3 c : sProp 𝕄)
      = iprop(iprop((∃ d, owns (c : Thread nD τ) scM3_0 fullShare d) ∗ Rest3 (F := F) c) ∗ (∃ r, prngReg c r)) := by
  unfold Pipeline.ΦA
  rw [Pipeline.scopedRest_split_of_list spec3 c [cc3_scratch0] (by decide) (by decide)]
  simp only [scM3_0, owns_whole, bigSepL]
  try rfl

end Cert.KernelIdeal.Hand

end
-- ==== Proof.R3RunA.lean ====
/-
  Region 3, the FIRST step (k = 0): the accumulator is zeroed, then the step's product is added; the output block is left untouched.
  The body's separation-logic triple on any whole memrefs, the stores each buffer ends with found as a list of pieces.
-/
import proofs.«133914_j16801912062630_2_alg».proof.Proof.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at contents handed back untouched and the accumulator at anything, the body runs to a
    state with the inputs as they were and each stored buffer with its pieces written. -/
noncomputable def kernelRun3_A (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R3RunB.lean ====
/-
  Region 3, a MIDDLE step (1 ≤ k ≤ 8): the step's product is added to the accumulator the step before left; the output block is left untouched.
  The body's separation-logic triple on any whole memrefs, the stores each buffer ends with found as a list of pieces.
-/
import proofs.«133914_j16801912062630_2_alg».proof.Proof.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at contents handed back untouched and the accumulator at what the step before left, the body runs to a
    state with the inputs as they were and each stored buffer with its pieces written. -/
noncomputable def kernelRun3_B (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.R3RunC.lean ====
/-
  Region 3, the LAST step (k = 9): the step's product is added to the accumulator, and the finished block is stored into the output.
  The body's separation-logic triple on any whole memrefs, the stores each buffer ends with found as a list of pieces.
-/
import proofs.«133914_j16801912062630_2_alg».proof.Proof.R3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (L3) and in the accumulator (LS0) in this case, with the
    triple: from the inputs at their contents, the output at anything and the accumulator at what the step before left, the body runs to a
    state with the inputs as they were and each stored buffer with its pieces written. -/
noncomputable def kernelRun3_C (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.R3Frame.lean ====
/-
  Region 3: what the output block and the accumulator hold after every grid point, the region's proof data, the body
  obligation, and the invariant's two ends.

  The accumulator's contents after point t are defined by recursion on t: at a first step the zeroed accumulator plus
  the step's product, at a later step the previous point's accumulator plus the step's product; the output block is
  stored at last steps only.  The region invariant carries the accumulator at exactly those contents from one point
  to the next, beside the scoped buffers the region never opens and the generator register.
-/
import proofs.«133914_j16801912062630_2_alg».proof.Proof.R3RunA
import proofs.«133914_j16801912062630_2_alg».proof.Proof.R3RunB
import proofs.«133914_j16801912062630_2_alg».proof.Proof.R3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output block where the case stores nothing into it (the window is idle there). -/
def out3_A_3 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) : Vec F S1024x128 .f32 :=
  VO3_3.read (Elt F) (VO3_3.writes (Elt F) VO3_3.junk (kernelRun3_A c i arg2 harg2 arg3 harg3 arg4 harg4 arg5 harg5 arg6 harg6 hc0 hc1 x0 x1 x2).1)

/-- The case's stores into the accumulator tile it. -/
theorem scover3_A_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) (y : S1024x128.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x128.size (by sl_kernel_rfl) y

/-- What the case leaves in the accumulator. -/
def sout3_A_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) : Vec F S1024x128 .f32 :=
  VS3_0.read (Elt F) (VS3_0.writes (Elt F) VS3_0.junk (kernelRun3_A c i arg2 harg2 arg3 harg3 arg4 harg4 arg5 harg5 arg6 harg6 hc0 hc1 x0 x1 x2).2.1)

/-- A placeholder for the output block where the case stores nothing into it (the window is idle there). -/
def out3_B_3 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) : Vec F S1024x128 .f32 :=
  VO3_3.read (Elt F) (VO3_3.writes (Elt F) VO3_3.junk (kernelRun3_B c i arg2 harg2 arg3 harg3 arg4 harg4 arg5 harg5 arg6 harg6 hc0 hc1 x0 x1 x2 xs0).1)

/-- The case's stores into the accumulator tile it. -/
theorem scover3_B_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) (y : S1024x128.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1024x128.size (by sl_kernel_rfl) y

/-- What the case leaves in the accumulator. -/
def sout3_B_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) : Vec F S1024x128 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- The last step's stores into the output block tile it. -/
theorem cover3_C_3 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) (y : S1024x128.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x128.size (by sl_kernel_rfl) y

/-- What the last step leaves in the output block. -/
def out3_C_3 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) : Vec F S1024x128 .f32 :=
  VO3_3.read (Elt F) (VO3_3.writes (Elt F) VO3_3.junk (kernelRun3_C c i arg2 harg2 arg3 harg3 arg4 harg4 arg5 harg5 arg6 harg6 hc0 hc1 x0 x1 x2 xs0).1)

/-- The case's stores into the accumulator tile it. -/
theorem scover3_C_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) (y : S1024x128.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x128.size (by sl_kernel_rfl) y

/-- What the case leaves in the accumulator. -/
def sout3_C_0 (c : Dev nD) (i : grid3.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) : Vec F S1024x128 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output block and the accumulator hold after each point -/

/-- After the body at position n: (the output block, the accumulator). -/
def outsAt3 (c : Dev nD) : (n : ℕ) → n < cfg3.N → Vec F S1024x128 .f32 × Vec F S1024x128 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 10 = 0 then
      if h1 : (n + 1) % 10 = 9 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 10 = 9 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 10 = 0) (h1 : ¬t.val % 10 = 9) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 10 = 0) (h1 : t.val % 10 = 9) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class's invariant (every scoped buffer the region does not stage at
    anything, the generator register at some state); afterwards the accumulator at what the point before left, the
    other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Rest3 (F := F) c) ∗ (∃ r, prngReg c r)) := by
  cases n with
  | zero => exact absurd rfl hz
  | succ n => rfl

/-! ## The proof data -/

/-- The region's proof data on core c: the arrays as the region finds them; after the body at point t each input's
    buffer at its block and the output's at outsAt's first component; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point.  The inputs' memrefs hold their blocks; the point's position along the reduction axis says
    which case applies; the invariant hands the body the accumulator at what the point before left (at anything
    before the first point) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 100 := lt_of_lt_of_eq t.isLt (show cfg3.N = 100 from N_3)
  by_cases h0 : t.val % 10 = 0
  · by_cases h1 : t.val % 10 = 9
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 10 = 9
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 100 := N_3; omega), PhiA3_eq]
  iintro ⟨⟨HS0, HR⟩, Hg⟩
  isplitl [HS0 HR]
  · isplitl [HS0]
    · iexists _; iexact HS0
    iexact HR
  iexact Hg

end Cert.KernelIdeal.Hand

end
-- ==== Proof.Assembly.lean ====
/-
  The program's four kernel regions as segments of its run, and the program's frame.

  Between two items of the program a core's unscoped buffers are held whole at known contents: the launch memory, then
  each stretch of host operations applied, then, after a region, the region's result array at what its write-backs leave
  and every other buffer unchanged.  Each region is entered from that state, splits its windows' arrays off, runs its
  pipeline under its own invariant and body obligation, and puts the arrays back.  Beside the buffers ride the core's
  generator register (at some state) and its debt to the other cores (none).
-/
import proofs.«133914_j16801912062630_2_alg».proof.Proof.Gen.KernelIdeal.Regions
import proofs.«133914_j16801912062630_2_alg».proof.Proof.R0Frame
import proofs.«133914_j16801912062630_2_alg».proof.Proof.R1Frame
import proofs.«133914_j16801912062630_2_alg».proof.Proof.R2Frame
import proofs.«133914_j16801912062630_2_alg».proof.Proof.R3Frame
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- When region 0 is entered: the launch memory after every host operation before the regions. -/
abbrev X9 (c : Dev nD) : Valuation τ sig (Elt F) := Gen.V9 m c
abbrev E9 (c : Dev nD) (b : Ref sig .tc) : Buf (Elt F) ((c : Thread nD τ).loc b) := X9 m c b

/-- What region 0 leaves in its result array. -/
def o0 (c : Dev nD) : Buf (Elt F) ((c : Thread nD τ).loc main_v50) := (dat0 (E9 m) c).arrAt 2 cfg0.N
/-- The unscoped buffers when region 0 is left: its result array at what the write-backs leave, every other buffer as entered. -/
def X10 (c : Dev nD) : Valuation τ sig (Elt F) := Function.update (X9 m c) main_v50 (o0 m c)
/-- The same read at a TensorCore reference. -/
abbrev E10 (c : Dev nD) (b : Ref sig .tc) : Buf (Elt F) ((c : Thread nD τ).loc b) := X10 m c b
theorem X10_self (c : Dev nD) : X10 m c main_v50 = o0 m c := by unfold X10; exact Function.update_self ..
theorem X10_of_ne (c : Dev nD) (b : Ref sig .tc) (hb : b ≠ main_v50) : X10 m c b = X9 m c b := by
  unfold X10; exact Function.update_of_ne (StableHlo.devRef_ne_of_ne hb) ..

/-- What region 1 leaves in its result array. -/
def o1 (c : Dev nD) : Buf (Elt F) ((c : Thread nD τ).loc main_v51) := (dat1 (E10 m) c).arrAt 3 cfg1.N
/-- The unscoped buffers when region 1 is left: its result array at what the write-backs leave, every other buffer as entered. -/
def X11 (c : Dev nD) : Valuation τ sig (Elt F) := Function.update (X10 m c) main_v51 (o1 m c)
/-- The same read at a TensorCore reference. -/
abbrev E11 (c : Dev nD) (b : Ref sig .tc) : Buf (Elt F) ((c : Thread nD τ).loc b) := X11 m c b
theorem X11_self (c : Dev nD) : X11 m c main_v51 = o1 m c := by unfold X11; exact Function.update_self ..
theorem X11_of_ne (c : Dev nD) (b : Ref sig .tc) (hb : b ≠ main_v51) : X11 m c b = X10 m c b := by
  unfold X11; exact Function.update_of_ne (StableHlo.devRef_ne_of_ne hb) ..

/-- What region 2 leaves in its result array. -/
def o2 (c : Dev nD) : Buf (Elt F) ((c : Thread nD τ).loc main_v52) := (dat2 (E11 m) c).arrAt 2 cfg2.N
/-- The unscoped buffers when region 2 is left: its result array at what the write-backs leave, every other buffer as entered. -/
def X12 (c : Dev nD) : Valuation τ sig (Elt F) := Function.update (X11 m c) main_v52 (o2 m c)
/-- The same read at a TensorCore reference. -/
abbrev E12 (c : Dev nD) (b : Ref sig .tc) : Buf (Elt F) ((c : Thread nD τ).loc b) := X12 m c b
theorem X12_self (c : Dev nD) : X12 m c main_v52 = o2 m c := by unfold X12; exact Function.update_self ..
theorem X12_of_ne (c : Dev nD) (b : Ref sig .tc) (hb : b ≠ main_v52) : X12 m c b = X11 m c b := by
  unfold X12; exact Function.update_of_ne (StableHlo.devRef_ne_of_ne hb) ..

/-- What region 3 leaves in its result array. -/
def o3 (c : Dev nD) : Buf (Elt F) ((c : Thread nD τ).loc main_v53) := (dat3 (E12 m) c).arrAt 3 cfg3.N
/-- The unscoped buffers when region 3 is left: its result array at what the write-backs leave, every other buffer as entered. -/
def X13 (c : Dev nD) : Valuation τ sig (Elt F) := Function.update (X12 m c) main_v53 (o3 m c)
/-- The same read at a TensorCore reference. -/
abbrev E13 (c : Dev nD) (b : Ref sig .tc) : Buf (Elt F) ((c : Thread nD τ).loc b) := X13 m c b
theorem X13_self (c : Dev nD) : X13 m c main_v53 = o3 m c := by unfold X13; exact Function.update_self ..
theorem X13_of_ne (c : Dev nD) (b : Ref sig .tc) (hb : b ≠ main_v53) : X13 m c b = X12 m c b := by
  unfold X13; exact Function.update_of_ne (StableHlo.devRef_ne_of_ne hb) ..

/-- What the regions leave, as the unknowns the program's conditional frame is stated over. -/
def outs : Gen.Outs (F := F) := fun J r c =>
  if J = 10 then X10 m c r else if J = 11 then X11 m c r else if J = 12 then X12 m c r else X13 m c r

theorem V10_eq (c : Dev nD) : Gen.V10 m (outs m) c = X10 m c := by
  show Function.update (Gen.V9 m c) main_v50 (outs m 10 main_v50 c) = Function.update (X9 m c) main_v50 (o0 m c)
  refine congrArg _ ?_
  show (if (10 : ℕ) = 10 then X10 m c main_v50 else _) = _
  rw [if_pos rfl]; exact X10_self m c
theorem V11_eq (c : Dev nD) : Gen.V11 m (outs m) c = X11 m c := by
  show Function.update (Gen.V10 m (outs m) c) main_v51 (outs m 11 main_v51 c) = Function.update (X10 m c) main_v51 (o1 m c)
  rw [V10_eq]
  refine congrArg _ ?_
  show (if (11 : ℕ) = 10 then _ else if (11 : ℕ) = 11 then X11 m c main_v51 else _) = _
  rw [if_neg (by decide), if_pos rfl]; exact X11_self m c
theorem V12_eq (c : Dev nD) : Gen.V12 m (outs m) c = X12 m c := by
  show Function.update (Gen.V11 m (outs m) c) main_v52 (outs m 12 main_v52 c) = Function.update (X11 m c) main_v52 (o2 m c)
  rw [V11_eq]
  refine congrArg _ ?_
  show (if (12 : ℕ) = 10 then _ else if (12 : ℕ) = 11 then _ else if (12 : ℕ) = 12 then X12 m c main_v52 else _) = _
  rw [if_neg (by decide), if_neg (by decide), if_pos rfl]; exact X12_self m c
theorem V13_eq (c : Dev nD) : Gen.V13 m (outs m) c = X13 m c := by
  show Function.update (Gen.V12 m (outs m) c) main_v53 (outs m 13 main_v53 c) = Function.update (X12 m c) main_v53 (o3 m c)
  rw [V12_eq]
  refine congrArg _ ?_
  show (if (13 : ℕ) = 10 then _ else if (13 : ℕ) = 11 then _ else if (13 : ℕ) = 12 then _ else X13 m c main_v53) = _
  rw [if_neg (by decide), if_neg (by decide), if_neg (by decide)]; exact X13_self m c

/-! ## The proof data family and what rides beside the buffers -/

/-- Every region's proof data, each at its entry contents. -/
def pdats : (p : Fin 4) → (c : Dev nD) → Dat τ (Elt F) Unit ℕ (UR sig nD τ) ℕ (cfgs p) c
  | ⟨0, _⟩ => fun c => dat0 (E9 m) c
  | ⟨1, _⟩ => fun c => dat1 (E10 m) c
  | ⟨2, _⟩ => fun c => dat2 (E11 m) c
  | ⟨3, _⟩ => fun c => dat3 (E12 m) c

abbrev 𝒱n : Variants := Variants.none
/-- No core owes another anything: no level is assigned. -/
abbrev Ln : GSem nD τ sig → Finset Unit := fun _ => ∅
abbrev lvn : GSem nD τ sig → Unit → ℕ := fun _ _ => 0
/-- Beside the buffers: the generator register at some state, and the core's debt, at nothing. -/
abbrev Rr (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = E10 m c (Pipeline.arrRef spec0 w) := by
  show (dat0 (E9 m) c).arrAt w cfg0.N = _
  fin_cases w
  · exact (((dat0 (E9 m) c).arrAt_in 0 rfl _).trans (A_eq0 (E9 m) c 0)).trans (X10_of_ne m c _ (by decide)).symm
  · exact (((dat0 (E9 m) c).arrAt_in 1 rfl _).trans (A_eq0 (E9 m) c 1)).trans (X10_of_ne m c _ (by decide)).symm
  · exact (X10_self m c).symm
theorem hrest0 (c : Dev nD) : ∀ b, b ∉ Finset.univ.image (Pipeline.arrRef spec0) → E10 m c b = E9 m c b :=
  fun b hb => X10_of_ne m c b fun e => hb (Finset.mem_image.mpr ⟨2, Finset.mem_univ _, e.symm⟩)

theorem hF1 (c : Dev nD) (w : Fin cfg1.W) : (pdats m 1 c).arrAt w cfg1.N = E11 m c (Pipeline.arrRef spec1 w) := by
  show (dat1 (E10 m) c).arrAt w cfg1.N = _
  fin_cases w
  · exact (((dat1 (E10 m) c).arrAt_in 0 rfl _).trans (A_eq1 (E10 m) c 0)).trans (X11_of_ne m c _ (by decide)).symm
  · exact (((dat1 (E10 m) c).arrAt_in 1 rfl _).trans (A_eq1 (E10 m) c 1)).trans (X11_of_ne m c _ (by decide)).symm
  · exact (((dat1 (E10 m) c).arrAt_in 2 rfl _).trans (A_eq1 (E10 m) c 2)).trans (X11_of_ne m c _ (by decide)).symm
  · exact (X11_self m c).symm
theorem hrest1 (c : Dev nD) : ∀ b, b ∉ Finset.univ.image (Pipeline.arrRef spec1) → E11 m c b = E10 m c b :=
  fun b hb => X11_of_ne m c b fun e => hb (Finset.mem_image.mpr ⟨3, Finset.mem_univ _, e.symm⟩)

theorem hF2 (c : Dev nD) (w : Fin cfg2.W) : (pdats m 2 c).arrAt w cfg2.N = E12 m c (Pipeline.arrRef spec2 w) := by
  show (dat2 (E11 m) c).arrAt w cfg2.N = _
  fin_cases w
  · exact (((dat2 (E11 m) c).arrAt_in 0 rfl _).trans (A_eq2 (E11 m) c 0)).trans (X12_of_ne m c _ (by decide)).symm
  · exact (((dat2 (E11 m) c).arrAt_in 1 rfl _).trans (A_eq2 (E11 m) c 1)).trans (X12_of_ne m c _ (by decide)).symm
  · exact (X12_self m c).symm
theorem hrest2 (c : Dev nD) : ∀ b, b ∉ Finset.univ.image (Pipeline.arrRef spec2) → E12 m c b = E11 m c b :=
  fun b hb => X12_of_ne m c b fun e => hb (Finset.mem_image.mpr ⟨2, Finset.mem_univ _, e.symm⟩)

theorem hF3 (c : Dev nD) (w : Fin cfg3.W) : (pdats m 3 c).arrAt w cfg3.N = E13 m c (Pipeline.arrRef spec3 w) := by
  show (dat3 (E12 m) c).arrAt w cfg3.N = _
  fin_cases w
  · exact (((dat3 (E12 m) c).arrAt_in 0 rfl _).trans (A_eq3 (E12 m) c 0)).trans (X13_of_ne m c _ (by decide)).symm
  · exact (((dat3 (E12 m) c).arrAt_in 1 rfl _).trans (A_eq3 (E12 m) c 1)).trans (X13_of_ne m c _ (by decide)).symm
  · exact (((dat3 (E12 m) c).arrAt_in 2 rfl _).trans (A_eq3 (E12 m) c 2)).trans (X13_of_ne m c _ (by decide)).symm
  · exact (X13_self m c).symm
theorem hrest3 (c : Dev nD) : ∀ b, b ∉ Finset.univ.image (Pipeline.arrRef spec3) → E13 m c b = E12 m c b :=
  fun b hb => X13_of_ne m c b fun e => hb (Finset.mem_image.mpr ⟨3, Finset.mem_univ _, e.symm⟩)

/-! ## The regions as segments -/

-- a library lemma stated over the pinned configuration unifies with the printed one only when unification may unfold plain
-- definitions in a metavariable's type
set_option backward.isDefEq.respectTransparency.types false in
/-- REGION 0 as a segment of the program: entered with every unscoped buffer at X9, left with them at X10.  Its arrays
    are split out of the unscoped buffers and put back at their final contents; the generator register goes into the region's
    invariant and comes back; nothing is owed; the kernel has no semaphore of its own. -/
def reg0 : Pipeline.RegionSeg (pcfgs (F := F)) Gen.adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E9 m) c).loose
  hwaits := Pipeline.hwaits_of_owed_zero _ _ _ _ Ln lvn 0 fun _ _ => rfl
  pre c := iprop(StableHlo.held (c : Thread nD τ) (Pipeline.ucRefs τ sig) (X9 m c) ∗ Rr (F := F) c)
  post c := iprop(StableHlo.held (c : Thread nD τ) (Pipeline.ucRefs τ sig) (X10 m c) ∗ Rr (F := F) c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E9 m c) (E10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 1 as a segment of the program: entered with every unscoped buffer at X10, left with them at X11.  Its arrays
    are split out of the unscoped buffers and put back at their final contents; the generator register goes into the region's
    invariant and comes back; nothing is owed; the kernel has no semaphore of its own. -/
def reg1 : Pipeline.RegionSeg (pcfgs (F := F)) Gen.adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E10 m) c).loose
  hwaits := Pipeline.hwaits_of_owed_zero _ _ _ _ Ln lvn 1 fun _ _ => rfl
  pre c := iprop(StableHlo.held (c : Thread nD τ) (Pipeline.ucRefs τ sig) (X10 m c) ∗ Rr (F := F) c)
  post c := iprop(StableHlo.held (c : Thread nD τ) (Pipeline.ucRefs τ sig) (X11 m c) ∗ Rr (F := F) c)
  X c := iprop(∃ r, prngReg c r)
  Y c := iprop(∃ r, prngReg c r)
  Z c := Pipeline.unscopedRest (Ix := Unit) (Name := ℕ) (U := UR sig nD τ) (Lvl := ℕ) spec1 c (E10 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E10 m) c
    unfold Pipeline.ΦA at h
    rw [show (pdats m 1 c).Φ 0 = (dat1 (E10 m) c).Φ 0 from rfl]
    iintro ⟨Hp, -, Hr⟩
    iapply h
    isplitl [Hr]; · iexact Hr
    iexact Hp
  hout c := by
    have h := hout1 (E10 m) c
    unfold Pipeline.ΦA at h
    rw [Pipeline.ownSems0_none, show (pdats m 1 c).Φ (Fin.last _) = (dat1 (E10 m) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E10 m c) (E11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 2 as a segment of the program: entered with every unscoped buffer at X11, left with them at X12.  Its arrays
    are split out of the unscoped buffers and put back at their final contents; the generator register goes into the region's
    invariant and comes back; nothing is owed; the kernel has no semaphore of its own. -/
def reg2 : Pipeline.RegionSeg (pcfgs (F := F)) Gen.adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (E11 m) c).loose
  hwaits := Pipeline.hwaits_of_owed_zero _ _ _ _ Ln lvn 2 fun _ _ => rfl
  pre c := iprop(StableHlo.held (c : Thread nD τ) (Pipeline.ucRefs τ sig) (X11 m c) ∗ Rr (F := F) c)
  post c := iprop(StableHlo.held (c : Thread nD τ) (Pipeline.ucRefs τ sig) (X12 m c) ∗ Rr (F := F) c)
  X c := iprop(∃ r, prngReg c r)
  Y c := iprop(∃ r, prngReg c r)
  Z c := Pipeline.unscopedRest (Ix := Unit) (Name := ℕ) (U := UR sig nD τ) (Lvl := ℕ) spec2 c (E11 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E11 m c) (E12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 3 as a segment of the program: entered with every unscoped buffer at X12, left with them at X13.  Its arrays
    are split out of the unscoped buffers and put back at their final contents; the generator register goes into the region's
    invariant and comes back; nothing is owed; the kernel has no semaphore of its own. -/
def reg3 : Pipeline.RegionSeg (pcfgs (F := F)) Gen.adm (pdats m) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (E12 m) c).loose
  hwaits := Pipeline.hwaits_of_owed_zero _ _ _ _ Ln lvn 3 fun _ _ => rfl
  pre c := iprop(StableHlo.held (c : Thread nD τ) (Pipeline.ucRefs τ sig) (X12 m c) ∗ Rr (F := F) c)
  post c := iprop(StableHlo.held (c : Thread nD τ) (Pipeline.ucRefs τ sig) (X13 m c) ∗ Rr (F := F) c)
  X c := iprop(∃ r, prngReg c r)
  Y c := iprop(∃ r, prngReg c r)
  Z c := Pipeline.unscopedRest (Ix := Unit) (Name := ℕ) (U := UR sig nD τ) (Lvl := ℕ) spec3 c (E12 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (E12 m) c
    unfold Pipeline.ΦA at h
    rw [show (pdats m 3 c).Φ 0 = (dat3 (E12 m) c).Φ 0 from rfl]
    iintro ⟨Hp, -, Hr⟩
    iapply h
    isplitl [Hr]; · iexact Hr
    iexact Hp
  hout c := by
    have h := hout3 (E12 m) c
    unfold Pipeline.ΦA at h
    rw [Pipeline.ownSems0_none, show (pdats m 3 c).Φ (Fin.last _) = (dat3 (E12 m) c).Φ (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (E12 m c) (E13 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

variable (ρ : Dev nD → PrngReg)

/-- What the launch leaves beside the buffers makes the riding state on every core. -/
theorem rest_of_launch (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ Rr (F := F) c := by
  iintro ⟨-, HO, -, Hp, -⟩
  isplitl [Hp]; · iexists _; iexact Hp
  iexists ∅; iexact HO

set_option backward.isDefEq.respectTransparency.types false in
/-- THE FRAME: from any memory with zero counters every weakly fair execution of the program terminates, nothing faulting,
    and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ : Emb _ 𝕄) () 𝒱n Ln lvn (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr (F := F) c)
    (by
      have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          ⊢ (bigSep Finset.univ fun c : Dev nD => Rr (F := F) c : sProp 𝕄) := bigSep_mono fun c _ => rest_of_launch ρ c
      iintro ⟨H, -⟩
      imodintro
      iapply hm
      iexact H)
    (fun c => by iintro ⟨-, H⟩; iexact H)
    (reg0 m) (fun c => .rfl) (fun c => by rw [V10_eq]; exact .rfl)
    (reg1 m) (fun c => by rw [V10_eq]; exact .rfl) (fun c => by rw [V11_eq]; exact .rfl)
    (reg2 m) (fun c => by rw [V11_eq]; exact .rfl) (fun c => by rw [V12_eq]; exact .rfl)
    (reg3 m) (fun c => by rw [V12_eq]; exact .rfl) (fun c => by rw [V13_eq]; exact .rfl)

end Cert.KernelIdeal.Hand

end
-- ==== Proof.RunValue.lean ====
/-
  The program's run WITH its result: the same run as the frame's, its last state read also at the result buffer.
  From one segment record per kernel region (entered and left at the named buffer contents), every weakly fair execution
  of the program terminates and the final memory holds the result at the last boundary's contents of its buffer, each
  argument as launched.
-/
import proofs.«133914_j16801912062630_2_alg».proof.Proof.Gen.KernelIdeal.Regions

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- the launch theorem's implicit arguments are found by unifying its conclusion with this one, which takes unfolding
-- plain definitions in a metavariable's type
set_option backward.isDefEq.respectTransparency.types false in
/-- THE RUN WITH THE RESULT NAMED: as the conditional frame, and the final memory holds the result buffer at the last
    boundary's contents. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V12 m outs c) ∗ E 3 c) ⊢ R3.pre c)
    (hpost3 : ∀ c : Dev nD, R3.post c ⊢ iprop(StableHlo.held (c : Thread nD τ) (Pipeline.ucRefs τ sig) (V13 m outs c) ∗ E 4 c)) :
    θ_run defs (onTc (τ := τ) (main (F := F))) ⟨m, fun _ => 0, ρ⟩ (fun r => ∀ c : Dev nD,
      r.2.mem ((c.tc : Thread nD τ).loc main_v54) = V14 m outs c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, .rfl, .rfl, .rfl, .rfl, .rfl, .rfl, .rfl, .rfl, hpre0 c, (hpost0 c).trans (hpre1 c), (hpost1 c).trans (hpre2 c), (hpost2 c).trans (hpre3 c), hpost3 c, sep_mono .rfl (hE4 c)⟩)
    (hinit := ?_) (QY := fun c s => s.mem ((c.tc : Thread nD τ).loc main_v54) = V14 m outs c main_v54 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨h (Proc.devRef .tc main_v54) (Finset.mem_filter.mpr ⟨StableHlo.devRef_mem_tcRefs main_v54, by decide⟩),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c)⟩
    · iexact HSI

end Cert.KernelIdeal.Hand

end
-- ==== Proof.RunAt.lean ====
/-
  The program's run with its result, at the four regions' segment records: every weakly fair execution terminates, the
  result buffer ends at the last boundary's contents, and the arguments end as launched.
-/
import proofs.«133914_j16801912062630_2_alg».proof.Proof.Assembly
import proofs.«133914_j16801912062630_2_alg».proof.Proof.RunValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v54) = Gen.V14 m (outs m) c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  value_cond m (emb₁ : Emb _ 𝕄) () 𝒱n Ln lvn (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr (F := F) c)
    (by
      have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          ⊢ (bigSep Finset.univ fun c : Dev nD => Rr (F := F) c : sProp 𝕄) := bigSep_mono fun c _ => rest_of_launch ρ c
      iintro ⟨H, -⟩
      imodintro
      iapply hm
      iexact H)
    (fun c => by iintro ⟨-, H⟩; iexact H)
    (reg0 m) (fun c => .rfl) (fun c => by rw [V10_eq]; exact .rfl)
    (reg1 m) (fun c => by rw [V10_eq]; exact .rfl) (fun c => by rw [V11_eq]; exact .rfl)
    (reg2 m) (fun c => by rw [V11_eq]; exact .rfl) (fun c => by rw [V12_eq]; exact .rfl)
    (reg3 m) (fun c => by rw [V12_eq]; exact .rfl) (fun c => by rw [V13_eq]; exact .rfl)

end Cert.KernelIdeal.Hand

end
-- ==== Proof.GcnSpec.lean ====
/-
  The two arrangements of the two-layer graph convolution, as plain functions over literal index types.

  A node list of 10000 nodes, an edge list of 650000 entries (the 640000 given edges followed by the 10000 self loops),
  each entry a source and a destination node.  The degree of a node counts the entries arriving at it, a node's
  coefficient is the reciprocal square root of its degree (zero where the degree is not positive), and an entry's
  weight is the product of its two ends' coefficients.

  FIRST arrangement (entry by entry): a layer multiplies the features by a weight matrix, sends along every entry the
  source's row times the entry's weight, sums what arrives at each node, and adds a bias; the first layer then takes
  the positive part.

  SECOND arrangement (dense): the entries are first summed into a 10240 x 10240 matrix `A` (destination row, source
  column; rows and columns past 10000 stay zero), the features are zero-padded to 10240 rows (the second weight
  matrix and bias to 128 columns), a layer is `A` times (features times weights) plus the bias with the rows past 10000
  set to zero, and the result is the leading 10000 x 64 corner.

  The two agree whenever every input is a real number (`Finite`): then every intermediate is real, and
  Σ_s (Σ_{e : dst e = d, src e = s} w_e) · g(s) = Σ_{e : dst e = d} g(src e) · w_e  by distributivity.
-/
import Idealize.ShloMosaic.PureOps.Ideal

noncomputable section

namespace Cert.Gcn

/-- A node out of a 32-bit word: its value as a natural number, clamped into the node range. -/
def node (w : BitVec 32) : Fin 10000 := ⟨min w.toNat 9999, by omega⟩

/-- The data both arrangements are functions of: features, the two ends of every entry of the edge list (self loops
    appended), the layers' weights and biases, and the reciprocal square root as the programs apply it. -/
structure Inputs where
  x : Fin 10000 → Fin 256 → EReal
  src : Fin 650000 → Fin 10000
  dst : Fin 650000 → Fin 10000
  W1 : Fin 256 → Fin 128 → EReal
  b1 : Fin 128 → EReal
  W2 : Fin 128 → Fin 64 → EReal
  b2 : Fin 64 → EReal
  rs : EReal → EReal

variable (I : Inputs)

/-- The degree of node `n`: the number of entries arriving at it. -/
def deg (n : Fin 10000) : EReal := ∑ e : Fin 650000, if I.dst e = n then (1 : EReal) else 0
/-- A node's coefficient. -/
def dinv (n : Fin 10000) : EReal := if 0 < deg I n then I.rs (deg I n) else 0
/-- An entry's weight. -/
def norm (e : Fin 650000) : EReal := dinv I (I.src e) * dinv I (I.dst e)

/-! ## Entry by entry -/

def h1 (n : Fin 10000) (k : Fin 128) : EReal := ∑ j : Fin 256, I.x n j * I.W1 j k
def agg1 (d : Fin 10000) (k : Fin 128) : EReal :=
  ∑ e : Fin 650000, if I.dst e = d then h1 I (I.src e) k * norm I e else 0
def l1 (d : Fin 10000) (k : Fin 128) : EReal := max (agg1 I d k + I.b1 k) 0
def h2 (n : Fin 10000) (c : Fin 64) : EReal := ∑ k : Fin 128, l1 I n k * I.W2 k c
def agg2 (d : Fin 10000) (c : Fin 64) : EReal :=
  ∑ e : Fin 650000, if I.dst e = d then h2 I (I.src e) c * norm I e else 0
/-- The result, entry by entry. -/
def out (d : Fin 10000) (c : Fin 64) : EReal := agg2 I d c + I.b2 c

/-! ## Dense -/

/-- The dense weight matrix over the padded extents. -/
def A (r s : Fin 10240) : EReal :=
  ∑ e : Fin 650000, if (I.dst e).val = r.val ∧ (I.src e).val = s.val then norm I e else 0
def xpad (r : Fin 10240) (j : Fin 256) : EReal := if h : r.val < 10000 then I.x ⟨r.val, h⟩ j else 0
def h1p (r : Fin 10240) (k : Fin 128) : EReal := ∑ j : Fin 256, xpad I r j * I.W1 j k
def l1p (r : Fin 10240) (k : Fin 128) : EReal :=
  if r.val < 10000 then max ((∑ s : Fin 10240, A I r s * h1p I s k) + I.b1 k) 0 else 0
def W2p (k : Fin 128) (c : Fin 128) : EReal := if h : c.val < 64 then I.W2 k ⟨c.val, h⟩ else 0
def b2p (c : Fin 128) : EReal := if h : c.val < 64 then I.b2 ⟨c.val, h⟩ else 0
def h2p (r : Fin 10240) (c : Fin 128) : EReal := ∑ k : Fin 128, l1p I r k * W2p I k c
def outp (r : Fin 10240) (c : Fin 128) : EReal :=
  if r.val < 10000 then (∑ s : Fin 10240, A I r s * h2p I s c) + b2p I c else 0
/-- The result, dense: the leading corner of the padded one. -/
def outK (d : Fin 10000) (c : Fin 64) : EReal := outp I ⟨d.val, by omega⟩ ⟨c.val, by omega⟩

/-- Every input is a real number, and the reciprocal square root of a positive real is a real. -/
structure Finite : Prop where
  x : ∀ n j, ∃ r : ℝ, I.x n j = (r : EReal)
  W1 : ∀ j k, ∃ r : ℝ, I.W1 j k = (r : EReal)
  b1 : ∀ k, ∃ r : ℝ, I.b1 k = (r : EReal)
  W2 : ∀ k c, ∃ r : ℝ, I.W2 k c = (r : EReal)
  b2 : ∀ c, ∃ r : ℝ, I.b2 c = (r : EReal)
  rs : ∀ r : ℝ, 0 < r → ∃ q : ℝ, I.rs (r : EReal) = (q : EReal)

end Cert.Gcn

end
-- ==== Proof.GcnInputs.lean ====
/-
  The data of the two-layer graph convolution read off the six arrays the programs take.

  Features, weights and biases are read entry by entry.  The edge array has two rows of 640000 node numbers (row 0 the
  sources, row 1 the destinations); the edge list of the specification is those 640000 entries followed by the 10000
  self loops, entry 640000 + n going from node n to node n.  The reciprocal square root is the one the programs apply
  to an extended real; on a positive real it is the real 1 / √r.
-/
import Idealize.ShloMosaic.Lib.ValueIdx
import proofs.«133914_j16801912062630_2_alg».proof.Proof.GcnSpec

noncomputable section

namespace Cert.Gcn

open Idealize.ShloMosaic Idealize.ShloMosaic.ValueIdx

/-- One end of entry `e` of the edge list with the self loops appended: for `e < 640000` the node in row `r` of the
    edge array, for `e = 640000 + n` the node `n`. -/
def endOf (ei : IVec ⟨2, ![2, 640000]⟩ 32) (r : Fin 2) (e : Fin 650000) : Fin 10000 :=
  if h : e.val < 640000 then node (ei (ix2 r ⟨e.val, h⟩)) else ⟨e.val - 640000, by omega⟩

/-- The specification's data, out of the programs' six arrays. -/
def inputsOf (x : Vec Ideal ⟨2, ![10000, 256]⟩ .f32) (ei : IVec ⟨2, ![2, 640000]⟩ 32)
    (W1 : Vec Ideal ⟨2, ![256, 128]⟩ .f32) (b1 : Vec Ideal ⟨1, ![128]⟩ .f32)
    (W2 : Vec Ideal ⟨2, ![128, 64]⟩ .f32) (b2 : Vec Ideal ⟨1, ![64]⟩ .f32) : Inputs where
  x n j := x (ix2 n j)
  src := endOf ei 0
  dst := endOf ei 1
  W1 j k := W1 (ix2 j k)
  b1 k := b1 (ix1 k)
  W2 k c := W2 (ix2 k c)
  b2 c := b2 (ix1 c)
  rs := Ideal.rsqrt

/-- The reciprocal square root of a positive real is a real. -/
theorem rsqrt_real (r : ℝ) (hr : 0 < r) : ∃ q : ℝ, Ideal.rsqrt (r : EReal) = (q : EReal) := by
  refine ⟨(Real.sqrt r)⁻¹, ?_⟩
  rw [Ideal.rsqrt_coe, if_neg (not_lt.mpr hr.le), if_neg hr.ne']

/-- … so the data's reciprocal square root meets the specification's requirement. -/
theorem inputsOf_rs (x : Vec Ideal ⟨2, ![10000, 256]⟩ .f32) (ei : IVec ⟨2, ![2, 640000]⟩ 32)
    (W1 : Vec Ideal ⟨2, ![256, 128]⟩ .f32) (b1 : Vec Ideal ⟨1, ![128]⟩ .f32)
    (W2 : Vec Ideal ⟨2, ![128, 64]⟩ .f32) (b2 : Vec Ideal ⟨1, ![64]⟩ .f32) (r : ℝ) (hr : 0 < r) :
    ∃ q : ℝ, (inputsOf x ei W1 b1 W2 b2).rs (r : EReal) = (q : EReal) := rsqrt_real r hr

end Cert.Gcn

end
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.RefEdges.lean ====
/-
  The edge list as the reference program builds it.

  The program joins row 0 (the sources) and row 1 (the destinations) of the edge array with the node numbers
  0 … 9999, the self loops.  Every word of the two joined vectors is then the number of a node — by the
  range condition on the edge array for the first 640000 positions, and because a node number is below 10000 for the
  rest —, so the wrap of a negative index (compare with zero, add 10000, select) leaves it alone, the clamp of a
  gather's row does not move it, and read as a signed integer it is the node's number.
-/
import proofs.«133914_j16801912062630_2_alg».proof.Proof.RefReadP
import proofs.«133914_j16801912062630_2_alg».proof.Proof.GcnInputs
import proofs.«133914_j16801912062630_2_alg».proof.Proof.LibSegmentSum

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Idealize.ShloMosaic.SegmentSum Idealize.ShloMosaic.Pipeline

/-! ## Words that are node numbers -/

/-- A word below 10000 is not negative as a signed integer: its signed reading is its value. -/
theorem toInt_small (v : BitVec 32) (hv : v.toNat < 10000) : v.toInt = (v.toNat : ℤ) :=
  BitVec.toInt_eq_toNat_of_lt (by omega)

/-- The wrap of a negative index leaves a word below 10000 alone. -/
theorem wrap_small (v : BitVec 32) (hv : v.toNat < 10000) :
    Scalar.select (IntOp.cmpi .slt v 0#32) (IntOp.addi v 10000#32) v = v := by
  have hc : IntOp.cmpi .slt v 0#32 = 0#1 := by
    show BitVec.ofBool (v.slt 0#32) = 0#1
    have : v.slt 0#32 = false := by
      rw [BitVec.slt, toInt_small v hv]
      simp
    rw [this]; rfl
  rw [hc, select_zero]

/-- The row a gather reads for a word below 10000 is the word's value. -/
theorem clamp_small (v : BitVec 32) (hv : v.toNat < 10000) : min v.toInt.toNat (10000 - 1) = v.toNat := by
  rw [toInt_small v hv]; omega

/-! ## The two joined vectors -/

variable (x1 : IVec ⟨2, ![2, 640000]⟩ 32)

/-- Row `r` of the edge array followed by the node numbers, at `e`. -/
def joined (r : Fin 2) (e : Fin 650000) : BitVec 32 :=
  if h : e.val < 640000 then x1 (ix2 r ⟨e.val, h⟩) else BitVec.ofNat 32 (e.val - 640000)

/-- Under the range condition a joined word is the number of the entry's end. -/
theorem joined_toNat (hrange : ∀ i, (x1 i).toNat < 10000) (r : Fin 2) (e : Fin 650000) :
    (joined x1 r e).toNat = (Cert.Gcn.endOf x1 r e).val := by
  unfold joined Cert.Gcn.endOf
  split
  · rename_i h
    show _ = min (x1 (ix2 r ⟨e.val, h⟩)).toNat 9999
    have := hrange (ix2 r ⟨e.val, h⟩)
    omega
  · rename_i h
    show (BitVec.ofNat 32 (e.val - 640000)).toNat = e.val - 640000
    rw [BitVec.toNat_ofNat]
    have := e.isLt
    omega

theorem joined_lt (hrange : ∀ i, (x1 i).toNat < 10000) (r : Fin 2) (e : Fin 650000) : (joined x1 r e).toNat < 10000 := by
  rw [joined_toNat x1 hrange]; exact (Cert.Gcn.endOf x1 r e).isLt

/-- The program's joined source vector. -/
theorem v3_read (e : Fin 650000) : val_main_v3 (F := Ideal) x1 (ix1 e) = joined x1 0 e := by
  unfold val_main_v3 joined
  split
  · rename_i h
    refine (concatenate_pair_apply_left (t := S650000) (s₁ := S640000) (s₂ := S10000) 0 _ _
      concatenates_S640000_S10000_S650000_d0 (ix1 e) rfl (ix1 (⟨e.val, h⟩ : Fin 640000)) (fun b => by
        match b with
        | ⟨0, _⟩ => rfl)).trans ?_
    rw [val_main_v2_apply, val_main_v1_apply]
    refine congrArg x1 (funext fun a => Fin.ext ?_)
    match a with
    | ⟨0, _⟩ => rfl
    | ⟨1, _⟩ => show e.val % 640000 = e.val; omega
  · rename_i h
    have he := e.isLt
    refine (concatenate_pair_apply_right (t := S650000) (s₁ := S640000) (s₂ := S10000) 0 _ _
      concatenates_S640000_S10000_S650000_d0 (ix1 e) rfl rfl (ix1 (⟨e.val - 640000, by omega⟩ : Fin 10000)) (fun b hb => by
        match b with
        | ⟨0, _⟩ => exact absurd rfl hb) (by show e.val - 640000 + 640000 = e.val; omega)).trans ?_
    rfl

/-- The program's joined destination vector. -/
theorem v6_read (e : Fin 650000) : val_main_v6 (F := Ideal) x1 (ix1 e) = joined x1 1 e := by
  unfold val_main_v6 joined
  split
  · rename_i h
    refine (concatenate_pair_apply_left (t := S650000) (s₁ := S640000) (s₂ := S10000) 0 _ _
      concatenates_S640000_S10000_S650000_d0 (ix1 e) rfl (ix1 (⟨e.val, h⟩ : Fin 640000)) (fun b => by
        match b with
        | ⟨0, _⟩ => rfl)).trans ?_
    rw [val_main_v5_apply, val_main_v4_apply]
    refine congrArg x1 (funext fun a => Fin.ext ?_)
    match a with
    | ⟨0, _⟩ => rfl
    | ⟨1, _⟩ => show e.val % 640000 = e.val; omega
  · rename_i h
    have he := e.isLt
    refine (concatenate_pair_apply_right (t := S650000) (s₁ := S640000) (s₂ := S10000) 0 _ _
      concatenates_S640000_S10000_S650000_d0 (ix1 e) rfl rfl (ix1 (⟨e.val - 640000, by omega⟩ : Fin 10000)) (fun b hb => by
        match b with
        | ⟨0, _⟩ => exact absurd rfl hb) (by show e.val - 640000 + 640000 = e.val; omega)).trans ?_
    rfl

/-! ## The index columns of the gathers: the row read is the entry's end -/

/-- The source column of the coefficient gather reads, at entry \`e\`, the row of its source. -/
theorem v20_row (hrange : ∀ i, (x1 i).toNat < 10000) (e : Fin 650000) :
    clampRow 10000 (by decide) (val_main_v20 (F := Ideal) x1) e = Cert.Gcn.endOf x1 0 e := by
  have hw : val_main_v20 (F := Ideal) x1 (ix2 e (0 : Fin 1)) = joined x1 0 e := by
    rw [val_main_v20_apply, val_main_v19_apply, val_main_v16_apply, val_main_v18_apply, val_main_v15_apply,
      val_main_v17_apply, val_main_c_apply, val_main_c_3_apply]
    have hi : idx_main_v20 (ix2 e (0 : Fin 1)) = ix1 e := funext fun a => match a with | ⟨0, _⟩ => rfl
    rw [hi, v3_read]
    exact wrap_small _ (joined_lt x1 hrange 0 e)
  refine Fin.ext ?_
  show min (val_main_v20 (F := Ideal) x1 (ix2 e (0 : Fin 1))).toInt.toNat (10000 - 1) = _
  rw [hw, clamp_small _ (joined_lt x1 hrange 0 e), joined_toNat x1 hrange]

/-- The destination column of the coefficient gather reads, at entry \`e\`, the row of its destination. -/
theorem v27_row (hrange : ∀ i, (x1 i).toNat < 10000) (e : Fin 650000) :
    clampRow 10000 (by decide) (val_main_v27 (F := Ideal) x1) e = Cert.Gcn.endOf x1 1 e := by
  have hw : val_main_v27 (F := Ideal) x1 (ix2 e (0 : Fin 1)) = joined x1 1 e := by
    rw [val_main_v27_apply, val_main_v26_apply, val_main_v23_apply, val_main_v25_apply, val_main_v22_apply,
      val_main_v24_apply, val_main_c_4_apply, val_main_c_5_apply]
    have hi : idx_main_v27 (ix2 e (0 : Fin 1)) = ix1 e := funext fun a => match a with | ⟨0, _⟩ => rfl
    rw [hi, v6_read]
    exact wrap_small _ (joined_lt x1 hrange 1 e)
  refine Fin.ext ?_
  show min (val_main_v27 (F := Ideal) x1 (ix2 e (0 : Fin 1))).toInt.toNat (10000 - 1) = _
  rw [hw, clamp_small _ (joined_lt x1 hrange 1 e), joined_toNat x1 hrange]

/-- The source column of the first layer's row gather. -/
theorem v36_row (hrange : ∀ i, (x1 i).toNat < 10000) (e : Fin 650000) :
    clampRow 10000 (by decide) (val_main_v36 (F := Ideal) x1) e = Cert.Gcn.endOf x1 0 e := by
  have hw : val_main_v36 (F := Ideal) x1 (ix2 e (0 : Fin 1)) = joined x1 0 e := by
    rw [val_main_v36_apply, val_main_v35_apply, val_main_v32_apply, val_main_v34_apply, val_main_v31_apply,
      val_main_v33_apply, val_main_c_6_apply, val_main_c_7_apply]
    have hi : idx_main_v36 (ix2 e (0 : Fin 1)) = ix1 e := funext fun a => match a with | ⟨0, _⟩ => rfl
    rw [hi, v3_read]
    exact wrap_small _ (joined_lt x1 hrange 0 e)
  refine Fin.ext ?_
  show min (val_main_v36 (F := Ideal) x1 (ix2 e (0 : Fin 1))).toInt.toNat (10000 - 1) = _
  rw [hw, clamp_small _ (joined_lt x1 hrange 0 e), joined_toNat x1 hrange]

/-- The source column of the second layer's row gather. -/
theorem v54_row (hrange : ∀ i, (x1 i).toNat < 10000) (e : Fin 650000) :
    clampRow 10000 (by decide) (val_main_v54 (F := Ideal) x1) e = Cert.Gcn.endOf x1 0 e := by
  have hw : val_main_v54 (F := Ideal) x1 (ix2 e (0 : Fin 1)) = joined x1 0 e := by
    rw [val_main_v54_apply, val_main_v53_apply, val_main_v50_apply, val_main_v52_apply, val_main_v49_apply,
      val_main_v51_apply, val_main_c_9_apply, val_main_c_10_apply]
    have hi : idx_main_v54 (ix2 e (0 : Fin 1)) = ix1 e := funext fun a => match a with | ⟨0, _⟩ => rfl
    rw [hi, v3_read]
    exact wrap_small _ (joined_lt x1 hrange 0 e)
  refine Fin.ext ?_
  show min (val_main_v54 (F := Ideal) x1 (ix2 e (0 : Fin 1))).toInt.toNat (10000 - 1) = _
  rw [hw, clamp_small _ (joined_lt x1 hrange 0 e), joined_toNat x1 hrange]

/-! ## The index columns of the scatters: the signed index is the destination's number -/

/-- The index column of the degree count. -/
theorem v9_int (hrange : ∀ i, (x1 i).toNat < 10000) (e : Fin 650000) :
    (val_main_v9 (F := Ideal) x1 (ix2 e (0 : Fin 1))).toInt = ((Cert.Gcn.endOf x1 1 e).val : ℤ) := by
  have hi : idx_main_v9 (ix2 e (0 : Fin 1)) = ix1 e := funext fun a => match a with | ⟨0, _⟩ => rfl
  rw [val_main_v9_apply, hi, v6_read, toInt_small _ (joined_lt x1 hrange 1 e), joined_toNat x1 hrange]

/-- The index column of the first layer's sum. -/
theorem v42_int (hrange : ∀ i, (x1 i).toNat < 10000) (e : Fin 650000) :
    (val_main_v42 (F := Ideal) x1 (ix2 e (0 : Fin 1))).toInt = ((Cert.Gcn.endOf x1 1 e).val : ℤ) := by
  have hi : idx_main_v42 (ix2 e (0 : Fin 1)) = ix1 e := funext fun a => match a with | ⟨0, _⟩ => rfl
  rw [val_main_v42_apply, hi, v6_read, toInt_small _ (joined_lt x1 hrange 1 e), joined_toNat x1 hrange]

/-- The index column of the second layer's sum. -/
theorem v60_int (hrange : ∀ i, (x1 i).toNat < 10000) (e : Fin 650000) :
    (val_main_v60 (F := Ideal) x1 (ix2 e (0 : Fin 1))).toInt = ((Cert.Gcn.endOf x1 1 e).val : ℤ) := by
  have hi : idx_main_v60 (ix2 e (0 : Fin 1)) = ix1 e := funext fun a => match a with | ⟨0, _⟩ => rfl
  rw [val_main_v60_apply, hi, v6_read, toInt_small _ (joined_lt x1 hrange 1 e), joined_toNat x1 hrange]

end Cert.ReferenceIdeal.RefValue

end
-- ==== Proof.LibRowScatter.lean ====
/-
  The accumulating row scatter along the leading axis read at an index as ONE sum over the update rows, and its
  composition with a row gather scaled row by row: the shape a neighbourhood sum over a graph's edges takes
  (gather the source rows, scale each by the edge's coefficient, add into the target rows). Nothing here mentions a
  particular program; the sizes are parameters. Built on the row scatter and row gather of LibSegmentSum.
-/
import proofs.«133914_j16801912062630_2_alg».proof.Proof.LibSegmentSum

noncomputable section

open scoped BigOperators

namespace Idealize.ShloMosaic.SegmentSum

open Idealize.ShloMosaic
open Idealize.ShloMosaic.ValueIdx

/-! ## Where an update of the row scatter lands

For the row scatter (operand `[N, D]`, indices `[E, 1]`, updates `[E, D]`) the window start on axis 0 is the signed
scatter index of the update's row and the window coordinate there is zero (the axis is inserted); on axis 1 the start
is zero and the window coordinate is the update's own column. -/

section Lands
variable {N E D w : Nat}
  (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

theorem rowScatter_start0 :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowScatter_window0 : (rowScatterDims N E D wf).window j 0 = 0 := by
  unfold ScatterDims.window
  rw [dif_neg (by simp [ScatterDims.sKept, Shape.kept, List.mem_filter, List.mem_finRange])]

theorem rowScatter_start1 : (rowScatterDims N E D wf).start j idx 1 = 0 := by
  unfold ScatterDims.start
  rw [dif_neg (fun h => absurd (List.mem_singleton.mp h) (show ¬ (1 : Fin 2) = 0 by decide))]

theorem rowScatter_window1 : (rowScatterDims N E D wf).window j 1 = (j 1).val := by
  unfold ScatterDims.window
  rw [dif_pos (show (1 : Fin 2) ∈ (rowScatterDims N E D wf).sKept by
    simp [ScatterDims.sKept, Shape.kept, List.mem_filter, List.mem_finRange])]
  rfl

/-- An update element lands at operand index `i` exactly when its row's scatter index, read signed, is `i`'s row
    number and its column is `i`'s column. -/
theorem rowScatter_resultIdx_iff (i : (⟨2, ![N, D]⟩ : Shape).Idx) :
    (rowScatterDims N E D wf).resultIdx? j idx = some i
      ↔ (idx (ix2 (j 0) 0)).toInt = ((i 0).val : ℤ) ∧ (j 1).val = (i 1).val := by
  have hs0 := rowScatter_start0 wf idx j
  have hw0 := rowScatter_window0 wf j
  have hs1 := rowScatter_start1 wf idx j
  have hw1 := rowScatter_window1 wf j
  have hi0 : (i 0).val < N := idx2_lt0 i
  have hi1 : (i 1).val < D := idx2_lt1 i
  have hj1 : (j 1).val < D := idx2_lt1 j
  constructor
  · intro h
    unfold ScatterDims.resultIdx? at h
    split at h
    · rename_i hin
      have e := Option.some.inj h
      have v0 : ((rowScatterDims N E D wf).start j idx 0 + (rowScatterDims N E D wf).window j 0).toNat = (i 0).val :=
        congrArg Fin.val (congrFun e 0)
      have v1 : ((rowScatterDims N E D wf).start j idx 1 + (rowScatterDims N E D wf).window j 1).toNat = (i 1).val :=
        congrArg Fin.val (congrFun e 1)
      have p0 := (hin 0).1
      rw [hs0, hw0] at v0 p0
      rw [hs1, hw1] at v1
      constructor <;> omega
    · cases h
  · rintro ⟨hr, hc⟩
    have hall : ∀ a, 0 ≤ (rowScatterDims N E D wf).start j idx a + (rowScatterDims N E D wf).window j a
        ∧ (rowScatterDims N E D wf).start j idx a + (rowScatterDims N E D wf).window j a
          < ((⟨2, ![N, D]⟩ : Shape).size a) := by
      intro a
      match a with
      | ⟨0, _⟩ =>
        show 0 ≤ (rowScatterDims N E D wf).start j idx 0 + (rowScatterDims N E D wf).window j 0
          ∧ (rowScatterDims N E D wf).start j idx 0 + (rowScatterDims N E D wf).window j 0 < (N : ℤ)
        rw [hs0, hw0]; omega
      | ⟨1, _⟩ =>
        show 0 ≤ (rowScatterDims N E D wf).start j idx 1 + (rowScatterDims N E D wf).window j 1
          ∧ (rowScatterDims N E D wf).start j idx 1 + (rowScatterDims N E D wf).window j 1 < (D : ℤ)
        rw [hs1, hw1]; omega
    unfold ScatterDims.resultIdx?
    rw [dif_pos hall]
    congr 1
    funext a
    refine Fin.ext ?_
    match a with
    | ⟨0, _⟩ =>
      show ((rowScatterDims N E D wf).start j idx 0 + (rowScatterDims N E D wf).window j 0).toNat = (i 0).val
      rw [hs0, hw0]; omega
    | ⟨1, _⟩ =>
      show ((rowScatterDims N E D wf).start j idx 1 + (rowScatterDims N E D wf).window j 1).toNat = (i 1).val
      rw [hs1, hw1]; omega

end Lands

/-! ## The row scatter read at an index -/

/-- The accumulating row scatter at `(n, c)`: the operand there plus the sum, over the update rows `e` whose scatter
    index is `n`, of the update at `(e, c)` — column by column, whatever the number of columns. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (U : (⟨2, ![E, D]⟩ : Shape).Idx → EReal) (n : Fin N) (c : Fin D) :
    Ideal.hostScatterAdd (rowScatterDims N E D wf) x idx U (ix2 n c)
      = x (ix2 n c)
        + ∑ e ∈ Finset.univ.filter (fun e : Fin E => (idx (ix2 e 0)).toInt = (n.val : ℤ)), U (ix2 e c) := by
  unfold Ideal.hostScatterAdd
  congr 1
  refine Finset.sum_nbij' (fun j => j 0) (fun e => ix2 e c) ?_ ?_ ?_ ?_ ?_
  · intro j hj
    have h := (rowScatter_resultIdx_iff wf idx j (ix2 n c)).mp (Finset.mem_filter.mp hj).2
    exact Finset.mem_filter.mpr ⟨Finset.mem_univ _, h.1⟩
  · intro e he
    exact Finset.mem_filter.mpr ⟨Finset.mem_univ _,
      (rowScatter_resultIdx_iff wf idx (ix2 e c) (ix2 n c)).mpr ⟨(Finset.mem_filter.mp he).2, rfl⟩⟩
  · intro j hj
    have h := (rowScatter_resultIdx_iff wf idx j (ix2 n c)).mp (Finset.mem_filter.mp hj).2
    have hc : j 1 = c := Fin.ext h.2
    rw [← hc]
    exact (eq_ix2 j).symm
  · intro e _
    rfl
  · intro j hj
    have h := (rowScatter_resultIdx_iff wf idx j (ix2 n c)).mp (Finset.mem_filter.mp hj).2
    have hc : j 1 = c := Fin.ext h.2
    rw [← hc]
    exact congrArg U (eq_ix2 j)

/-- The sum a neighbourhood aggregation computes at target row `n` from a column `p` of the source rows: over the
    edges `e` whose target index `col[e]` is `n`, the edge's coefficient times `p` at the edge's (clamped) source row. -/
def edgeSum (N : Nat) (hN : 0 < N) {E w : Nat} (col row : IVec ⟨2, ![E, 1]⟩ w)
    (coef : (⟨2, ![E, 1]⟩ : Shape).Idx → EReal) (p : Fin N → EReal) (n : Fin N) : EReal :=
  ∑ e ∈ Finset.univ.filter (fun e : Fin E => (col (ix2 e 0)).toInt = (n.val : ℤ)),
    coef (ix2 e 0) * p (clampRow N hN row e)

/-- Gather the rows `row` of `P`, scale row `e` by `coef[e]`, add into the rows `col` of zeros: at `(n, c)` this is
    the edge sum of column `c` of `P`. The updates are given as any array `U` that reads `coef[e] · P[row e, c]`. -/
theorem scatter_scaled_gather_apply {N E D w : Nat} (hN : 0 < N)
    (wfs : ScatterDims.WF ⟨2, ![N, D]⟩ ⟨2, ![E, 1]⟩ ⟨2, ![E, D]⟩ [1] [0] [0] 1)
    (col row : IVec ⟨2, ![E, 1]⟩ w) (coef : (⟨2, ![E, 1]⟩ : Shape).Idx → EReal)
    (P : (⟨2, ![N, D]⟩ : Shape).Idx → EReal) (U : (⟨2, ![E, D]⟩ : Shape).Idx → EReal)
    (hU : ∀ (e : Fin E) (c : Fin D), U (ix2 e c) = coef (ix2 e 0) * P (ix2 (clampRow N hN row e) c))
    (n : Fin N) (c : Fin D) :
    Ideal.hostScatterAdd (rowScatterDims N E D wfs) (fun _ => 0) col U (ix2 n c)
      = edgeSum N hN col row coef (fun r => P (ix2 r c)) n := by
  rw [rowScatterAdd_apply, zero_add]
  unfold edgeSum
  exact Finset.sum_congr rfl fun e _ => hU e c

end Idealize.ShloMosaic.SegmentSum

end
-- ==== Proof.RefHostOps.lean ====
/-
  Three host operations of an edge-list aggregation, read at an index as sums over the whole edge list.

  (1) The accumulating scatter of a vector: operand `[N]`, indices `[E, 1]`, updates `[E]`; at `n` it is the operand
      there plus the updates whose index is `n`.  With ones for updates and zeros for operand it counts them.
  (2) A filtered sum, the filter "the signed index of `e` is `n`", is the sum over every `e` of the term or zero,
      the test being on the node the index denotes.
  (3) Gather the rows `src e` of an `[N, D]` array, multiply row `e` by a weight, add into the rows `dst e` of zeros:
      at `(d, c)` this is the sum over the edges arriving at `d` of the array at `(src e, c)` times the weight of `e`.
  Nothing here mentions a particular program; the sizes are parameters.
-/
import proofs.«133914_j16801912062630_2_alg».proof.Proof.LibRowScatter

noncomputable section

open scoped BigOperators

namespace Cert.Gcn.HostOps

open Idealize.ShloMosaic Idealize.ShloMosaic.ValueIdx Idealize.ShloMosaic.SegmentSum

/-! ## The accumulating scatter of a vector -/

/-- The dimension numbers of the scatter for an operand `[N]`, scatter indices `[E, 1]` and updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Lands
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window of update `j` starts at its scatter index, read signed. -/
theorem vecScatter_start0 : (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: the window coordinate there is zero. -/
theorem vecScatter_window0 : (vecScatterDims N E wf).window j 0 = 0 := by
  unfold ScatterDims.window
  rw [dif_neg (by simp [ScatterDims.sKept, Shape.kept, List.mem_filter, List.mem_finRange])]

/-- An update lands at `i` exactly when its scatter index, read signed, is `i`'s position. -/
theorem vecScatter_resultIdx_iff (i : (⟨1, ![N]⟩ : Shape).Idx) :
    (vecScatterDims N E wf).resultIdx? j idx = some i ↔ (idx (ix2 (j 0) 0)).toInt = ((i 0).val : ℤ) := by
  have hs0 := vecScatter_start0 wf idx j
  have hw0 := vecScatter_window0 wf j
  have hi0 : (i 0).val < N := (i 0).isLt
  constructor
  · intro h
    unfold ScatterDims.resultIdx? at h
    split at h
    · rename_i hin
      have e := Option.some.inj h
      have v0 : ((vecScatterDims N E wf).start j idx 0 + (vecScatterDims N E wf).window j 0).toNat = (i 0).val :=
        congrArg Fin.val (congrFun e 0)
      have p0 := (hin 0).1
      rw [hs0, hw0] at v0 p0
      omega
    · cases h
  · intro hr
    have hall : ∀ a, 0 ≤ (vecScatterDims N E wf).start j idx a + (vecScatterDims N E wf).window j a
        ∧ (vecScatterDims N E wf).start j idx a + (vecScatterDims N E wf).window j a
          < ((⟨1, ![N]⟩ : Shape).size a) := by
      intro a
      match a with
      | ⟨0, _⟩ =>
        show 0 ≤ (vecScatterDims N E wf).start j idx 0 + (vecScatterDims N E wf).window j 0
          ∧ (vecScatterDims N E wf).start j idx 0 + (vecScatterDims N E wf).window j 0 < (N : ℤ)
        rw [hs0, hw0]; omega
    unfold ScatterDims.resultIdx?
    rw [dif_pos hall]
    congr 1
    funext a
    refine Fin.ext ?_
    match a with
    | ⟨0, _⟩ =>
      show ((vecScatterDims N E wf).start j idx 0 + (vecScatterDims N E wf).window j 0).toNat = (i 0).val
      rw [hs0, hw0]; omega

end Lands

/-- The accumulating scatter of a vector at `n`: the operand there plus the sum of the updates whose scatter index
    is `n`. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (U : (⟨1, ![E]⟩ : Shape).Idx → EReal) (n : Fin N) :
    Ideal.hostScatterAdd (vecScatterDims N E wf) x idx U (ix1 n)
      = x (ix1 n) + ∑ e ∈ Finset.univ.filter (fun e : Fin E => (idx (ix2 e 0)).toInt = (n.val : ℤ)), U (ix1 e) := by
  unfold Ideal.hostScatterAdd
  congr 1
  refine Finset.sum_nbij' (fun j => j 0) (fun e => ix1 e) ?_ ?_ ?_ ?_ ?_
  · intro j hj
    exact Finset.mem_filter.mpr ⟨Finset.mem_univ _,
      (vecScatter_resultIdx_iff wf idx j (ix1 n)).mp (Finset.mem_filter.mp hj).2⟩
  · intro e he
    exact Finset.mem_filter.mpr ⟨Finset.mem_univ _,
      (vecScatter_resultIdx_iff wf idx (ix1 e) (ix1 n)).mpr (Finset.mem_filter.mp he).2⟩
  · intro j _
    exact (eq_ix1 j).symm
  · intro e _
    rfl
  · intro j _
    exact congrArg U (eq_ix1 j)

/-! ## A filtered sum as a sum of terms or zeros -/

/-- When the signed index of `e` is the number of the node `dst e`, the sum over the `e` whose index is `n` is the sum
    over every `e` of the term where `dst e = n` and of zero elsewhere. -/
theorem sum_filter_toInt {N E : Nat} (t : Fin E → ℤ) (dst : Fin E → Fin N) (ht : ∀ e, t e = ((dst e).val : ℤ))
    (n : Fin N) (f : Fin E → EReal) :
    ∑ e ∈ Finset.univ.filter (fun e : Fin E => t e = (n.val : ℤ)), f e = ∑ e : Fin E, if dst e = n then f e else 0 := by
  rw [← Finset.sum_filter]
  refine Finset.sum_congr (Finset.filter_congr fun e _ => ?_) fun _ _ => rfl
  rw [ht e, Nat.cast_inj, Fin.val_inj]

/-! ## The degree: ones scattered into zeros -/

/-- Ones added into zeros at the positions `dst e`: at `n`, the number of `e` with `dst e = n`. -/
theorem count_read {N E : Nat} (ds : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hds : ds = vecScatterDims N E wf)
    (zero : FVec Ideal ⟨1, ![N]⟩ .f32) (ones : FVec Ideal ⟨1, ![E]⟩ .f32) (hzero : ∀ j, zero j = 0) (hone : ∀ j, ones j = 1)
    (dI : IVec ⟨2, ![E, 1]⟩ 32) (dst : Fin E → Fin N) (hd : ∀ e, (dI (ix2 e (0 : Fin 1))).toInt = ((dst e).val : ℤ))
    (n : Fin N) :
    Host.scatterAdd ds zero dI ones (ix1 n) = ∑ e : Fin E, if dst e = n then (1 : EReal) else 0 := by
  subst hds
  simp only [Host.scatterAdd, Ideal.hostScatterAdd_def]
  rw [vecScatterAdd_apply, hzero, zero_add, sum_filter_toInt _ dst hd n]
  exact Finset.sum_congr rfl fun e _ => by rw [hone]

/-! ## Gather the source rows, weigh them, add into the destination rows -/

/-- At `(d, c)`: the sum over the edges arriving at `d` of the array at the edge's source row and column `c`, times
    the edge's weight. -/
theorem aggregate_read {N E D : Nat} (hN : 0 < N)
    (ds : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1) (hds : ds = rowScatterDims N E D wfs)
    (dg : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D]) (hdg : dg = rowGatherDims N E D wfg)
    (P zero : FVec Ideal ⟨2, ![N, D]⟩ .f32) (hzero : ∀ j, zero j = 0)
    (dI sI : IVec ⟨2, ![E, 1]⟩ 32) (W : FVec Ideal ⟨2, ![E, D]⟩ .f32)
    (dst src : Fin E → Fin N) (wgt : Fin E → EReal)
    (hd : ∀ e, (dI (ix2 e (0 : Fin 1))).toInt = ((dst e).val : ℤ)) (hs : ∀ e, clampRow N hN sI e = src e)
    (hW : ∀ e c, W (ix2 e c) = wgt e) (d : Fin N) (c : Fin D) :
    Host.scatterAdd ds zero dI (mulf (Host.gather dg P sI) W) (ix2 d c)
      = ∑ e : Fin E, if dst e = d then P (ix2 (src e) c) * wgt e else 0 := by
  subst hds hdg
  simp only [Host.scatterAdd, Ideal.hostScatterAdd_def]
  rw [rowScatterAdd_apply, hzero, zero_add, sum_filter_toInt _ dst hd d]
  refine Finset.sum_congr rfl fun e _ => ?_
  rw [mulf_apply, rowGather_apply hN wfg P sI (ix2 e c), hW]
  show (if dst e = d then P (ix2 (clampRow N hN sI e) c) * wgt e else 0) = _
  rw [hs e]

end Cert.Gcn.HostOps

end
-- ==== Proof.RefCoef.lean ====
/-
  The degrees, the node coefficients and the entry weights, as the reference program computes them.

  The degree of a node is a scatter of ones into zeros at the destinations; the coefficient is the select
  "degree positive ? reciprocal square root of the degree : zero"; the weight of an entry is the product of the
  coefficients gathered at its source and at its destination.
-/
import proofs.«133914_j16801912062630_2_alg».proof.Proof.RefEdges
import proofs.«133914_j16801912062630_2_alg».proof.Proof.RefHostOps
import Idealize.ShloMosaic.Lib.IdealHost

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Idealize.ShloMosaic.SegmentSum Idealize.ShloMosaic.Pipeline

variable (x0 : Vec Ideal ⟨2, ![10000, 256]⟩ .f32) (x1 : IVec ⟨2, ![2, 640000]⟩ 32)
  (x2 : Vec Ideal ⟨2, ![256, 128]⟩ .f32) (x3 : Vec Ideal ⟨1, ![128]⟩ .f32)
  (x4 : Vec Ideal ⟨2, ![128, 64]⟩ .f32) (x5 : Vec Ideal ⟨1, ![64]⟩ .f32)

/-- The degree of node `n`. -/
theorem deg_read (hrange : ∀ i, (x1 i).toNat < 10000) (n : Fin 10000) :
    val_main_v10 (F := Ideal) x1 (ix1 n) = Cert.Gcn.deg (Cert.Gcn.inputsOf x0 x1 x2 x3 x4 x5) n := by
  unfold val_main_v10 Cert.Gcn.deg
  refine Cert.Gcn.HostOps.count_read scatter_S10000_S650000x1_S650000_n_0_0_1
    scatter_S10000_S650000x1_S650000_n_0_0_1_wf rfl _ _ (fun j => ?_) (fun j => ?_) _ (Cert.Gcn.endOf x1 1)
    (v9_int x1 hrange) n
  · rw [val_main_v8_apply, val_main_cst_0_apply]
    exact Ideal.ofBits_zero_f32
  · rw [val_main_v7_apply, val_main_cst_apply]
    exact Ideal.ofBits_one_f32

/-- The coefficient of node `n`. -/
theorem dinv_read (hrange : ∀ i, (x1 i).toNat < 10000) (n : Fin 10000) :
    val_main_v14 (F := Ideal) x1 (ix1 n) = Cert.Gcn.dinv (Cert.Gcn.inputsOf x0 x1 x2 x3 x4 x5) n := by
  rw [val_main_v14_apply, val_main_v12_apply, val_main_v13_apply, val_main_v11_apply, val_main_cst_1_apply,
    val_main_call0_v1_apply, val_main_call0_v0_apply, val_main_cst_2_apply, deg_read x0 x1 x2 x3 x4 x5 hrange n]
  unfold Cert.Gcn.dinv
  generalize Cert.Gcn.deg (Cert.Gcn.inputsOf x0 x1 x2 x3 x4 x5) n = g
  show Scalar.select (Ideal.cmp .ogt g (Ideal.ofBits .f32 0x00000000#32)) (Ideal.rsqrt g) (Ideal.ofBits .f32 0x00000000#32)
    = if 0 < g then Ideal.rsqrt g else 0
  rw [Ideal.ofBits_zero_f32]
  by_cases hg : 0 < g
  · rw [if_pos hg]
    have hc : Ideal.cmp .ogt g 0 = 1#1 := by
      show BitVec.ofBool (decide (0 < g)) = 1#1
      rw [decide_eq_true hg]; rfl
    rw [hc, select_one]
  · rw [if_neg hg]
    have hc : Ideal.cmp .ogt g 0 = 0#1 := by
      show BitVec.ofBool (decide (0 < g)) = 0#1
      rw [decide_eq_false hg]; rfl
    rw [hc, select_zero]

/-- The weight of entry `e`. -/
theorem norm_read (hrange : ∀ i, (x1 i).toNat < 10000) (e : Fin 650000) :
    val_main_v29 (F := Ideal) x1 (ix1 e) = Cert.Gcn.norm (Cert.Gcn.inputsOf x0 x1 x2 x3 x4 x5) e := by
  rw [val_main_v29_apply]
  unfold val_main_v21 val_main_v28 Cert.Gcn.norm
  rw [show gather_S10000_S650000x1_S650000_n_0_n_n_0_1_1
      = vecGatherDims 10000 650000 gather_S10000_S650000x1_S650000_n_0_n_n_0_1_1_wf from rfl,
    vecGather_apply (by decide : 0 < 10000), vecGather_apply (by decide : 0 < 10000)]
  show val_main_v14 (F := Ideal) x1 (ix1 (clampRow 10000 _ (val_main_v20 (F := Ideal) x1) e))
      * val_main_v14 (F := Ideal) x1 (ix1 (clampRow 10000 _ (val_main_v27 (F := Ideal) x1) e)) = _
  rw [v20_row x1 hrange e, v27_row x1 hrange e, dinv_read x0 x1 x2 x3 x4 x5 hrange, dinv_read x0 x1 x2 x3 x4 x5 hrange]
  rfl

end Cert.ReferenceIdeal.RefValue

end
-- ==== Proof.RefLayer1.lean ====
/-
  The first layer of the reference program, stage by stage: the features times the first weight matrix, the sum over
  the entries arriving at each node of the source's row times the entry's weight, the bias, the positive part.
-/
import proofs.«133914_j16801912062630_2_alg».proof.Proof.RefCoef

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Idealize.ShloMosaic.SegmentSum Idealize.ShloMosaic.Pipeline

variable (x0 : Vec Ideal ⟨2, ![10000, 256]⟩ .f32) (x1 : IVec ⟨2, ![2, 640000]⟩ 32)
  (x2 : Vec Ideal ⟨2, ![256, 128]⟩ .f32) (x3 : Vec Ideal ⟨1, ![128]⟩ .f32)
  (x4 : Vec Ideal ⟨2, ![128, 64]⟩ .f32) (x5 : Vec Ideal ⟨1, ![64]⟩ .f32)

/-- The features times the first weight matrix. -/
theorem h1_read (n : Fin 10000) (k : Fin 128) :
    val_main_v30 (F := Ideal) x0 x2 (ix2 n k) = Cert.Gcn.h1 (Cert.Gcn.inputsOf x0 x1 x2 x3 x4 x5) n k := by
  rw [val_main_v30_apply]
  unfold Cert.Gcn.h1
  refine Finset.sum_congr rfl fun j _ => ?_
  have hl : lidx_main_v30 (ix2 n k) j = ix2 n j := funext fun a => match a with
    | ⟨0, _⟩ => rfl
    | ⟨1, _⟩ => rfl
  have hr : ridx_main_v30 (ix2 n k) j = ix2 j k := funext fun a => match a with
    | ⟨0, _⟩ => rfl
    | ⟨1, _⟩ => rfl
  rw [hl, hr]
  rfl

/-- The weight of an entry, spread over the 128 columns. -/
theorem v39_read (hrange : ∀ i, (x1 i).toNat < 10000) (e : Fin 650000) (c : Fin 128) :
    val_main_v39 (F := Ideal) x1 (ix2 e c) = Cert.Gcn.norm (Cert.Gcn.inputsOf x0 x1 x2 x3 x4 x5) e := by
  rw [val_main_v39_apply, val_main_v38_apply]
  have hi : idx_main_v38 (idx_main_v39 (ix2 e c)) = ix1 e := funext fun a => match a with | ⟨0, _⟩ => rfl
  rw [hi, norm_read x0 x1 x2 x3 x4 x5 hrange e]

/-- The sum over the entries arriving at `d`. -/
theorem agg1_read (hrange : ∀ i, (x1 i).toNat < 10000) (d : Fin 10000) (k : Fin 128) :
    val_main_v43 (F := Ideal) x0 x1 x2 (ix2 d k) = Cert.Gcn.agg1 (Cert.Gcn.inputsOf x0 x1 x2 x3 x4 x5) d k := by
  unfold val_main_v43 val_main_v40 val_main_v37 Cert.Gcn.agg1
  refine (Cert.Gcn.HostOps.aggregate_read (by decide : 0 < 10000) scatter_S10000x128_S650000x1_S650000x128_1_0_0_1
    scatter_S10000x128_S650000x1_S650000x128_1_0_0_1_wf rfl gather_S10000x128_S650000x1_S650000x128_1_0_n_n_0_1_1128
    gather_S10000x128_S650000x1_S650000x128_1_0_n_n_0_1_1128_wf rfl _ _ (fun j => ?_) _ _ _
    (Cert.Gcn.endOf x1 1) (Cert.Gcn.endOf x1 0) (Cert.Gcn.norm (Cert.Gcn.inputsOf x0 x1 x2 x3 x4 x5))
    (v42_int x1 hrange) (v36_row x1 hrange) (v39_read x0 x1 x2 x3 x4 x5 hrange) d k).trans ?_
  · rw [val_main_v41_apply, val_main_cst_8_apply]
    exact Ideal.ofBits_zero_f32
  · refine Finset.sum_congr rfl fun e _ => ?_
    rw [h1_read x0 x1 x2 x3 x4 x5]
    rfl

/-- The first layer's result: bias added, positive part taken. -/
theorem l1_read (hrange : ∀ i, (x1 i).toNat < 10000) (d : Fin 10000) (k : Fin 128) :
    val_main_v47 (F := Ideal) x0 x1 x2 x3 (ix2 d k) = Cert.Gcn.l1 (Cert.Gcn.inputsOf x0 x1 x2 x3 x4 x5) d k := by
  rw [val_main_v47_apply, val_main_v46_apply, agg1_read x0 x1 x2 x3 x4 x5 hrange, val_main_v45_apply, val_main_v44_apply,
    val_main_call1_v0_apply, val_main_call1_cst_apply]
  have hi : idx_main_v44 (idx_main_v45 (ix2 d k)) = ix1 k := funext fun a => match a with | ⟨0, _⟩ => rfl
  rw [hi]
  unfold Cert.Gcn.l1
  show max (_ + x3 (ix1 k)) (Ideal.ofBits .f32 0x00000000#32) = _
  rw [Ideal.ofBits_zero_f32]
  rfl

end Cert.ReferenceIdeal.RefValue

end
-- ==== Proof.RefLayer2.lean ====
/-
  The second layer of the reference program, stage by stage: the first layer's result times the second weight
  matrix, the sum over the entries arriving at each node of the source's row times the entry's weight, the bias.
-/
import proofs.«133914_j16801912062630_2_alg».proof.Proof.RefLayer1

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Idealize.ShloMosaic.SegmentSum Idealize.ShloMosaic.Pipeline

variable (x0 : Vec Ideal ⟨2, ![10000, 256]⟩ .f32) (x1 : IVec ⟨2, ![2, 640000]⟩ 32)
  (x2 : Vec Ideal ⟨2, ![256, 128]⟩ .f32) (x3 : Vec Ideal ⟨1, ![128]⟩ .f32)
  (x4 : Vec Ideal ⟨2, ![128, 64]⟩ .f32) (x5 : Vec Ideal ⟨1, ![64]⟩ .f32)

/-- The first layer's result times the second weight matrix. -/
theorem h2_read (hrange : ∀ i, (x1 i).toNat < 10000) (n : Fin 10000) (c : Fin 64) :
    val_main_v48 (F := Ideal) x0 x1 x2 x3 x4 (ix2 n c) = Cert.Gcn.h2 (Cert.Gcn.inputsOf x0 x1 x2 x3 x4 x5) n c := by
  rw [val_main_v48_apply]
  unfold Cert.Gcn.h2
  refine Finset.sum_congr rfl fun k _ => ?_
  have hl : lidx_main_v48 (ix2 n c) k = ix2 n k := funext fun a => match a with
    | ⟨0, _⟩ => rfl
    | ⟨1, _⟩ => rfl
  have hr : ridx_main_v48 (ix2 n c) k = ix2 k c := funext fun a => match a with
    | ⟨0, _⟩ => rfl
    | ⟨1, _⟩ => rfl
  rw [hl, hr, l1_read x0 x1 x2 x3 x4 x5 hrange]
  rfl

/-- The weight of an entry, spread over the 64 columns. -/
theorem v57_read (hrange : ∀ i, (x1 i).toNat < 10000) (e : Fin 650000) (c : Fin 64) :
    val_main_v57 (F := Ideal) x1 (ix2 e c) = Cert.Gcn.norm (Cert.Gcn.inputsOf x0 x1 x2 x3 x4 x5) e := by
  rw [val_main_v57_apply, val_main_v56_apply]
  have hi : idx_main_v56 (idx_main_v57 (ix2 e c)) = ix1 e := funext fun a => match a with | ⟨0, _⟩ => rfl
  rw [hi, norm_read x0 x1 x2 x3 x4 x5 hrange e]

/-- The sum over the entries arriving at `d`. -/
theorem agg2_read (hrange : ∀ i, (x1 i).toNat < 10000) (d : Fin 10000) (c : Fin 64) :
    val_main_v61 (F := Ideal) x0 x1 x2 x3 x4 (ix2 d c) = Cert.Gcn.agg2 (Cert.Gcn.inputsOf x0 x1 x2 x3 x4 x5) d c := by
  unfold val_main_v61 val_main_v58 val_main_v55 Cert.Gcn.agg2
  refine (Cert.Gcn.HostOps.aggregate_read (by decide : 0 < 10000) scatter_S10000x64_S650000x1_S650000x64_1_0_0_1
    scatter_S10000x64_S650000x1_S650000x64_1_0_0_1_wf rfl gather_S10000x64_S650000x1_S650000x64_1_0_n_n_0_1_164
    gather_S10000x64_S650000x1_S650000x64_1_0_n_n_0_1_164_wf rfl _ _ (fun j => ?_) _ _ _
    (Cert.Gcn.endOf x1 1) (Cert.Gcn.endOf x1 0) (Cert.Gcn.norm (Cert.Gcn.inputsOf x0 x1 x2 x3 x4 x5))
    (v60_int x1 hrange) (v54_row x1 hrange) (v57_read x0 x1 x2 x3 x4 x5 hrange) d c).trans ?_
  · rw [val_main_v59_apply, val_main_cst_11_apply]
    exact Ideal.ofBits_zero_f32
  · refine Finset.sum_congr rfl fun e _ => ?_
    rw [h2_read x0 x1 x2 x3 x4 x5 hrange]
    rfl

/-- The program's result: the bias added. -/
theorem out_read (hrange : ∀ i, (x1 i).toNat < 10000) (d : Fin 10000) (c : Fin 64) :
    val_main_v64 (F := Ideal) x0 x1 x2 x3 x4 x5 (ix2 d c) = Cert.Gcn.out (Cert.Gcn.inputsOf x0 x1 x2 x3 x4 x5) d c := by
  rw [val_main_v64_apply, agg2_read x0 x1 x2 x3 x4 x5 hrange, val_main_v63_apply, val_main_v62_apply]
  have hi : idx_main_v62 (idx_main_v63 (ix2 d c)) = ix1 c := funext fun a => match a with | ⟨0, _⟩ => rfl
  rw [hi]
  rfl

end Cert.ReferenceIdeal.RefValue

end
-- ==== Proof.RefValue.lean ====
/-
  The value of the reference program: under the range condition on the edge array, its result at (d, q) is the
  entry-by-entry arrangement of the two-layer graph convolution on the data read off its six arrays.
-/
import proofs.«133914_j16801912062630_2_alg».proof.Proof.RefLayer2

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The reference's result is the specification's `out` on the inputs' data. -/
theorem ref_value (m : (ℓ : Loc nD τ sig) → Buf (Elt Ideal) ℓ) (c : Dev nD)
    (hrange : ∀ i, (m ((c.tc : Thread nD τ).loc main_arg1) i).toNat < 10000)
    (d : Fin 10000) (q : Fin 64) :
    ValueP.res_main_v64 (F := Ideal) m c (ix2 d q)
      = Cert.Gcn.out (Cert.Gcn.inputsOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) d q := by
  rw [val_main_v64_eq]
  exact out_read _ _ _ _ _ _ hrange d q

end Cert.ReferenceIdeal.RefValue

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.PreFacts.lean ====
/-
  The precondition read back.

  The precondition is the conjunction of six tests: for each of the five float arrays, that every entry has absolute
  value below +∞, and for the edge array, that every entry is at least 0 and below 10000 as a signed word.  Each test
  is an and-reduction over all axes, so when the conjunction is true every entry passes its test: every float entry is a
  real number, and every edge entry is a node number.  A signed 32-bit word that is at least 0 equals its unsigned
  value, so the unsigned value is below 10000 as well, and clamping it into the node range changes nothing.
-/
import proofs.«133914_j16801912062630_2_alg».proof.Proof.Gen.Pre_finite_inputs
import proofs.«133914_j16801912062630_2_alg».proof.Proof.GcnInputs
import proofs.«133914_j16801912062630_2_alg».proof.Proof.LibFiniteEntry
import Idealize.ShloMosaic.Lib.ReduceAll

noncomputable section

namespace Cert.PreFacts

open Idealize.ShloMosaic Idealize.ShloMosaic.ValueIdx Cert.Pre_finite_inputs Cert.Lib.FiniteEntry

variable (x : Vec Ideal ⟨2, ![10000, 256]⟩ .f32) (ei : IVec ⟨2, ![2, 640000]⟩ 32)
    (W1 : Vec Ideal ⟨2, ![256, 128]⟩ .f32) (b1 : Vec Ideal ⟨1, ![128]⟩ .f32)
    (W2 : Vec Ideal ⟨2, ![128, 64]⟩ .f32) (b2 : Vec Ideal ⟨1, ![64]⟩ .f32)

/-- The six tests, each read back at every entry. -/
theorem tests (h : Cert.Pre_finite_inputs.fn (F := Ideal) x ei W1 b1 W2 b2 = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal))
      ∧ (∀ i, 0 ≤ (ei i).toInt ∧ (ei i).toInt < 10000) := by
  have h0 := congrFun h ix0
  dsimp only [Cert.Pre_finite_inputs.fn, Cert.Pre_finite_inputs.fn_part1] at h0
  obtain ⟨h1, hE⟩ := IntOp.andi_eq_one.1 h0
  obtain ⟨h2, hb2⟩ := IntOp.andi_eq_one.1 h1
  obtain ⟨h3, hW2⟩ := IntOp.andi_eq_one.1 h2
  obtain ⟨h4, hb1⟩ := IntOp.andi_eq_one.1 h3
  obtain ⟨hx, hW1⟩ := IntOp.andi_eq_one.1 h4
  refine ⟨fun i => all_real x _ _ _ _ hx i, fun i => all_real W1 _ _ _ _ hW1 i, fun i => all_real b1 _ _ _ _ hb1 i,
    fun i => all_real W2 _ _ _ _ hW2 i, fun i => all_real b2 _ _ _ _ hb2 i, fun i => ?_⟩
  have e := Host.reduce_andi_all _ _ _ _ ix0 hE i
  obtain ⟨e1, e2⟩ := IntOp.andi_eq_one.1 e
  have f1 := IntOp.cmpi_sge.1 e1
  have f2 := IntOp.cmpi_slt.1 e2
  rw [broadcastInDim_scalar_apply] at f1 f2
  have g1 : (0#32 : BitVec 32).toInt ≤ (ei i).toInt := f1
  have g2 : (ei i).toInt < (10000#32 : BitVec 32).toInt := f2
  rw [show (0#32 : BitVec 32).toInt = 0 from by decide] at g1
  rw [show (10000#32 : BitVec 32).toInt = 10000 from by decide] at g2
  exact ⟨g1, g2⟩

/-- Under the precondition every float input is a real number. -/
theorem finite_of_pre (h : Cert.Pre_finite_inputs.fn (F := Ideal) x ei W1 b1 W2 b2 = fun _ => 1#1) :
    Cert.Gcn.Finite (Cert.Gcn.inputsOf x ei W1 b1 W2 b2) := by
  obtain ⟨hx, hW1, hb1, hW2, hb2, _⟩ := tests x ei W1 b1 W2 b2 h
  exact ⟨fun n j => hx _, fun j k => hW1 _, fun k => hb1 _, fun k c => hW2 _, fun c => hb2 _,
    Cert.Gcn.inputsOf_rs x ei W1 b1 W2 b2⟩

/-- Under the precondition every edge entry is, as a signed word, a node number. -/
theorem srange_of_pre (h : Cert.Pre_finite_inputs.fn (F := Ideal) x ei W1 b1 W2 b2 = fun _ => 1#1) :
    ∀ i, 0 ≤ (ei i).toInt ∧ (ei i).toInt < 10000 :=
  (tests x ei W1 b1 W2 b2 h).2.2.2.2.2

/-- A 32-bit word that is at least 0 as a signed number is its unsigned value. -/
theorem toNat_of_toInt_nonneg (w : BitVec 32) (h : 0 ≤ w.toInt) : (w.toNat : Int) = w.toInt := by
  have hlt := w.isLt
  rw [BitVec.toInt_eq_toNat_cond] at h ⊢
  split_ifs at h ⊢ <;> omega

/-- Under the precondition every edge entry is, as an unsigned word, a node number. -/
theorem range_of_pre (h : Cert.Pre_finite_inputs.fn (F := Ideal) x ei W1 b1 W2 b2 = fun _ => 1#1) :
    ∀ i, (ei i).toNat < 10000 := by
  intro i
  obtain ⟨h0, h1⟩ := srange_of_pre x ei W1 b1 W2 b2 h i
  have := toNat_of_toInt_nonneg (ei i) h0
  omega

/-- A word below 10000 is not moved by the clamp into the node range. -/
theorem node_val (w : BitVec 32) (h : w.toNat < 10000) : (Cert.Gcn.node w).val = w.toNat := by
  show min w.toNat 9999 = w.toNat
  omega

/-- An end of one of the 640000 given entries, as a number: the word of the edge array. -/
theorem endOf_val_lo (r : Fin 2) (e : Fin 650000) (he : e.val < 640000)
    (hr : (ei (ix2 r ⟨e.val, he⟩)).toNat < 10000) :
    (Cert.Gcn.endOf ei r e).val = (ei (ix2 r ⟨e.val, he⟩)).toNat := by
  unfold Cert.Gcn.endOf
  rw [dif_pos he]
  exact node_val _ hr

/-- An end of a self loop, as a number: the loop's node. -/
theorem endOf_val_hi (r : Fin 2) (e : Fin 650000) (he : ¬ e.val < 640000) :
    (Cert.Gcn.endOf ei r e).val = e.val - 640000 := by
  unfold Cert.Gcn.endOf
  rw [dif_neg he]

end Cert.PreFacts

end
-- ==== Proof.GcnAlgebra.lean ====
/-
  The two arrangements of the two-layer graph convolution agree on real inputs.

  Everything is first shown to be a real number (the degree is a finite sum of zeros and ones, a coefficient is the
  reciprocal square root of a positive real or zero, and sums, products and maxima of reals are real).  The one
  identity that carries the proof is, for real weights w and a real-valued g,
      Σ_s (Σ_{e : P e, src e = s} w_e) · g(s) = Σ_{e : P e} g(src e) · w_e ,
  proved over the reals by distributing the product into the inner sum, exchanging the two sums and collapsing the
  sum over s onto s = src e; it is then carried to the extended reals along the inclusion of the reals, which
  commutes with finite sums and products.  A column index past the node range never equals a source, so padding the
  columns changes nothing; a padded row of the features is zero, and zero times anything is zero.
-/
import proofs.«133914_j16801912062630_2_alg».proof.Proof.GcnSpec

noncomputable section

namespace Cert.Gcn

open Finset

/-! ## Real numbers inside the extended reals -/

/-- An extended real that is a real number. -/
def IsReal (a : EReal) : Prop := ∃ r : ℝ, a = (r : EReal)

theorem IsReal.zero : IsReal 0 := ⟨0, rfl⟩
theorem IsReal.one : IsReal 1 := ⟨1, rfl⟩
theorem IsReal.coe (r : ℝ) : IsReal (r : EReal) := ⟨r, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb; exact ⟨Max.max x y, (EReal.coe_strictMono.monotone.map_max).symm⟩

theorem IsReal.ite {c : Prop} [Decidable c] {a b : EReal} (ha : IsReal a) (hb : IsReal b) :
    IsReal (if c then a else b) := by
  split_ifs
  · exact ha
  · exact hb

theorem IsReal.dite {c : Prop} [Decidable c] {a : c → EReal} {b : ¬ c → EReal} (ha : ∀ h, IsReal (a h))
    (hb : ∀ h, IsReal (b h)) : IsReal (if h : c then a h else b h) := by
  split_ifs with h
  · exact ha h
  · exact hb h

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i, IsReal (f i)) :
    IsReal (∑ i ∈ s, f i) := by
  choose f' hf' using h
  exact ⟨∑ i ∈ s, f' i, by rw [coe_sum]; exact Finset.sum_congr rfl fun i _ => hf' i⟩

/-! ## The identity, over the reals and then over the extended reals -/

theorem real_key {E S : Type*} [Fintype E] [Fintype S] [DecidableEq S] (P : E → Prop) [DecidablePred P]
    (src : E → S) (w : E → ℝ) (g : S → ℝ) :
    ∑ s, (∑ e, if P e ∧ src e = s then w e else 0) * g s = ∑ e, if P e then g (src e) * w e else 0 := by
  simp_rw [Finset.sum_mul]
  rw [Finset.sum_comm]
  refine Finset.sum_congr rfl fun e _ => ?_
  by_cases hP : P e
  · simp only [hP, true_and, if_true, ite_mul, zero_mul, Finset.sum_ite_eq, Finset.mem_univ]
    exact mul_comm _ _
  · simp only [hP, false_and, if_false, zero_mul, Finset.sum_const_zero]

theorem ereal_key {E S : Type*} [Fintype E] [Fintype S] [DecidableEq S] (P : E → Prop) [DecidablePred P]
    (src : E → S) (w : E → EReal) (g : S → EReal) (hw : ∀ e, IsReal (w e)) (hg : ∀ s, IsReal (g s)) :
    ∑ s, (∑ e, if P e ∧ src e = s then w e else 0) * g s = ∑ e, if P e then g (src e) * w e else 0 := by
  choose w' hw' using hw
  choose g' hg' using hg
  have h1 : ∀ s, (∑ e, if P e ∧ src e = s then w e else 0) * g s
      = (((∑ e, if P e ∧ src e = s then w' e else 0) * g' s : ℝ) : EReal) := by
    intro s
    rw [EReal.coe_mul, coe_sum, hg']
    congr 1
    refine Finset.sum_congr rfl fun e _ => ?_
    rw [hw']
    split_ifs <;> rfl
  have h2 : ∀ e, (if P e then g (src e) * w e else 0)
      = (((if P e then g' (src e) * w' e else 0 : ℝ)) : EReal) := by
    intro e
    rw [hg', hw']
    split_ifs
    · exact (EReal.coe_mul _ _).symm
    · rfl
  rw [Finset.sum_congr rfl fun s _ => h1 s, Finset.sum_congr rfl fun e _ => h2 e, ← coe_sum, ← coe_sum,
    real_key]

/-! ## Everything is real -/

variable (I : Inputs)

/-- The degree is the real count of the arriving entries. -/
theorem deg_eq (n : Fin 10000) :
    deg I n = (((∑ e : Fin 650000, if I.dst e = n then (1 : ℝ) else 0) : ℝ) : EReal) := by
  unfold deg
  rw [coe_sum]
  refine Finset.sum_congr rfl fun e _ => ?_
  split_ifs <;> rfl

theorem deg_real (n : Fin 10000) : ∃ r : ℝ, deg I n = (r : EReal) ∧ 0 ≤ r :=
  ⟨_, deg_eq I n, Finset.sum_nonneg fun e _ => by split_ifs <;> norm_num⟩

theorem dinv_isReal (hI : Finite I) (n : Fin 10000) : IsReal (dinv I n) := by
  unfold dinv
  split_ifs with h
  · rw [deg_eq] at h ⊢
    exact hI.rs _ (EReal.coe_pos.mp h)
  · exact IsReal.zero

theorem norm_isReal (hI : Finite I) (e : Fin 650000) : IsReal (norm I e) :=
  (dinv_isReal I hI _).mul (dinv_isReal I hI _)

theorem h1_isReal (hI : Finite I) (n : Fin 10000) (k : Fin 128) : IsReal (h1 I n k) :=
  IsReal.sum _ _ fun j => IsReal.mul (hI.x n j) (hI.W1 j k)

theorem agg1_isReal (hI : Finite I) (d : Fin 10000) (k : Fin 128) : IsReal (agg1 I d k) :=
  IsReal.sum _ _ fun e => IsReal.ite ((h1_isReal I hI _ k).mul (norm_isReal I hI e)) IsReal.zero

theorem l1_isReal (hI : Finite I) (d : Fin 10000) (k : Fin 128) : IsReal (l1 I d k) :=
  IsReal.max ((agg1_isReal I hI d k).add (hI.b1 k)) IsReal.zero

theorem h2_isReal (hI : Finite I) (n : Fin 10000) (c : Fin 64) : IsReal (h2 I n c) :=
  IsReal.sum _ _ fun k => IsReal.mul (l1_isReal I hI n k) (hI.W2 k c)

theorem agg2_isReal (hI : Finite I) (d : Fin 10000) (c : Fin 64) : IsReal (agg2 I d c) :=
  IsReal.sum _ _ fun e => IsReal.ite ((h2_isReal I hI _ c).mul (norm_isReal I hI e)) IsReal.zero

theorem out_isReal (hI : Finite I) (d : Fin 10000) (c : Fin 64) : IsReal (out I d c) :=
  (agg2_isReal I hI d c).add (hI.b2 c)

theorem A_isReal (hI : Finite I) (r s : Fin 10240) : IsReal (A I r s) :=
  IsReal.sum _ _ fun e => IsReal.ite (norm_isReal I hI e) IsReal.zero

theorem xpad_isReal (hI : Finite I) (r : Fin 10240) (j : Fin 256) : IsReal (xpad I r j) :=
  IsReal.dite (fun _ => hI.x _ j) (fun _ => IsReal.zero)

theorem h1p_isReal (hI : Finite I) (r : Fin 10240) (k : Fin 128) : IsReal (h1p I r k) :=
  IsReal.sum _ _ fun j => IsReal.mul (xpad_isReal I hI r j) (hI.W1 j k)

theorem l1p_isReal (hI : Finite I) (r : Fin 10240) (k : Fin 128) : IsReal (l1p I r k) :=
  IsReal.ite (IsReal.max ((IsReal.sum _ _ fun s => (A_isReal I hI r s).mul (h1p_isReal I hI s k)).add (hI.b1 k))
    IsReal.zero) IsReal.zero

theorem W2p_isReal (hI : Finite I) (k : Fin 128) (c : Fin 128) : IsReal (W2p I k c) :=
  IsReal.dite (fun _ => hI.W2 k _) (fun _ => IsReal.zero)

theorem b2p_isReal (hI : Finite I) (c : Fin 128) : IsReal (b2p I c) :=
  IsReal.dite (fun _ => hI.b2 _) (fun _ => IsReal.zero)

theorem h2p_isReal (hI : Finite I) (r : Fin 10240) (c : Fin 128) : IsReal (h2p I r c) :=
  IsReal.sum _ _ fun k => IsReal.mul (l1p_isReal I hI r k) (W2p_isReal I hI k c)

theorem outp_isReal (hI : Finite I) (r : Fin 10240) (c : Fin 128) : IsReal (outp I r c) :=
  IsReal.ite ((IsReal.sum _ _ fun s => (A_isReal I hI r s).mul (h2p_isReal I hI s c)).add (b2p_isReal I hI c))
    IsReal.zero

/-! The same facts, spelled with their witnesses. -/

theorem dinv_real (hI : Finite I) : ∀ n, ∃ r : ℝ, dinv I n = (r : EReal) := dinv_isReal I hI
theorem norm_real (hI : Finite I) : ∀ e, ∃ r : ℝ, norm I e = (r : EReal) := norm_isReal I hI
theorem A_real (hI : Finite I) : ∀ r s, ∃ q : ℝ, A I r s = (q : EReal) := A_isReal I hI
theorem h1_real (hI : Finite I) : ∀ n k, ∃ q : ℝ, h1 I n k = (q : EReal) := h1_isReal I hI
theorem agg1_real (hI : Finite I) : ∀ d k, ∃ q : ℝ, agg1 I d k = (q : EReal) := agg1_isReal I hI
theorem l1_real (hI : Finite I) : ∀ d k, ∃ q : ℝ, l1 I d k = (q : EReal) := l1_isReal I hI
theorem h2_real (hI : Finite I) : ∀ n c, ∃ q : ℝ, h2 I n c = (q : EReal) := h2_isReal I hI
theorem agg2_real (hI : Finite I) : ∀ d c, ∃ q : ℝ, agg2 I d c = (q : EReal) := agg2_isReal I hI
theorem out_real (hI : Finite I) : ∀ d c, ∃ q : ℝ, out I d c = (q : EReal) := out_isReal I hI
theorem xpad_real (hI : Finite I) : ∀ r j, ∃ q : ℝ, xpad I r j = (q : EReal) := xpad_isReal I hI
theorem h1p_real (hI : Finite I) : ∀ r k, ∃ q : ℝ, h1p I r k = (q : EReal) := h1p_isReal I hI
theorem l1p_real (hI : Finite I) : ∀ r k, ∃ q : ℝ, l1p I r k = (q : EReal) := l1p_isReal I hI
theorem W2p_real (hI : Finite I) : ∀ k c, ∃ q : ℝ, W2p I k c = (q : EReal) := W2p_isReal I hI
theorem b2p_real (hI : Finite I) : ∀ c, ∃ q : ℝ, b2p I c = (q : EReal) := b2p_isReal I hI
theorem h2p_real (hI : Finite I) : ∀ r c, ∃ q : ℝ, h2p I r c = (q : EReal) := h2p_isReal I hI
theorem outp_real (hI : Finite I) : ∀ r c, ∃ q : ℝ, outp I r c = (q : EReal) := outp_isReal I hI

/-! ## The padded quantities on and past the node range -/

/-- A node as a padded row or column. -/
def up (n : Fin 10000) : Fin 10240 := ⟨n.val, by omega⟩
/-- An output column as a padded column. -/
def upc (c : Fin 64) : Fin 128 := ⟨c.val, by omega⟩

theorem xpad_up (n : Fin 10000) (j : Fin 256) : xpad I (up n) j = I.x n j := by
  unfold xpad
  rw [dif_pos (show (up n).val < 10000 from n.isLt)]
  rfl

theorem xpad_hi (r : Fin 10240) (h : ¬ r.val < 10000) (j : Fin 256) : xpad I r j = 0 := by
  unfold xpad
  rw [dif_neg h]

theorem h1p_up (n : Fin 10000) (k : Fin 128) : h1p I (up n) k = h1 I n k := by
  unfold h1p h1
  exact Finset.sum_congr rfl fun j _ => by rw [xpad_up]

theorem h1p_hi (r : Fin 10240) (h : ¬ r.val < 10000) (k : Fin 128) : h1p I r k = 0 := by
  unfold h1p
  exact Finset.sum_eq_zero fun j _ => by rw [xpad_hi I r h, zero_mul]

theorem W2p_up (k : Fin 128) (c : Fin 64) : W2p I k (upc c) = I.W2 k c := by
  unfold W2p
  rw [dif_pos (show (upc c).val < 64 from c.isLt)]
  rfl

theorem W2p_hi (k : Fin 128) (c : Fin 128) (h : ¬ c.val < 64) : W2p I k c = 0 := by
  unfold W2p
  rw [dif_neg h]

theorem b2p_up (c : Fin 64) : b2p I (upc c) = I.b2 c := by
  unfold b2p
  rw [dif_pos (show (upc c).val < 64 from c.isLt)]
  rfl

theorem b2p_hi (c : Fin 128) (h : ¬ c.val < 64) : b2p I c = 0 := by
  unfold b2p
  rw [dif_neg h]

/-- A row of the dense matrix against a padded real column: the sum over the entries arriving at the row's node. -/
theorem A_row_sum (hI : Finite I) (g : Fin 10000 → EReal) (gp : Fin 10240 → EReal)
    (hgp : ∀ s : Fin 10000, gp (up s) = g s) (hgpR : ∀ s, IsReal (gp s)) (d : Fin 10000) :
    ∑ s : Fin 10240, A I (up d) s * gp s = ∑ e : Fin 650000, if I.dst e = d then g (I.src e) * norm I e else 0 := by
  have key := ereal_key (fun e => I.dst e = d) (fun e => up (I.src e)) (norm I) gp (norm_isReal I hI) hgpR
  simp only [hgp] at key
  rw [← key]
  refine Finset.sum_congr rfl fun s _ => ?_
  refine congrArg (fun t => t * gp s) ?_
  unfold A
  refine Finset.sum_congr rfl fun e _ => ?_
  refine if_congr ?_ rfl rfl
  constructor
  · rintro ⟨h1, h2⟩
    exact ⟨Fin.ext h1, Fin.ext h2⟩
  · rintro ⟨h1, h2⟩
    exact ⟨congrArg Fin.val h1, congrArg Fin.val h2⟩

/-! ## The two layers -/

theorem dense_agg1 (hI : Finite I) (d : Fin 10000) (k : Fin 128) :
    ∑ s : Fin 10240, A I (up d) s * h1p I s k = agg1 I d k :=
  A_row_sum I hI (fun s => h1 I s k) (fun s => h1p I s k) (fun s => h1p_up I s k) (fun s => h1p_isReal I hI s k) d

theorem l1p_up (hI : Finite I) (d : Fin 10000) (k : Fin 128) : l1p I (up d) k = l1 I d k := by
  unfold l1p l1
  rw [if_pos (show (up d).val < 10000 from d.isLt), dense_agg1 I hI]

theorem l1p_hi (r : Fin 10240) (h : ¬ r.val < 10000) (k : Fin 128) : l1p I r k = 0 := by
  unfold l1p
  rw [if_neg h]

theorem h2p_up (hI : Finite I) (d : Fin 10000) (c : Fin 64) : h2p I (up d) (upc c) = h2 I d c := by
  unfold h2p h2
  exact Finset.sum_congr rfl fun k _ => by rw [l1p_up I hI, W2p_up]

theorem h2p_hi (r : Fin 10240) (h : ¬ r.val < 10000) (c : Fin 128) : h2p I r c = 0 := by
  unfold h2p
  exact Finset.sum_eq_zero fun k _ => by rw [l1p_hi I r h, zero_mul]

theorem dense_agg2 (hI : Finite I) (d : Fin 10000) (c : Fin 64) :
    ∑ s : Fin 10240, A I (up d) s * h2p I s (upc c) = agg2 I d c :=
  A_row_sum I hI (fun s => h2 I s c) (fun s => h2p I s (upc c)) (fun s => h2p_up I hI s c)
    (fun s => h2p_isReal I hI s (upc c)) d

theorem outp_up (hI : Finite I) (d : Fin 10000) (c : Fin 64) : outp I (up d) (upc c) = out I d c := by
  unfold outp out
  rw [if_pos (show (up d).val < 10000 from d.isLt), dense_agg2 I hI, b2p_up]

theorem outp_hi (r : Fin 10240) (h : ¬ r.val < 10000) (c : Fin 128) : outp I r c = 0 := by
  unfold outp
  rw [if_neg h]

/-- The two arrangements agree on real inputs. -/
theorem out_eq_outK (hI : Finite I) : out I = outK I := by
  funext d c
  exact (outp_up I hI d c).symm

end Cert.Gcn

end
-- ==== Proof.HostDefs.lean ====
/-
  The host side of the dense arrangement, as functions of the arrays the program is launched on.

  From the 2 x 640000 array of edge ends: the two lists of 650000 ends (a row of the array followed by 0, 1, …, 9999,
  the self loops); the degree (ones summed into zeros at the destinations); the coefficient (the reciprocal square root
  of a positive degree, zero elsewhere); an end list with negative entries moved up by the extent; an entry's weight
  (the coefficient gathered at its two ends, multiplied); the dense matrix (the weights summed into zeros at the pairs
  destination, source). From the features, the second weight matrix and the second bias: the arrays padded with the
  float of the integer zero. Each definition is the composition of operations the program applies, nothing evaluated.
-/
import proofs.«133914_j16801912062630_2_alg».proof.Proof.Gen.KernelIdeal
import Idealize.ShloMosaic.Lib.ValueIdx

noncomputable section

namespace Cert.KernelIdeal.HostValue

open Cert.KernelIdeal Cert.KernelIdeal.Gen Idealize.ShloMosaic Idealize.SL.Sem

variable {F : FTy → Type} [FloatOps F]

/-! ## The two end lists -/

/-- The sources: row 0 of the edge array, then the nodes in order. -/
def srcOf (ei : (⟨S2x640000, .i32⟩ : BufTy).Contents (Elt F)) : (⟨S650000, .i32⟩ : BufTy).Contents (Elt F) :=
  concatenate S650000 0
    [⟨S640000, shapeCast S640000 (extractStridedSlice S1x640000 ![0, 0] ei slices_S2x640000_S1x640000_0_0) shapeCasts_S1x640000_S640000⟩,
     ⟨S10000, iotaInDim S10000 32 0⟩] concatenates_S640000_S10000_S650000_d0

/-- The destinations: row 1 of the edge array, then the nodes in order. -/
def dstOf (ei : (⟨S2x640000, .i32⟩ : BufTy).Contents (Elt F)) : (⟨S650000, .i32⟩ : BufTy).Contents (Elt F) :=
  concatenate S650000 0
    [⟨S640000, shapeCast S640000 (extractStridedSlice S1x640000 ![1, 0] ei slices_S2x640000_S1x640000_1_0) shapeCasts_S1x640000_S640000⟩,
     ⟨S10000, iotaInDim S10000 32 0⟩] concatenates_S640000_S10000_S650000_d0

/-- An end list as an index column. -/
def colOf (v : (⟨S650000, .i32⟩ : BufTy).Contents (Elt F)) : (⟨S650000x1, .i32⟩ : BufTy).Contents (Elt F) :=
  broadcastInDim S650000x1 ![0] bcast_S650000_S650000x1_0 v

/-- An end list with its negative entries moved up by `n`. -/
def wrapOf (n : BitVec 32) (v : (⟨S650000, .i32⟩ : BufTy).Contents (Elt F)) : (⟨S650000, .i32⟩ : BufTy).Contents (Elt F) :=
  select (cmpi .slt v (broadcastInDim S650000 ![] bcast_S_S650000 (constantI S_ 32 0#32)))
    (addi v (broadcastInDim S650000 ![] bcast_S_S650000 (constantI S_ 32 n))) v

/-! ## Degree, coefficient, weight, dense matrix -/

/-- The degree: ones summed into zeros at the destinations. -/
def degOf (dst : (⟨S650000, .i32⟩ : BufTy).Contents (Elt F)) : (⟨S10000, .f32⟩ : BufTy).Contents (Elt F) :=
  Host.scatterAdd scatter_S10000_S650000x1_S650000_n_0_0_1
    (broadcastInDim S10000 ![] bcast_S_S10000 (constant S_ .f32 0x00000000#32))
    (colOf dst)
    (broadcastInDim S650000 ![] bcast_S_S650000 (constant S_ .f32 0x3F800000#32))

/-- Whether the degree is positive. -/
def posOf (deg : (⟨S10000, .f32⟩ : BufTy).Contents (Elt F)) : (⟨S10000, .i1⟩ : BufTy).Contents (Elt F) :=
  cmpf .ogt deg (broadcastInDim S10000 ![] bcast_S_S10000 (constant S_ .f32 0x00000000#32))

/-- The coefficient: the reciprocal square root of the degree where that is positive, zero elsewhere. -/
def dinvOf (deg : (⟨S10000, .f32⟩ : BufTy).Contents (Elt F)) : (⟨S10000, .f32⟩ : BufTy).Contents (Elt F) :=
  select (posOf deg) (Host.rsqrt deg) (broadcastInDim S10000 ![] bcast_S_S10000 (id (constant S_ .f32 0x00000000#32)))

/-- An entry's weight: the coefficient at its source times the coefficient at its destination. -/
def normOf (src dst : (⟨S650000, .i32⟩ : BufTy).Contents (Elt F)) (dinv : (⟨S10000, .f32⟩ : BufTy).Contents (Elt F)) :
    (⟨S650000, .f32⟩ : BufTy).Contents (Elt F) :=
  mulf (Host.gather gather_S10000_S650000x1_S650000_n_0_n_n_0_1_1 dinv (colOf (wrapOf 10000#32 src)))
    (Host.gather gather_S10000_S650000x1_S650000_n_0_n_n_0_1_1 dinv (colOf (wrapOf 10000#32 dst)))

/-- The index pairs (destination, source). -/
def pairsOf (src dst : (⟨S650000, .i32⟩ : BufTy).Contents (Elt F)) : (⟨S650000x2, .i32⟩ : BufTy).Contents (Elt F) :=
  concatenate S650000x2 1 [⟨S650000x1, colOf (wrapOf 10240#32 dst)⟩, ⟨S650000x1, colOf (wrapOf 10240#32 src)⟩]
    concatenates_S650000x1_S650000x1_S650000x2_d1

/-- The dense matrix: the weights summed into zeros at the pairs. -/
def denseOf (src dst : (⟨S650000, .i32⟩ : BufTy).Contents (Elt F)) (nrm : (⟨S650000, .f32⟩ : BufTy).Contents (Elt F)) :
    (⟨S10240x10240, .f32⟩ : BufTy).Contents (Elt F) :=
  Host.scatterAdd scatter_S10240x10240_S650000x2_S650000_n_01_01_1
    (broadcastInDim S10240x10240 ![] bcast_S_S10240x10240 (constant S_ .f32 0x00000000#32))
    (pairsOf src dst) nrm

/-- The coefficient, from the edge array. -/
def dinvK (ei : (⟨S2x640000, .i32⟩ : BufTy).Contents (Elt F)) : (⟨S10000, .f32⟩ : BufTy).Contents (Elt F) :=
  dinvOf (degOf (dstOf ei))

/-- The weights, from the edge array. -/
def normK (ei : (⟨S2x640000, .i32⟩ : BufTy).Contents (Elt F)) : (⟨S650000, .f32⟩ : BufTy).Contents (Elt F) :=
  normOf (srcOf ei) (dstOf ei) (dinvK ei)

/-- The dense matrix, from the edge array. -/
def denseK (ei : (⟨S2x640000, .i32⟩ : BufTy).Contents (Elt F)) : (⟨S10240x10240, .f32⟩ : BufTy).Contents (Elt F) :=
  denseOf (srcOf ei) (dstOf ei) (normK ei)

/-! ## The padded arrays -/

/-- The padding value: the float of the integer zero. -/
def padValue : (⟨S_, .f32⟩ : BufTy).Contents (Elt F) := sitofp .f32 (constantI S_ 32 0#32)

/-- The features with 240 rows of padding below. -/
def xpadOf (x : (⟨S10000x256, .f32⟩ : BufTy).Contents (Elt F)) : (⟨S10240x256, .f32⟩ : BufTy).Contents (Elt F) :=
  pad S10240x256 ![0, 0] ![240, 0] ![0, 0] x (padValue (F := F)) pads_S10000x256_S10240x256_02400_000 h_S_

/-- The second weight matrix with 64 columns of padding to the right. -/
def w2padOf (w : (⟨S128x64, .f32⟩ : BufTy).Contents (Elt F)) : (⟨S128x128, .f32⟩ : BufTy).Contents (Elt F) :=
  pad S128x128 ![0, 0] ![0, 64] ![0, 0] w (padValue (F := F)) pads_S128x64_S128x128_000_0640 h_S_

/-- The second bias with 64 entries of padding behind, as one row. -/
def b2padOf (b : (⟨S64, .f32⟩ : BufTy).Contents (Elt F)) : (⟨S1x128, .f32⟩ : BufTy).Contents (Elt F) :=
  shapeCast S1x128 (pad S128 ![0] ![64] ![0] b (padValue (F := F)) pads_S64_S128_0640 h_S_) shapeCasts_S128_S1x128

/-- The first bias as one row. -/
def b1rowOf (b : (⟨S128, .f32⟩ : BufTy).Contents (Elt F)) : (⟨S1x128, .f32⟩ : BufTy).Contents (Elt F) :=
  shapeCast S1x128 b shapeCasts_S128_S1x128

end Cert.KernelIdeal.HostValue

end
-- ==== Proof.HostOpen.lean ====
/-
  What the program's buffers hold when the first kernel region is entered, and what its last operation leaves: each
  buffer the kernel regions read is the host-side function of the launch arrays that HostDefs names, and the result is
  the leading 10000 x 64 corner of what the last region leaves. Each equation walks the program's stretches of host
  operations in order; a buffer a stretch does not write is what it was.
-/
import proofs.«133914_j16801912062630_2_alg».proof.Proof.Gen.KernelIdeal.Regions
import proofs.«133914_j16801912062630_2_alg».proof.Proof.HostDefs

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ## The launch arrays -/

/-- The features at launch. -/
abbrev xArr : (⟨S10000x256, .f32⟩ : BufTy).Contents (Elt F) := V0 m c main_arg0
/-- The edge array at launch. -/
abbrev eiArr : (⟨S2x640000, .i32⟩ : BufTy).Contents (Elt F) := V0 m c main_arg1
/-- The first weight matrix at launch. -/
abbrev w1Arr : (⟨S256x128, .f32⟩ : BufTy).Contents (Elt F) := V0 m c main_arg2
/-- The first bias at launch. -/
abbrev b1Arr : (⟨S128, .f32⟩ : BufTy).Contents (Elt F) := V0 m c main_arg3
/-- The second weight matrix at launch. -/
abbrev w2Arr : (⟨S128x64, .f32⟩ : BufTy).Contents (Elt F) := V0 m c main_arg4
/-- The second bias at launch. -/
abbrev b2Arr : (⟨S64, .f32⟩ : BufTy).Contents (Elt F) := V0 m c main_arg5

/-! ## The first stretch: the end lists, the degree -/

theorem V1_v5 : (V1 m c main_v5 : (⟨S650000, .i32⟩ : BufTy).Contents (Elt F)) = srcOf (eiArr m c) := by
  show StableHlo.after hostOps0 (V0 m c) (Proc.devRef .tc main_v5) = _
  after_results
  rfl

theorem V1_v6 : (V1 m c main_v6 : (⟨S650000, .i32⟩ : BufTy).Contents (Elt F)) = dstOf (eiArr m c) := by
  show StableHlo.after hostOps0 (V0 m c) (Proc.devRef .tc main_v6) = _
  after_results
  rfl

theorem V1_v12 : (V1 m c main_v12 : (⟨S10000, .i1⟩ : BufTy).Contents (Elt F)) = posOf (degOf (dstOf (eiArr m c))) := by
  show StableHlo.after hostOps0 (V0 m c) (Proc.devRef .tc main_v12) = _
  after_results
  rfl

theorem V1_v13 : (V1 m c main_v13 : (⟨S10000, .f32⟩ : BufTy).Contents (Elt F)) = Host.rsqrt (degOf (dstOf (eiArr m c))) := by
  show StableHlo.after hostOps0 (V0 m c) (Proc.devRef .tc main_v13) = _
  after_results
  rfl

theorem V1_cst_2 : (V1 m c main_cst_2 : (⟨S_, .f32⟩ : BufTy).Contents (Elt F)) = constant S_ .f32 0x00000000#32 := by
  show StableHlo.after hostOps0 (V0 m c) (Proc.devRef .tc main_cst_2) = _
  after_results

/-! ## The second stretch: the coefficient -/

theorem V2_v14 : (V2 m c main_v14 : (⟨S10000, .f32⟩ : BufTy).Contents (Elt F)) = dinvK (eiArr m c) := by
  have e : (V2 m c main_v14 : (⟨S10000, .f32⟩ : BufTy).Contents (Elt F))
      = select (V1 m c main_v12) (V1 m c main_v13) (broadcastInDim S10000 ![] bcast_S_S10000 (id (V1 m c main_cst_2))) := by
    show StableHlo.after hostOps0_1 (V1 m c) (Proc.devRef .tc main_v14) = _
    generalize V1 m c = W
    after_results
    rfl
  rw [e, V1_v12, V1_v13, V1_cst_2]
  rfl

theorem V2_v5 : (V2 m c main_v5 : (⟨S650000, .i32⟩ : BufTy).Contents (Elt F)) = srcOf (eiArr m c) :=
  (V2_of m c main_v5 (by decide)).trans (V1_v5 m c)

theorem V2_v6 : (V2 m c main_v6 : (⟨S650000, .i32⟩ : BufTy).Contents (Elt F)) = dstOf (eiArr m c) :=
  (V2_of m c main_v6 (by decide)).trans (V1_v6 m c)

/-! ## The third stretch: the weights, the dense matrix -/

theorem V3_v44 : (V3 m c main_v44 : (⟨S10240x10240, .f32⟩ : BufTy).Contents (Elt F)) = denseK (eiArr m c) := by
  have e : (V3 m c main_v44 : (⟨S10240x10240, .f32⟩ : BufTy).Contents (Elt F))
      = denseOf (V2 m c main_v5) (V2 m c main_v6) (normOf (V2 m c main_v5) (V2 m c main_v6) (V2 m c main_v14)) := by
    show StableHlo.after hostOps0_2 (V2 m c) (Proc.devRef .tc main_v44) = _
    generalize V2 m c = W
    after_results_simp
    rfl
  rw [e, V2_v5, V2_v6, V2_v14]
  rfl

theorem V3_c_11 : (V3 m c main_c_11 : (⟨S_, .i32⟩ : BufTy).Contents (Elt F)) = constantI S_ 32 0#32 := by
  show StableHlo.after hostOps0_2 (V2 m c) (Proc.devRef .tc main_c_11) = _
  generalize V2 m c = W
  after_results_simp

/-- The dense matrix when the first region is entered. -/
theorem V9_v44 : (V9 m c main_v44 : (⟨S10240x10240, .f32⟩ : BufTy).Contents (Elt F)) = denseK (eiArr m c) :=
  (V9_of m c main_v44 (by decide)).trans <| (V8_of m c main_v44 (by decide)).trans <| (V7_of m c main_v44 (by decide)).trans <|
    (V6_of m c main_v44 (by decide)).trans <| (V5_of m c main_v44 (by decide)).trans <| (V4_of m c main_v44 (by decide)).trans (V3_v44 m c)

/-! ## The padded features -/

theorem V3_arg0 : V3 m c main_arg0 = V0 m c main_arg0 :=
  (V3_of m c main_arg0 (by decide)).trans <| (V2_of m c main_arg0 (by decide)).trans (V1_of m c main_arg0 (by decide))

theorem V4_v45 : (V4 m c main_v45 : (⟨S10240x256, .f32⟩ : BufTy).Contents (Elt F)) = xpadOf (xArr m c) := by
  have e : (V4 m c main_v45 : (⟨S10240x256, .f32⟩ : BufTy).Contents (Elt F))
      = pad S10240x256 ![0, 0] ![240, 0] ![0, 0] (V3 m c main_arg0) (sitofp .f32 (V3 m c main_c_11) : (⟨S_, .f32⟩ : BufTy).Contents (Elt F))
          pads_S10000x256_S10240x256_02400_000 h_S_ := by
    show StableHlo.after hostOps0_3 (V3 m c) (Proc.devRef .tc main_v45) = _
    generalize V3 m c = W
    after_results
    rfl
  rw [e, V3_c_11, V3_arg0]
  rfl

/-- The padded features when the first region is entered. -/
theorem V9_v45 : (V9 m c main_v45 : (⟨S10240x256, .f32⟩ : BufTy).Contents (Elt F)) = xpadOf (xArr m c) :=
  (V9_of m c main_v45 (by decide)).trans <| (V8_of m c main_v45 (by decide)).trans <| (V7_of m c main_v45 (by decide)).trans <|
    (V6_of m c main_v45 (by decide)).trans <| (V5_of m c main_v45 (by decide)).trans (V4_v45 m c)

/-! ## The first bias as a row -/

theorem V4_arg3 : V4 m c main_arg3 = V0 m c main_arg3 :=
  (V4_of m c main_arg3 (by decide)).trans <| (V3_of m c main_arg3 (by decide)).trans <| (V2_of m c main_arg3 (by decide)).trans
    (V1_of m c main_arg3 (by decide))

theorem V5_v46 : (V5 m c main_v46 : (⟨S1x128, .f32⟩ : BufTy).Contents (Elt F)) = b1rowOf (b1Arr m c) := by
  have e : (V5 m c main_v46 : (⟨S1x128, .f32⟩ : BufTy).Contents (Elt F)) = b1rowOf (V4 m c main_arg3) := by
    show StableHlo.after hostOps0_4 (V4 m c) (Proc.devRef .tc main_v46) = _
    generalize V4 m c = W
    after_results
    rfl
  rw [e, V4_arg3]

theorem V5_c_12 : (V5 m c main_c_12 : (⟨S_, .i32⟩ : BufTy).Contents (Elt F)) = constantI S_ 32 0#32 := by
  show StableHlo.after hostOps0_4 (V4 m c) (Proc.devRef .tc main_c_12) = _
  generalize V4 m c = W
  after_results

/-- The first bias as a row when the first region is entered. -/
theorem V9_v46 : (V9 m c main_v46 : (⟨S1x128, .f32⟩ : BufTy).Contents (Elt F)) = b1rowOf (b1Arr m c) :=
  (V9_of m c main_v46 (by decide)).trans <| (V8_of m c main_v46 (by decide)).trans <| (V7_of m c main_v46 (by decide)).trans <|
    (V6_of m c main_v46 (by decide)).trans (V5_v46 m c)

/-! ## The padded second weight matrix -/

theorem V5_arg4 : V5 m c main_arg4 = V0 m c main_arg4 :=
  (V5_of m c main_arg4 (by decide)).trans <| (V4_of m c main_arg4 (by decide)).trans <| (V3_of m c main_arg4 (by decide)).trans <|
    (V2_of m c main_arg4 (by decide)).trans (V1_of m c main_arg4 (by decide))

theorem V6_v47 : (V6 m c main_v47 : (⟨S128x128, .f32⟩ : BufTy).Contents (Elt F)) = w2padOf (w2Arr m c) := by
  have e : (V6 m c main_v47 : (⟨S128x128, .f32⟩ : BufTy).Contents (Elt F))
      = pad S128x128 ![0, 0] ![0, 64] ![0, 0] (V5 m c main_arg4) (sitofp .f32 (V5 m c main_c_12) : (⟨S_, .f32⟩ : BufTy).Contents (Elt F))
          pads_S128x64_S128x128_000_0640 h_S_ := by
    show StableHlo.after hostOps0_5 (V5 m c) (Proc.devRef .tc main_v47) = _
    generalize V5 m c = W
    after_results
    rfl
  rw [e, V5_c_12, V5_arg4]
  rfl

/-- The padded second weight matrix when the first region is entered. -/
theorem V9_v47 : (V9 m c main_v47 : (⟨S128x128, .f32⟩ : BufTy).Contents (Elt F)) = w2padOf (w2Arr m c) :=
  (V9_of m c main_v47 (by decide)).trans <| (V8_of m c main_v47 (by decide)).trans <| (V7_of m c main_v47 (by decide)).trans (V6_v47 m c)

/-! ## The padded second bias as a row -/

theorem V7_c_13 : (V7 m c main_c_13 : (⟨S_, .i32⟩ : BufTy).Contents (Elt F)) = constantI S_ 32 0#32 := by
  show StableHlo.after hostOps0_6 (V6 m c) (Proc.devRef .tc main_c_13) = _
  generalize V6 m c = W
  after_results

theorem V7_arg5 : V7 m c main_arg5 = V0 m c main_arg5 :=
  (V7_of m c main_arg5 (by decide)).trans <| (V6_of m c main_arg5 (by decide)).trans <| (V5_of m c main_arg5 (by decide)).trans <|
    (V4_of m c main_arg5 (by decide)).trans <| (V3_of m c main_arg5 (by decide)).trans <| (V2_of m c main_arg5 (by decide)).trans
      (V1_of m c main_arg5 (by decide))

theorem V8_v48 : (V8 m c main_v48 : (⟨S128, .f32⟩ : BufTy).Contents (Elt F))
    = pad S128 ![0] ![64] ![0] (b2Arr m c) (padValue (F := F)) pads_S64_S128_0640 h_S_ := by
  have e : (V8 m c main_v48 : (⟨S128, .f32⟩ : BufTy).Contents (Elt F))
      = pad S128 ![0] ![64] ![0] (V7 m c main_arg5) (sitofp .f32 (V7 m c main_c_13) : (⟨S_, .f32⟩ : BufTy).Contents (Elt F))
          pads_S64_S128_0640 h_S_ := by
    show StableHlo.after hostOps0_7 (V7 m c) (Proc.devRef .tc main_v48) = _
    generalize V7 m c = W
    after_results
    rfl
  rw [e, V7_c_13, V7_arg5]
  rfl

/-- The padded second bias as a row when the first region is entered. -/
theorem V9_v49 : (V9 m c main_v49 : (⟨S1x128, .f32⟩ : BufTy).Contents (Elt F)) = b2padOf (b2Arr m c) := by
  have e : (V9 m c main_v49 : (⟨S1x128, .f32⟩ : BufTy).Contents (Elt F)) = shapeCast S1x128 (V8 m c main_v48) shapeCasts_S128_S1x128 := by
    show StableHlo.after hostOps0_8 (V8 m c) (Proc.devRef .tc main_v49) = _
    generalize V8 m c = W
    after_results
    rfl
  rw [e, V8_v48]
  rfl

/-! ## The first weight matrix -/

/-- The first weight matrix when the first region is entered is the launch array. -/
theorem V9_arg2 : V9 m c main_arg2 = V0 m c main_arg2 :=
  (V9_of m c main_arg2 (by decide)).trans <| (V8_of m c main_arg2 (by decide)).trans <| (V7_of m c main_arg2 (by decide)).trans <|
    (V6_of m c main_arg2 (by decide)).trans <| (V5_of m c main_arg2 (by decide)).trans <| (V4_of m c main_arg2 (by decide)).trans <|
      (V3_of m c main_arg2 (by decide)).trans <| (V2_of m c main_arg2 (by decide)).trans (V1_of m c main_arg2 (by decide))

/-! ## The result -/

variable (outs : Outs (F := F))

/-- The result is the slice of what the last region leaves. -/
theorem V14_v54 : (V14 m outs c main_v54 : (⟨S10000x64, .f32⟩ : BufTy).Contents (Elt F))
    = extractStridedSlice S10000x64 ![0, 0] (outs 13 main_v53 c : (⟨S10240x128, .f32⟩ : BufTy).Contents (Elt F)) slices_S10240x128_S10000x64_0_0 := by
  have e13 : V13 m outs c main_v53 = outs 13 main_v53 c := Function.update_self _ _ _
  show StableHlo.after hostOps4 (V13 m outs c) (Proc.devRef .tc main_v54) = _
  rw [← e13]
  generalize V13 m outs c = W
  after_results

end Cert.KernelIdeal.HostValue

end
-- ==== Proof.HostEdges.lean ====
/-
  The two end lists read at an entry, and what the range condition makes of them.

  Entry `e` of an end list is the edge array's entry `e` of the list's row while `e < 640000`, and the node
  `e - 640000` from there on (the self loops). When every entry of the edge array, read as a natural number, is below
  10000, every end is a word whose signed value is a node number, nonnegative and below 10000; moving the negative
  entries up by an extent then changes nothing.
-/
import proofs.«133914_j16801912062630_2_alg».proof.Proof.HostDefs
import Idealize.ShloMosaic.Lib.Pipeline.Value
import Idealize.ShloMosaic.Lib.IdealHost

noncomputable section

namespace Cert.KernelIdeal.HostValue

open Cert.KernelIdeal Cert.KernelIdeal.Gen Idealize.ShloMosaic Idealize.SL.Sem Idealize.ShloMosaic.ValueIdx

variable {F : FTy → Type} [FloatOps F]

/-! ## An end list at an entry -/

/-- A given edge's source is row 0 of the edge array at that edge. -/
theorem srcOf_edge (ei : (⟨S2x640000, .i32⟩ : BufTy).Contents (Elt F)) (e : Fin 650000) (h : e.val < 640000) :
    srcOf (F := F) ei (ix1 e) = ei (ix2 (0 : Fin 2) (⟨e.val, h⟩ : Fin 640000)) := by
  unfold srcOf
  refine (concatenate_pair_apply_left (t := S650000) (s₁ := S640000) (s₂ := S10000) (0 : Fin 1) _ _ concatenates_S640000_S10000_S650000_d0 (ix1 e) rfl
    (ix1 (⟨e.val, h⟩ : Fin 640000)) (fun b => by obtain rfl : b = 0 := Subsingleton.elim _ _; rfl)).trans ?_
  refine (shapeCast_apply (s := S1x640000) (t := S640000) _ shapeCasts_S1x640000_S640000 (ix1 (⟨e.val, h⟩ : Fin 640000))
    (ix2 (0 : Fin 1) (⟨e.val, h⟩ : Fin 640000))
    (by rewrite [Shape.rowMajor_val_two, Shape.rowMajor_val_one]; show 0 * 640000 + e.val = e.val; omega)).trans ?_
  exact extractStridedSlice_apply ![0, 0] ei slices_S2x640000_S1x640000_0_0 _ (ix2 (0 : Fin 2) (⟨e.val, h⟩ : Fin 640000))
    (fun a => match a with
      | ⟨0, _⟩ => by show 0 = 0 + 0; omega
      | ⟨1, _⟩ => by show e.val = 0 + e.val; omega)

/-- A given edge's destination is row 1 of the edge array at that edge. -/
theorem dstOf_edge (ei : (⟨S2x640000, .i32⟩ : BufTy).Contents (Elt F)) (e : Fin 650000) (h : e.val < 640000) :
    dstOf (F := F) ei (ix1 e) = ei (ix2 (1 : Fin 2) (⟨e.val, h⟩ : Fin 640000)) := by
  unfold dstOf
  refine (concatenate_pair_apply_left (t := S650000) (s₁ := S640000) (s₂ := S10000) (0 : Fin 1) _ _ concatenates_S640000_S10000_S650000_d0 (ix1 e) rfl
    (ix1 (⟨e.val, h⟩ : Fin 640000)) (fun b => by obtain rfl : b = 0 := Subsingleton.elim _ _; rfl)).trans ?_
  refine (shapeCast_apply (s := S1x640000) (t := S640000) _ shapeCasts_S1x640000_S640000 (ix1 (⟨e.val, h⟩ : Fin 640000))
    (ix2 (0 : Fin 1) (⟨e.val, h⟩ : Fin 640000))
    (by rewrite [Shape.rowMajor_val_two, Shape.rowMajor_val_one]; show 0 * 640000 + e.val = e.val; omega)).trans ?_
  exact extractStridedSlice_apply ![1, 0] ei slices_S2x640000_S1x640000_1_0 _ (ix2 (1 : Fin 2) (⟨e.val, h⟩ : Fin 640000))
    (fun a => match a with
      | ⟨0, _⟩ => by show 1 = 1 + 0; omega
      | ⟨1, _⟩ => by show e.val = 0 + e.val; omega)

/-- A self loop's source is its node, as a word. -/
theorem srcOf_loop (ei : (⟨S2x640000, .i32⟩ : BufTy).Contents (Elt F)) (e : Fin 650000) (h : 640000 ≤ e.val) :
    srcOf (F := F) ei (ix1 e) = BitVec.ofNat 32 (e.val - 640000) := by
  unfold srcOf
  exact concatenate_pair_apply_right (t := S650000) (s₁ := S640000) (s₂ := S10000) (0 : Fin 1) _ _ concatenates_S640000_S10000_S650000_d0 (ix1 e) rfl rfl
    (ix1 (⟨e.val - 640000, by have := e.isLt; omega⟩ : Fin 10000))
    (fun b hb => absurd (Subsingleton.elim _ _) hb)
    (by show e.val - 640000 + 640000 = e.val; omega)

/-- A self loop's destination is its node, as a word. -/
theorem dstOf_loop (ei : (⟨S2x640000, .i32⟩ : BufTy).Contents (Elt F)) (e : Fin 650000) (h : 640000 ≤ e.val) :
    dstOf (F := F) ei (ix1 e) = BitVec.ofNat 32 (e.val - 640000) := by
  unfold dstOf
  exact concatenate_pair_apply_right (t := S650000) (s₁ := S640000) (s₂ := S10000) (0 : Fin 1) _ _ concatenates_S640000_S10000_S650000_d0 (ix1 e) rfl rfl
    (ix1 (⟨e.val - 640000, by have := e.isLt; omega⟩ : Fin 10000))
    (fun b hb => absurd (Subsingleton.elim _ _) hb)
    (by show e.val - 640000 + 640000 = e.val; omega)

/-! ## Words that are node numbers -/

/-- A word below 10000 read signed is its natural value. -/
theorem toInt_of_lt (w : BitVec 32) (h : w.toNat < 10000) : w.toInt = (w.toNat : ℤ) := by
  rw [BitVec.toInt_eq_toNat_cond]
  split
  · rfl
  · omega

/-- A word that is a node number is not negative: moving the negative entries up leaves it. -/
theorem wrap_word (n w : BitVec 32) (h : w.toNat < 10000) :
    Scalar.select (IntOp.cmpi .slt w 0#32) (IntOp.addi w n) w = w := by
  have hs : BitVec.slt w 0#32 = false := by
    rw [BitVec.slt, toInt_of_lt w h]
    simp
  show Scalar.select (BitVec.ofBool (BitVec.slt w 0#32)) (IntOp.addi w n) w = w
  rw [hs]
  exact select_zero _ _

/-- An end list whose entries are node numbers is unchanged by moving its negative entries up. -/
theorem wrapOf_apply (n : BitVec 32) (v : (⟨S650000, .i32⟩ : BufTy).Contents (Elt F)) (e : Fin 650000)
    (h : (v (ix1 e)).toNat < 10000) : wrapOf (F := F) n v (ix1 e) = v (ix1 e) :=
  wrap_word n (v (ix1 e)) h

/-- The index column of an end list at an entry. -/
theorem colOf_apply (v : (⟨S650000, .i32⟩ : BufTy).Contents (Elt F)) (e : Fin 650000) :
    colOf (F := F) v (ix2 e (0 : Fin 1)) = v (ix1 e) := by
  unfold colOf
  exact broadcastInDim_apply ![0] bcast_S650000_S650000x1_0 v (ix2 e (0 : Fin 1)) (ix1 e)
    (fun a => by obtain rfl : a = 0 := Subsingleton.elim _ _; rfl)

/-- The index pairs: column 0 the destination, column 1 the source. -/
theorem pairsOf_apply0 (src dst : (⟨S650000, .i32⟩ : BufTy).Contents (Elt F)) (e : Fin 650000) :
    pairsOf (F := F) src dst (ix2 e (0 : Fin 2)) = wrapOf 10240#32 dst (ix1 e) := by
  unfold pairsOf
  refine (concatenate_pair_apply_left (t := S650000x2) (s₁ := S650000x1) (s₂ := S650000x1) (1 : Fin 2) _ _ concatenates_S650000x1_S650000x1_S650000x2_d1 (ix2 e (0 : Fin 2)) rfl
    (ix2 e (0 : Fin 1)) (fun b => match b with
      | ⟨0, _⟩ => rfl
      | ⟨1, _⟩ => rfl)).trans ?_
  exact colOf_apply _ e

theorem pairsOf_apply1 (src dst : (⟨S650000, .i32⟩ : BufTy).Contents (Elt F)) (e : Fin 650000) :
    pairsOf (F := F) src dst (ix2 e (1 : Fin 2)) = wrapOf 10240#32 src (ix1 e) := by
  unfold pairsOf
  refine (concatenate_pair_apply_right (t := S650000x2) (s₁ := S650000x1) (s₂ := S650000x1) (1 : Fin 2) _ _ concatenates_S650000x1_S650000x1_S650000x2_d1 (ix2 e (1 : Fin 2)) rfl rfl
    (ix2 e (0 : Fin 1)) (fun b hb => match b with
      | ⟨0, _⟩ => rfl
      | ⟨1, _⟩ => absurd rfl hb)
    (by show 0 + 1 = 1; omega)).trans ?_
  exact colOf_apply _ e

end Cert.KernelIdeal.HostValue

end
-- ==== Proof.LibScatterAdd2.lean ====
/-
  The host's accumulating scatter of SCALAR updates, read at an index.

  Two forms. Into a vector: operand `[N]`, one index column `[E, 1]`, updates `[E]`; update `e` is added to element
  `idx[e, 0]`. Into a matrix: operand `[N, M]`, two index columns `[E, 2]`, updates `[E]`; update `e` is added to
  element `(idx[e, 0], idx[e, 1])`. In both every operand axis is an inserted window axis (an update has no window
  coordinate), the start index is read signed and is not clamped, and an update addressed outside the operand is
  dropped. Read at an index the result is therefore the operand there plus the sum, over ALL updates, of the update
  where its index (pair) is that index and zero elsewhere. Nothing here mentions a particular program; the sizes are
  parameters.
-/
import Idealize.ShloMosaic.PureOps.Ideal
import Idealize.ShloMosaic.PureOps.Ideal.Laws
import Idealize.ShloMosaic.Lib.ValueIdx

noncomputable section

open scoped BigOperators

namespace Idealize.ShloMosaic.ScatterAdd2

open Idealize.ShloMosaic
open Idealize.ShloMosaic.ValueIdx

/-! ## Sums over the indices of a vector shape -/

/-- The index set of a vector shape is its one coordinate's range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) := by
  rw [← Equiv.sum_comp (idxEquiv1 (n := n)).symm f]
  rfl

/-! ## Scalars scattered into a vector -/

/-- The dimension numbers of the scatter of scalars into a vector: operand `[N]`, scatter indices `[E, 1]`, updates
    `[E]`; their conditions `wf` are decided on literal sizes. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update `j` starts on the one operand axis: its index, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- An update has no window coordinate on the operand's axis. -/
theorem vecScatter_window {N E : Nat}
    (wf : ScatterDims.WF ⟨1, ![N]⟩ ⟨2, ![E, 1]⟩ ⟨1, ![E]⟩ [] [0] [0] 1)
    (j : (⟨1, ![E]⟩ : Shape).Idx) (a : Fin 1) : (vecScatterDims N E wf).window j a = 0 := by
  unfold ScatterDims.window
  rw [dif_neg (by
    obtain rfl : a = 0 := Subsingleton.elim _ _
    simp [ScatterDims.sKept, Shape.kept, List.mem_filter, List.mem_finRange])]

/-- Update `j` lands at element `i` exactly when its index, read signed, is `i`'s position. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i ↔ (idx (ix2 (j 0) 0)).toInt = ((i 0).val : ℤ) := by
  have hi : (i 0).val < N := (i 0).isLt
  unfold ScatterDims.resultIdx?
  constructor
  · intro h
    split at h
    · rename_i hin
      have hv : ((vecScatterDims N E wf).start j idx 0 + (vecScatterDims N E wf).window j 0).toNat = (i 0).val :=
        congrArg Fin.val (congrFun (Option.some.inj h) 0)
      have hpos := (hin 0).1
      rw [vecScatter_window, vecScatter_start] at hv hpos
      omega
    · cases h
  · intro h
    have hin : ∀ a : Fin 1, 0 ≤ (vecScatterDims N E wf).start j idx a + (vecScatterDims N E wf).window j a ∧
        (vecScatterDims N E wf).start j idx a + (vecScatterDims N E wf).window j a < ((⟨1, ![N]⟩ : Shape).size a : ℤ) := by
      intro a
      obtain rfl : a = 0 := Subsingleton.elim _ _
      rw [vecScatter_window, vecScatter_start, h]
      show 0 ≤ ((i 0).val : ℤ) + ((0 : ℕ) : ℤ) ∧ ((i 0).val : ℤ) + ((0 : ℕ) : ℤ) < (N : ℤ)
      omega
    rw [dif_pos hin]
    refine congrArg some (funext fun a => Fin.ext ?_)
    obtain rfl : a = 0 := Subsingleton.elim _ _
    show ((vecScatterDims N E wf).start j idx 0 + (vecScatterDims N E wf).window j 0).toNat = (i 0).val
    rw [vecScatter_window, vecScatter_start, h]
    omega

/-- The scatter of scalars into a vector read at `n`: the operand there plus the sum over every update of the update
    where its index is `n`, zero elsewhere. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Ideal.hostScatterAdd (vecScatterDims N E wf) x idx u (ix1 n)
      = x (ix1 n) + ∑ e : Fin E, if (idx (ix2 e 0)).toInt = (n.val : ℤ) then u (ix1 e) else 0 := by
  unfold Ideal.hostScatterAdd
  refine congrArg (x (ix1 n) + ·) ?_
  rw [Finset.sum_filter, sum_idx1]
  refine Finset.sum_congr rfl fun e _ => ?_
  exact if_congr (vecScatter_resultIdx_iff wf idx (ix1 e) (ix1 n)) rfl rfl

/-- The same for the host operation with any dimension numbers of that form, given by their four fields: a program's own
    record of dimension numbers is used as it stands, its fields read off by `rfl`. -/
theorem host_vecScatterAdd_apply {N E w : Nat} {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (u : (⟨1, ![E]⟩ : Shape).Idx → EReal) (n : Fin N) :
    (Host.scatterAdd (F := Ideal) (φ := φ) d x idx u : (⟨1, ![N]⟩ : Shape).Idx → EReal) (ix1 n)
      = x (ix1 n) + ∑ e : Fin E, if (idx (ix2 e 0)).toInt = (n.val : ℤ) then u (ix1 e) else 0 := by
  obtain ⟨uw, iw, sd, iv, wf⟩ := d
  simp only at h1 h2 h3 h4
  subst h1 h2 h3 h4
  exact vecScatterAdd_apply wf x idx u n

/-! ## Scalars scattered into a matrix -/

/-- The dimension numbers of the scatter of scalars into a matrix: operand `[N, M]`, scatter indices `[E, 2]` (column 0
    the row number, column 1 the column number), updates `[E]`; their conditions `wf` are decided on literal sizes. -/
abbrev pairScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- Where update `j` starts on the row axis: column 0 of its index pair, read signed. -/
theorem pairScatter_start0 {N M E w : Nat}
    (wf : ScatterDims.WF ⟨2, ![N, M]⟩ ⟨2, ![E, 2]⟩ ⟨1, ![E]⟩ [] [0, 1] [0, 1] 1)
    (idx : IVec ⟨2, ![E, 2]⟩ w) (j : (⟨1, ![E]⟩ : Shape).Idx) :
    (pairScatterDims N M E wf).start j idx 0 = (idx (ix2 (j 0) 0)).toInt := by
  unfold ScatterDims.start
  rw [dif_pos (show (0 : Fin 2) ∈ (pairScatterDims N M E wf).scatterDimsToOperandDims from by simp)]
  have hsi : (pairScatterDims N M E wf).siIdx j ⟨List.idxOf (0 : Fin 2) (pairScatterDims N M E wf).scatterDimsToOperandDims,
      List.idxOf_lt_length_iff.2 (by simp)⟩ = ix2 (j 0) 0 := by
    funext b; refine Fin.ext ?_
    match b with
    | ⟨0, _⟩ => rfl
    | ⟨1, _⟩ => rfl
  rw [hsi]
  rfl

/-- Where update `j` starts on the column axis: column 1 of its index pair, read signed. -/
theorem pairScatter_start1 {N M E w : Nat}
    (wf : ScatterDims.WF ⟨2, ![N, M]⟩ ⟨2, ![E, 2]⟩ ⟨1, ![E]⟩ [] [0, 1] [0, 1] 1)
    (idx : IVec ⟨2, ![E, 2]⟩ w) (j : (⟨1, ![E]⟩ : Shape).Idx) :
    (pairScatterDims N M E wf).start j idx 1 = (idx (ix2 (j 0) 1)).toInt := by
  unfold ScatterDims.start
  rw [dif_pos (show (1 : Fin 2) ∈ (pairScatterDims N M E wf).scatterDimsToOperandDims from by simp)]
  have hsi : (pairScatterDims N M E wf).siIdx j ⟨List.idxOf (1 : Fin 2) (pairScatterDims N M E wf).scatterDimsToOperandDims,
      List.idxOf_lt_length_iff.2 (by simp)⟩ = ix2 (j 0) 1 := by
    funext b; refine Fin.ext ?_
    match b with
    | ⟨0, _⟩ => rfl
    | ⟨1, _⟩ => rfl
  rw [hsi]
  rfl

/-- An update has no window coordinate on either operand axis. -/
theorem pairScatter_window {N M E : Nat}
    (wf : ScatterDims.WF ⟨2, ![N, M]⟩ ⟨2, ![E, 2]⟩ ⟨1, ![E]⟩ [] [0, 1] [0, 1] 1)
    (j : (⟨1, ![E]⟩ : Shape).Idx) (a : Fin 2) : (pairScatterDims N M E wf).window j a = 0 := by
  unfold ScatterDims.window
  rw [dif_neg (by
    match a with
    | ⟨0, _⟩ => simp [ScatterDims.sKept, Shape.kept, List.mem_filter, List.mem_finRange]
    | ⟨1, _⟩ => simp [ScatterDims.sKept, Shape.kept, List.mem_filter, List.mem_finRange])]

/-- Update `j` lands at element `i` exactly when its index pair, read signed, is `i`'s row and column. -/
theorem pairScatter_resultIdx_iff {N M E w : Nat}
    (wf : ScatterDims.WF ⟨2, ![N, M]⟩ ⟨2, ![E, 2]⟩ ⟨1, ![E]⟩ [] [0, 1] [0, 1] 1)
    (idx : IVec ⟨2, ![E, 2]⟩ w) (j : (⟨1, ![E]⟩ : Shape).Idx) (i : (⟨2, ![N, M]⟩ : Shape).Idx) :
    (pairScatterDims N M E wf).resultIdx? j idx = some i ↔
      (idx (ix2 (j 0) 0)).toInt = ((i 0).val : ℤ) ∧ (idx (ix2 (j 0) 1)).toInt = ((i 1).val : ℤ) := by
  have hi0 : (i 0).val < N := idx2_lt0 i
  have hi1 : (i 1).val < M := idx2_lt1 i
  unfold ScatterDims.resultIdx?
  constructor
  · intro h
    split at h
    · rename_i hin
      have hv0 : ((pairScatterDims N M E wf).start j idx 0 + (pairScatterDims N M E wf).window j 0).toNat = (i 0).val :=
        congrArg Fin.val (congrFun (Option.some.inj h) 0)
      have hv1 : ((pairScatterDims N M E wf).start j idx 1 + (pairScatterDims N M E wf).window j 1).toNat = (i 1).val :=
        congrArg Fin.val (congrFun (Option.some.inj h) 1)
      have hp0 := (hin 0).1
      have hp1 := (hin 1).1
      rw [pairScatter_window, pairScatter_start0] at hv0 hp0
      rw [pairScatter_window, pairScatter_start1] at hv1 hp1
      omega
    · cases h
  · rintro ⟨h0, h1⟩
    have hin : ∀ a : Fin 2, 0 ≤ (pairScatterDims N M E wf).start j idx a + (pairScatterDims N M E wf).window j a ∧
        (pairScatterDims N M E wf).start j idx a + (pairScatterDims N M E wf).window j a
          < ((⟨2, ![N, M]⟩ : Shape).size a : ℤ) := by
      intro a
      match a with
      | ⟨0, _⟩ =>
        show 0 ≤ (pairScatterDims N M E wf).start j idx 0 + (pairScatterDims N M E wf).window j 0 ∧
          (pairScatterDims N M E wf).start j idx 0 + (pairScatterDims N M E wf).window j 0 < (N : ℤ)
        rw [pairScatter_window, pairScatter_start0, h0]
        omega
      | ⟨1, _⟩ =>
        show 0 ≤ (pairScatterDims N M E wf).start j idx 1 + (pairScatterDims N M E wf).window j 1 ∧
          (pairScatterDims N M E wf).start j idx 1 + (pairScatterDims N M E wf).window j 1 < (M : ℤ)
        rw [pairScatter_window, pairScatter_start1, h1]
        omega
    rw [dif_pos hin]
    refine congrArg some (funext fun a => Fin.ext ?_)
    match a with
    | ⟨0, _⟩ =>
      show ((pairScatterDims N M E wf).start j idx 0 + (pairScatterDims N M E wf).window j 0).toNat = (i 0).val
      rw [pairScatter_window, pairScatter_start0, h0]
      omega
    | ⟨1, _⟩ =>
      show ((pairScatterDims N M E wf).start j idx 1 + (pairScatterDims N M E wf).window j 1).toNat = (i 1).val
      rw [pairScatter_window, pairScatter_start1, h1]
      omega

/-- The scatter of scalars into a matrix read at `(r, s)`: the operand there plus the sum over every update of the
    update where its index pair is `(r, s)`, zero elsewhere. -/
theorem pairScatterAdd_apply {N M E w : Nat}
    (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (u : (⟨1, ![E]⟩ : Shape).Idx → EReal)
    (r : Fin N) (s : Fin M) :
    Ideal.hostScatterAdd (pairScatterDims N M E wf) x idx u (ix2 r s)
      = x (ix2 r s) + ∑ e : Fin E,
          if (idx (ix2 e 0)).toInt = (r.val : ℤ) ∧ (idx (ix2 e 1)).toInt = (s.val : ℤ) then u (ix1 e) else 0 := by
  unfold Ideal.hostScatterAdd
  refine congrArg (x (ix2 r s) + ·) ?_
  rw [Finset.sum_filter, sum_idx1]
  refine Finset.sum_congr rfl fun e _ => ?_
  exact if_congr (pairScatter_resultIdx_iff wf idx (ix1 e) (ix2 r s)) rfl rfl

/-- The same for the host operation with any dimension numbers of that form, given by their four fields: a program's own
    record of dimension numbers is used as it stands, its fields read off by `rfl`. -/
theorem host_pairScatterAdd_apply {N M E w : Nat} {φ : FTy} (d : ScatterDims ⟨2, ![N, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (x : (⟨2, ![N, M]⟩ : Shape).Idx → EReal) (idx : IVec ⟨2, ![E, 2]⟩ w) (u : (⟨1, ![E]⟩ : Shape).Idx → EReal)
    (r : Fin N) (s : Fin M) :
    (Host.scatterAdd (F := Ideal) (φ := φ) d x idx u : (⟨2, ![N, M]⟩ : Shape).Idx → EReal) (ix2 r s)
      = x (ix2 r s) + ∑ e : Fin E,
          if (idx (ix2 e 0)).toInt = (r.val : ℤ) ∧ (idx (ix2 e 1)).toInt = (s.val : ℤ) then u (ix1 e) else 0 := by
  obtain ⟨uw, iw, sd, iv, wf⟩ := d
  simp only at h1 h2 h3 h4
  subst h1 h2 h3 h4
  exact pairScatterAdd_apply wf x idx u r s

end Idealize.ShloMosaic.ScatterAdd2

end
-- ==== Proof.HostDense.lean ====
/-
  The host side of the dense arrangement read at an index, against the specification.

  Under the range condition (every entry of the edge array, read as a natural number, is a node number) the end lists'
  words ARE the specification's ends, so: the degree at node `n` is zero plus the number of entries arriving at `n`;
  the coefficient is the specification's; an entry's weight is the product of its two ends' coefficients, the gathers
  reading exactly those ends (no clamp moves a node number); and the dense matrix at `(r, s)` is zero plus the sum of the
  weights of the entries from node `s` to node `r` — no update is dropped, and none lands past row or column 10000.
-/
import proofs.«133914_j16801912062630_2_alg».proof.Proof.HostEdges
import proofs.«133914_j16801912062630_2_alg».proof.Proof.LibScatterAdd2
import proofs.«133914_j16801912062630_2_alg».proof.Proof.LibSegmentSum
import proofs.«133914_j16801912062630_2_alg».proof.Proof.GcnInputs

noncomputable section

namespace Cert.KernelIdeal.HostValue

open Cert.KernelIdeal Cert.KernelIdeal.Gen Idealize.ShloMosaic Idealize.SL.Sem Idealize.ShloMosaic.ValueIdx
open Cert.Gcn

variable (ei : (⟨S2x640000, .i32⟩ : BufTy).Contents (Elt Ideal)) (hr : ∀ i, (ei i).toNat < 10000)

/-! ## The end lists' words are the specification's ends -/

include hr in
/-- A source word, as a natural number, is the specification's source. -/
theorem srcOf_toNat (e : Fin 650000) : (srcOf (F := Ideal) ei (ix1 e)).toNat = (endOf ei 0 e).val := by
  unfold endOf
  by_cases h : e.val < 640000
  · rw [dif_pos h, srcOf_edge ei e h]
    show _ = min (ei (ix2 0 ⟨e.val, h⟩)).toNat 9999
    have := hr (ix2 0 ⟨e.val, h⟩)
    omega
  · rw [dif_neg h, srcOf_loop ei e (by omega)]
    show (BitVec.ofNat 32 (e.val - 640000)).toNat = e.val - 640000
    rw [BitVec.toNat_ofNat]
    have := e.isLt
    omega

include hr in
/-- A destination word, as a natural number, is the specification's destination. -/
theorem dstOf_toNat (e : Fin 650000) : (dstOf (F := Ideal) ei (ix1 e)).toNat = (endOf ei 1 e).val := by
  unfold endOf
  by_cases h : e.val < 640000
  · rw [dif_pos h, dstOf_edge ei e h]
    show _ = min (ei (ix2 1 ⟨e.val, h⟩)).toNat 9999
    have := hr (ix2 1 ⟨e.val, h⟩)
    omega
  · rw [dif_neg h, dstOf_loop ei e (by omega)]
    show (BitVec.ofNat 32 (e.val - 640000)).toNat = e.val - 640000
    rw [BitVec.toNat_ofNat]
    have := e.isLt
    omega

include hr in
theorem srcOf_lt (e : Fin 650000) : (srcOf (F := Ideal) ei (ix1 e)).toNat < 10000 := by
  rw [srcOf_toNat ei hr e]; exact (endOf ei 0 e).isLt

include hr in
theorem dstOf_lt (e : Fin 650000) : (dstOf (F := Ideal) ei (ix1 e)).toNat < 10000 := by
  rw [dstOf_toNat ei hr e]; exact (endOf ei 1 e).isLt

include hr in
/-- A source word read signed is the specification's source. -/
theorem srcOf_toInt (e : Fin 650000) : (srcOf (F := Ideal) ei (ix1 e)).toInt = ((endOf ei 0 e).val : ℤ) := by
  rw [toInt_of_lt _ (srcOf_lt ei hr e), srcOf_toNat ei hr e]

include hr in
/-- A destination word read signed is the specification's destination. -/
theorem dstOf_toInt (e : Fin 650000) : (dstOf (F := Ideal) ei (ix1 e)).toInt = ((endOf ei 1 e).val : ℤ) := by
  rw [toInt_of_lt _ (dstOf_lt ei hr e), dstOf_toNat ei hr e]

/-! ## Zeros and ones -/

/-- The broadcast float zero reads zero. -/
theorem zeros_apply {T : Shape} (h : S_.BroadcastsInDim T ![]) (j : T.Idx) :
    (broadcastInDim T ![] h (constant (F := Ideal) S_ .f32 0x00000000#32) : T.Idx → EReal) j = 0 := by
  rw [broadcastInDim_scalar_apply, constant_apply, Ideal.ofBits_zero_f32]

/-- The broadcast float one reads one. -/
theorem ones_apply {T : Shape} (h : S_.BroadcastsInDim T ![]) (j : T.Idx) :
    (broadcastInDim T ![] h (constant (F := Ideal) S_ .f32 0x3F800000#32) : T.Idx → EReal) j = 1 := by
  rw [broadcastInDim_scalar_apply, constant_apply, Ideal.ofBits_one_f32]

/-! ## The degree -/

variable (I : Inputs) (hsrc : I.src = endOf ei 0) (hdst : I.dst = endOf ei 1) (hrs : I.rs = Ideal.rsqrt)

include hr hdst in
/-- The degree at node `n`: the number of entries arriving there. -/
theorem degOf_apply (n : Fin 10000) : (degOf (F := Ideal) (dstOf ei) : S10000.Idx → EReal) (ix1 n) = deg I n := by
  unfold degOf
  refine (ScatterAdd2.host_vecScatterAdd_apply scatter_S10000_S650000x1_S650000_n_0_0_1 rfl rfl rfl rfl _ _ _ n).trans ?_
  rw [zeros_apply, zero_add]
  unfold deg
  refine Finset.sum_congr rfl fun e _ => ?_
  rw [colOf_apply, dstOf_toInt ei hr e, ones_apply, hdst]
  exact if_congr (by rw [Nat.cast_inj, Fin.ext_iff]) rfl rfl

/-! ## The coefficient -/

/-- The coefficient out of any degree array: its reciprocal square root where it is positive, zero elsewhere. -/
theorem dinvOf_apply (d : S10000.Idx → EReal) (n : Fin 10000) :
    (dinvOf (F := Ideal) d : S10000.Idx → EReal) (ix1 n) = if 0 < d (ix1 n) then Ideal.rsqrt (d (ix1 n)) else 0 := by
  unfold dinvOf posOf
  show Scalar.select (Ideal.cmp .ogt (d (ix1 n))
      ((broadcastInDim S10000 ![] bcast_S_S10000 (constant (F := Ideal) S_ .f32 0x00000000#32) : S10000.Idx → EReal) (ix1 n)))
    (Ideal.rsqrt (d (ix1 n)))
    ((broadcastInDim S10000 ![] bcast_S_S10000 (constant (F := Ideal) S_ .f32 0x00000000#32) : S10000.Idx → EReal) (ix1 n)) = _
  rw [zeros_apply]
  show Scalar.select (BitVec.ofBool (decide ((0 : EReal) < d (ix1 n)))) _ _ = _
  by_cases hp : (0 : EReal) < d (ix1 n)
  · rw [decide_eq_true hp, if_pos hp]; exact select_one _ _
  · rw [decide_eq_false hp, if_neg hp]; exact select_zero _ _

include hr hdst hrs in
/-- The coefficient at node `n` is the specification's. -/
theorem dinvK_apply (n : Fin 10000) : (dinvK (F := Ideal) ei : S10000.Idx → EReal) (ix1 n) = dinv I n := by
  unfold dinvK
  rw [dinvOf_apply, degOf_apply ei hr I hdst n]
  unfold dinv
  rw [hrs]

/-! ## The weights -/

include hr in
/-- The gather of the coefficients at the sources reads the coefficient at the specification's source. -/
theorem gather_src (x : S10000.Idx → EReal) (e : Fin 650000) :
    (Host.gather gather_S10000_S650000x1_S650000_n_0_n_n_0_1_1 x (colOf (F := Ideal) (wrapOf 10000#32 (srcOf ei))) : S650000.Idx → EReal) (ix1 e)
      = x (ix1 (endOf ei 0 e)) := by
  refine (SegmentSum.vecGather_apply (N := 10000) (E := 650000) (by omega) (gather_S10000_S650000x1_S650000_n_0_n_n_0_1_1).wf x
    (colOf (F := Ideal) (wrapOf 10000#32 (srcOf ei))) (ix1 e)).trans ?_
  refine congrArg (fun k => x (ix1 k)) (Fin.ext ?_)
  show min ((colOf (F := Ideal) (wrapOf 10000#32 (srcOf ei))) (ix2 e 0)).toInt.toNat (10000 - 1) = (endOf ei 0 e).val
  rw [colOf_apply, wrapOf_apply _ _ e (srcOf_lt ei hr e), srcOf_toInt ei hr e]
  have := (endOf ei 0 e).isLt
  omega

include hr in
/-- The gather of the coefficients at the destinations reads the coefficient at the specification's destination. -/
theorem gather_dst (x : S10000.Idx → EReal) (e : Fin 650000) :
    (Host.gather gather_S10000_S650000x1_S650000_n_0_n_n_0_1_1 x (colOf (F := Ideal) (wrapOf 10000#32 (dstOf ei))) : S650000.Idx → EReal) (ix1 e)
      = x (ix1 (endOf ei 1 e)) := by
  refine (SegmentSum.vecGather_apply (N := 10000) (E := 650000) (by omega) (gather_S10000_S650000x1_S650000_n_0_n_n_0_1_1).wf x
    (colOf (F := Ideal) (wrapOf 10000#32 (dstOf ei))) (ix1 e)).trans ?_
  refine congrArg (fun k => x (ix1 k)) (Fin.ext ?_)
  show min ((colOf (F := Ideal) (wrapOf 10000#32 (dstOf ei))) (ix2 e 0)).toInt.toNat (10000 - 1) = (endOf ei 1 e).val
  rw [colOf_apply, wrapOf_apply _ _ e (dstOf_lt ei hr e), dstOf_toInt ei hr e]
  have := (endOf ei 1 e).isLt
  omega

include hr in
/-- An entry's weight out of any coefficient array: the array at the specification's source times the array at the
    specification's destination. -/
theorem normOf_apply (x : S10000.Idx → EReal) (e : Fin 650000) :
    (normOf (F := Ideal) (srcOf ei) (dstOf ei) x : S650000.Idx → EReal) (ix1 e)
      = x (ix1 (endOf ei 0 e)) * x (ix1 (endOf ei 1 e)) := by
  unfold normOf
  refine (mulf_apply _ _ (ix1 e)).trans ?_
  rw [gather_src ei hr, gather_dst ei hr]

include hr hsrc hdst hrs in
/-- An entry's weight is the specification's. -/
theorem normK_apply (e : Fin 650000) : (normK (F := Ideal) ei : S650000.Idx → EReal) (ix1 e) = Cert.Gcn.norm I e := by
  unfold normK
  rw [normOf_apply ei hr, dinvK_apply ei hr I hdst hrs, dinvK_apply ei hr I hdst hrs]
  unfold Cert.Gcn.norm
  rw [hsrc, hdst]

/-! ## The dense matrix -/

include hr in
/-- The dense matrix out of any weight array, at `(r, s)`: the weights of the entries from node `s` to node `r`, summed. -/
theorem denseOf_apply (u : S650000.Idx → EReal) (r s : Fin 10240) :
    (denseOf (F := Ideal) (srcOf ei) (dstOf ei) u : S10240x10240.Idx → EReal) (ix2 r s)
      = ∑ e : Fin 650000, if (endOf ei 1 e).val = r.val ∧ (endOf ei 0 e).val = s.val then u (ix1 e) else 0 := by
  unfold denseOf
  refine (ScatterAdd2.host_pairScatterAdd_apply scatter_S10240x10240_S650000x2_S650000_n_01_01_1 rfl rfl rfl rfl _ _ _ r s).trans ?_
  rw [zeros_apply, zero_add]
  refine Finset.sum_congr rfl fun e _ => ?_
  rw [pairsOf_apply0, pairsOf_apply1, wrapOf_apply _ _ e (dstOf_lt ei hr e), wrapOf_apply _ _ e (srcOf_lt ei hr e),
    dstOf_toInt ei hr e, srcOf_toInt ei hr e]
  exact if_congr (by rw [Nat.cast_inj, Nat.cast_inj]) rfl rfl

include hr hsrc hdst hrs in
/-- The dense matrix at `(r, s)` is the specification's. -/
theorem denseK_apply (r s : Fin 10240) : (denseK (F := Ideal) ei : S10240x10240.Idx → EReal) (ix2 r s) = A I r s := by
  unfold denseK
  rw [denseOf_apply ei hr]
  unfold A
  refine Finset.sum_congr rfl fun e _ => ?_
  rw [normK_apply ei hr I hsrc hdst hrs e, hsrc, hdst]

end Cert.KernelIdeal.HostValue

end
-- ==== Proof.HostPads.lean ====
/-
  The padded arrays read at an index: inside the operand the operand's entry, in the padding the float of the integer
  zero, which is zero. A vector cast to one row reads the vector.
-/
import proofs.«133914_j16801912062630_2_alg».proof.Proof.HostDefs
import proofs.«133914_j16801912062630_2_alg».proof.Proof.GcnInputs
import Idealize.ShloMosaic.Lib.KernelVsHost
import Idealize.ShloMosaic.Lib.ValueLayout
import Idealize.ShloMosaic.Lib.IdealHost

noncomputable section

namespace Cert.KernelIdeal.HostValue

open Cert.KernelIdeal Cert.KernelIdeal.Gen Idealize.ShloMosaic Idealize.SL.Sem Idealize.ShloMosaic.ValueIdx
open Cert.Gcn

/-- The padding value, the float of the integer zero, is zero. -/
theorem padValue_apply (j : S_.Idx) : (padValue (F := Ideal) : S_.Idx → EReal) j = 0 := by
  show ((((0#32 : BitVec 32).toInt : ℤ) : ℝ) : EReal) = 0
  simp

/-- The padded features at `(r, j)`: the features' row `r` below 10000, zero from there on. -/
theorem xpadOf_apply (x : (⟨S10000x256, .f32⟩ : BufTy).Contents (Elt Ideal)) (r : Fin 10240) (j : Fin 256) :
    (xpadOf (F := Ideal) x : S10240x256.Idx → EReal) (ix2 r j)
      = if h : r.val < 10000 then (x : S10000x256.Idx → EReal) (ix2 (⟨r.val, h⟩ : Fin 10000) j) else 0 := by
  unfold xpadOf
  by_cases h : r.val < 10000
  · rw [dif_pos h]
    exact pad_apply_of_inside (s := S10000x256) (t := S10240x256) ![0, 0] ![240, 0] ![0, 0] x _ pads_S10000x256_S10240x256_02400_000 h_S_
      (ix2 r j) (ix2 (⟨r.val, h⟩ : Fin 10000) j) (fun a => match a with
        | ⟨0, _⟩ => by show r.val = 0 + r.val * (0 + 1); omega
        | ⟨1, _⟩ => by show j.val = 0 + j.val * (0 + 1); omega)
  · rw [dif_neg h]
    refine (pad_apply_of_not_inside (s := S10000x256) (t := S10240x256) ![0, 0] ![240, 0] ![0, 0] x _ pads_S10000x256_S10240x256_02400_000 h_S_
      (ix2 r j) (0 : Fin 2) ?_).trans (padValue_apply _)
    show ¬(0 ≤ r.val ∧ (r.val - 0) % (0 + 1) = 0 ∧ (r.val - 0) / (0 + 1) < 10000)
    omega

/-- The padded second weight matrix at `(k, q)`: the matrix's column `q` below 64, zero from there on. -/
theorem w2padOf_apply (w : (⟨S128x64, .f32⟩ : BufTy).Contents (Elt Ideal)) (k q : Fin 128) :
    (w2padOf (F := Ideal) w : S128x128.Idx → EReal) (ix2 k q)
      = if h : q.val < 64 then (w : S128x64.Idx → EReal) (ix2 k (⟨q.val, h⟩ : Fin 64)) else 0 := by
  unfold w2padOf
  by_cases h : q.val < 64
  · rw [dif_pos h]
    exact pad_apply_of_inside (s := S128x64) (t := S128x128) ![0, 0] ![0, 64] ![0, 0] w _ pads_S128x64_S128x128_000_0640 h_S_
      (ix2 k q) (ix2 k (⟨q.val, h⟩ : Fin 64)) (fun a => match a with
        | ⟨0, _⟩ => by show k.val = 0 + k.val * (0 + 1); omega
        | ⟨1, _⟩ => by show q.val = 0 + q.val * (0 + 1); omega)
  · rw [dif_neg h]
    refine (pad_apply_of_not_inside (s := S128x64) (t := S128x128) ![0, 0] ![0, 64] ![0, 0] w _ pads_S128x64_S128x128_000_0640 h_S_
      (ix2 k q) (1 : Fin 2) ?_).trans (padValue_apply _)
    show ¬(0 ≤ q.val ∧ (q.val - 0) % (0 + 1) = 0 ∧ (q.val - 0) / (0 + 1) < 64)
    omega

/-- The padded second bias, as a row, at `(0, q)`: the bias' entry `q` below 64, zero from there on. -/
theorem b2padOf_apply (b : (⟨S64, .f32⟩ : BufTy).Contents (Elt Ideal)) (q : Fin 128) :
    (b2padOf (F := Ideal) b : S1x128.Idx → EReal) (ix2 (0 : Fin 1) q)
      = if h : q.val < 64 then (b : S64.Idx → EReal) (ix1 (⟨q.val, h⟩ : Fin 64)) else 0 := by
  unfold b2padOf
  refine (shapeCast_a_1a_apply (a := 128) _ shapeCasts_S128_S1x128 (0 : Fin 1) q).trans ?_
  by_cases h : q.val < 64
  · rw [dif_pos h]
    exact pad_apply_of_inside (s := S64) (t := S128) ![0] ![64] ![0] b _ pads_S64_S128_0640 h_S_
      (ix1 q) (ix1 (⟨q.val, h⟩ : Fin 64)) (fun a => by
        obtain rfl : a = 0 := Subsingleton.elim _ _
        show q.val = 0 + q.val * (0 + 1); omega)
  · rw [dif_neg h]
    refine (pad_apply_of_not_inside (s := S64) (t := S128) ![0] ![64] ![0] b _ pads_S64_S128_0640 h_S_
      (ix1 q) (0 : Fin 1) ?_).trans (padValue_apply _)
    show ¬(0 ≤ q.val ∧ (q.val - 0) % (0 + 1) = 0 ∧ (q.val - 0) / (0 + 1) < 64)
    omega

/-- The first bias, as a row, at `(0, k)`: the bias' entry `k`. -/
theorem b1rowOf_apply (b : (⟨S128, .f32⟩ : BufTy).Contents (Elt Ideal)) (k : Fin 128) :
    (b1rowOf (F := Ideal) b : S1x128.Idx → EReal) (ix2 (0 : Fin 1) k) = (b : S128.Idx → EReal) (ix1 k) := by
  unfold b1rowOf
  exact shapeCast_a_1a_apply (a := 128) _ shapeCasts_S128_S1x128 (0 : Fin 1) k

end Cert.KernelIdeal.HostValue

end
-- ==== Proof.HostValue.lean ====
/-
  The kernel program's host operations read at an index, against the specification's dense arrangement.

  With the specification's data read off the launch arrays, the buffers the four kernel regions are entered on hold:
  the dense matrix (given that every entry of the edge array is a node number), the zero-padded features, the first
  bias as a row, the zero-padded second weight matrix, the zero-padded second bias as a row, and the first weight
  matrix as launched. The program's result is the leading 10000 x 64 corner of what the last region leaves.
-/
import proofs.«133914_j16801912062630_2_alg».proof.Proof.HostOpen
import proofs.«133914_j16801912062630_2_alg».proof.Proof.HostDense
import proofs.«133914_j16801912062630_2_alg».proof.Proof.HostPads

noncomputable section

namespace Cert.KernelIdeal.HostValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- The specification's data read off core `c`'s launch arrays. -/
abbrev inputsAt : Cert.Gcn.Inputs :=
  Cert.Gcn.inputsOf (xArr m c) (eiArr m c) (w1Arr m c) (b1Arr m c) (w2Arr m c) (b2Arr m c)

/-- A word whose signed value is a node number is one as a natural number too (the range condition in its signed form
    gives the unsigned form the statements below take). -/
theorem toNat_lt_of_toInt (w : BitVec 32) (h0 : 0 ≤ w.toInt) (h1 : w.toInt < 10000) : w.toNat < 10000 := by
  rw [BitVec.toInt_eq_toNat_cond] at h0 h1
  split at h0 <;> omega

/-- The dense matrix the regions read is the specification's, every entry of the edge array being a node number. -/
theorem v44_eq (hrange : ∀ i : S2x640000.Idx, (eiArr m c i).toNat < 10000) (r s : Fin 10240) :
    (V9 (F := Ideal) m c main_v44 : S10240x10240.Idx → EReal) (ix2 r s) = Cert.Gcn.A (inputsAt m c) r s := by
  refine (congrFun (V9_v44 m c) (ix2 r s)).trans ?_
  exact denseK_apply (eiArr m c) hrange (inputsAt m c) rfl rfl rfl r s

/-- The padded features the first region reads are the specification's. -/
theorem v45_eq (r : Fin 10240) (j : Fin 256) :
    (V9 (F := Ideal) m c main_v45 : S10240x256.Idx → EReal) (ix2 r j) = Cert.Gcn.xpad (inputsAt m c) r j := by
  refine (congrFun (V9_v45 m c) (ix2 r j)).trans ?_
  exact xpadOf_apply (xArr m c) r j

/-- The first bias' row the second region reads is the specification's first bias. -/
theorem v46_eq (k : Fin 128) :
    (V9 (F := Ideal) m c main_v46 : S1x128.Idx → EReal) (ix2 (0 : Fin 1) k) = (inputsAt m c).b1 k := by
  refine (congrFun (V9_v46 m c) (ix2 (0 : Fin 1) k)).trans ?_
  exact b1rowOf_apply (b1Arr m c) k

/-- The padded second weight matrix the third region reads is the specification's. -/
theorem v47_eq (k q : Fin 128) :
    (V9 (F := Ideal) m c main_v47 : S128x128.Idx → EReal) (ix2 k q) = Cert.Gcn.W2p (inputsAt m c) k q := by
  refine (congrFun (V9_v47 m c) (ix2 k q)).trans ?_
  exact w2padOf_apply (w2Arr m c) k q

/-- The padded second bias' row the fourth region reads is the specification's. -/
theorem v49_eq (q : Fin 128) :
    (V9 (F := Ideal) m c main_v49 : S1x128.Idx → EReal) (ix2 (0 : Fin 1) q) = Cert.Gcn.b2p (inputsAt m c) q := by
  refine (congrFun (V9_v49 m c) (ix2 (0 : Fin 1) q)).trans ?_
  exact b2padOf_apply (b2Arr m c) q

/-- The first weight matrix the first region reads is the specification's. -/
theorem arg2_eq (j : Fin 256) (k : Fin 128) :
    (V9 (F := Ideal) m c main_arg2 : S256x128.Idx → EReal) (ix2 j k) = (inputsAt m c).W1 j k := by
  exact congrFun (V9_arg2 m c) (ix2 j k)

/-- The result at `(d, q)` is what the last region leaves at `(d, q)`. -/
theorem v54_eq (outs : Outs (F := Ideal)) (d : Fin 10000) (q : Fin 64) :
    (V14 (F := Ideal) m outs c main_v54 : S10000x64.Idx → EReal) (ix2 d q)
      = (outs 13 main_v53 c : S10240x128.Idx → EReal) (ix2 (⟨d.val, by omega⟩ : Fin 10240) (⟨q.val, by omega⟩ : Fin 128)) := by
  refine (congrFun (V14_v54 m c outs) (ix2 d q)).trans ?_
  exact extractStridedSlice_apply (s := S10240x128) (t := S10000x64) ![0, 0] _ slices_S10240x128_S10000x64_0_0 (ix2 d q)
    (ix2 (⟨d.val, by omega⟩ : Fin 10240) (⟨q.val, by omega⟩ : Fin 128)) (fun a => match a with
    | ⟨0, _⟩ => by show d.val = 0 + d.val; omega
    | ⟨1, _⟩ => by show q.val = 0 + q.val; omega)

end Cert.KernelIdeal.HostValue

end
-- ==== Proof.KernelChain.lean ====
/-
  The dense arrangement as a chain of four array equations.

  Six arrays hold the dense matrix, the padded features, the first weight matrix, the first bias as a row, the padded
  second weight matrix and the padded second bias as a row.  Four further arrays satisfy, entry by entry: the first is
  the padded features times the first weights; the second is, on the rows below 10000, the positive part of the dense
  matrix times the first plus the first bias, and zero on the other rows; the third is the second times the padded
  second weights; the fourth is, on the rows below 10000, the dense matrix times the third plus the padded second
  bias, and zero on the other rows.  Then the leading 10000 x 64 corner of the fourth is the specification's dense
  result.  Each step only rewrites a sum's terms; no property of the numbers is used.
-/
import Idealize.ShloMosaic.Lib.ValueIdx
import proofs.«133914_j16801912062630_2_alg».proof.Proof.GcnSpec

noncomputable section

open scoped BigOperators

namespace Cert.Gcn.Dense

open Idealize.ShloMosaic Idealize.ShloMosaic.ValueIdx

variable (I : Cert.Gcn.Inputs)
  (A : (⟨2, ![10240, 10240]⟩ : Shape).Idx → EReal) (X : (⟨2, ![10240, 256]⟩ : Shape).Idx → EReal)
  (W1 : (⟨2, ![256, 128]⟩ : Shape).Idx → EReal) (B1 : (⟨2, ![1, 128]⟩ : Shape).Idx → EReal)
  (W2 : (⟨2, ![128, 128]⟩ : Shape).Idx → EReal) (B2 : (⟨2, ![1, 128]⟩ : Shape).Idx → EReal)
  (o0 o1 o2 o3 : (⟨2, ![10240, 128]⟩ : Shape).Idx → EReal)

/-- The first array is the specification's padded product. -/
theorem o0_eq (hX : ∀ r j, X (ix2 r j) = Cert.Gcn.xpad I r j) (hW1 : ∀ j k, W1 (ix2 j k) = I.W1 j k)
    (h0 : ∀ (r : Fin 10240) (q : Fin 128), o0 (ix2 r q) = ∑ k : Fin 256, X (ix2 r k) * W1 (ix2 k q))
    (r : Fin 10240) (q : Fin 128) : o0 (ix2 r q) = Cert.Gcn.h1p I r q := by
  rw [h0]
  unfold Cert.Gcn.h1p
  exact Finset.sum_congr rfl fun k _ => by rw [hX, hW1]

/-- The second array is the specification's padded first layer. -/
theorem o1_eq (hA : ∀ r s, A (ix2 r s) = Cert.Gcn.A I r s) (hB1 : ∀ k, B1 (ix2 (0 : Fin 1) k) = I.b1 k)
    (e0 : ∀ (r : Fin 10240) (q : Fin 128), o0 (ix2 r q) = Cert.Gcn.h1p I r q)
    (h1 : ∀ (r : Fin 10240) (q : Fin 128), o1 (ix2 r q)
      = if r.val < 10000 then max ((∑ s : Fin 10240, A (ix2 r s) * o0 (ix2 s q)) + B1 (ix2 (0 : Fin 1) q)) 0 else 0)
    (r : Fin 10240) (q : Fin 128) : o1 (ix2 r q) = Cert.Gcn.l1p I r q := by
  rw [h1]
  unfold Cert.Gcn.l1p
  have hs : (∑ s : Fin 10240, A (ix2 r s) * o0 (ix2 s q)) = ∑ s : Fin 10240, Cert.Gcn.A I r s * Cert.Gcn.h1p I s q :=
    Finset.sum_congr rfl fun s _ => by rw [hA, e0]
  rw [hs, hB1]

/-- The third array is the specification's padded second product. -/
theorem o2_eq (hW2 : ∀ k q, W2 (ix2 k q) = Cert.Gcn.W2p I k q)
    (e1 : ∀ (r : Fin 10240) (q : Fin 128), o1 (ix2 r q) = Cert.Gcn.l1p I r q)
    (h2 : ∀ (r : Fin 10240) (q : Fin 128), o2 (ix2 r q) = ∑ k : Fin 128, o1 (ix2 r k) * W2 (ix2 k q))
    (r : Fin 10240) (q : Fin 128) : o2 (ix2 r q) = Cert.Gcn.h2p I r q := by
  rw [h2]
  unfold Cert.Gcn.h2p
  exact Finset.sum_congr rfl fun k _ => by rw [e1, hW2]

/-- The fourth array is the specification's padded result. -/
theorem o3_eq (hA : ∀ r s, A (ix2 r s) = Cert.Gcn.A I r s) (hB2 : ∀ q, B2 (ix2 (0 : Fin 1) q) = Cert.Gcn.b2p I q)
    (e2 : ∀ (r : Fin 10240) (q : Fin 128), o2 (ix2 r q) = Cert.Gcn.h2p I r q)
    (h3 : ∀ (r : Fin 10240) (q : Fin 128), o3 (ix2 r q)
      = if r.val < 10000 then (∑ s : Fin 10240, A (ix2 r s) * o2 (ix2 s q)) + B2 (ix2 (0 : Fin 1) q) else 0)
    (r : Fin 10240) (q : Fin 128) : o3 (ix2 r q) = Cert.Gcn.outp I r q := by
  rw [h3]
  unfold Cert.Gcn.outp
  have hs : (∑ s : Fin 10240, A (ix2 r s) * o2 (ix2 s q)) = ∑ s : Fin 10240, Cert.Gcn.A I r s * Cert.Gcn.h2p I s q :=
    Finset.sum_congr rfl fun s _ => by rw [hA, e2]
  rw [hs, hB2]

/-- The chain: the leading corner of the fourth array is the specification's dense result. -/
theorem chain (hA : ∀ r s, A (ix2 r s) = Cert.Gcn.A I r s) (hX : ∀ r j, X (ix2 r j) = Cert.Gcn.xpad I r j)
    (hW1 : ∀ j k, W1 (ix2 j k) = I.W1 j k) (hB1 : ∀ k, B1 (ix2 (0 : Fin 1) k) = I.b1 k)
    (hW2 : ∀ k q, W2 (ix2 k q) = Cert.Gcn.W2p I k q) (hB2 : ∀ q, B2 (ix2 (0 : Fin 1) q) = Cert.Gcn.b2p I q)
    (h0 : ∀ (r : Fin 10240) (q : Fin 128), o0 (ix2 r q) = ∑ k : Fin 256, X (ix2 r k) * W1 (ix2 k q))
    (h1 : ∀ (r : Fin 10240) (q : Fin 128), o1 (ix2 r q)
      = if r.val < 10000 then max ((∑ s : Fin 10240, A (ix2 r s) * o0 (ix2 s q)) + B1 (ix2 (0 : Fin 1) q)) 0 else 0)
    (h2 : ∀ (r : Fin 10240) (q : Fin 128), o2 (ix2 r q) = ∑ k : Fin 128, o1 (ix2 r k) * W2 (ix2 k q))
    (h3 : ∀ (r : Fin 10240) (q : Fin 128), o3 (ix2 r q)
      = if r.val < 10000 then (∑ s : Fin 10240, A (ix2 r s) * o2 (ix2 s q)) + B2 (ix2 (0 : Fin 1) q) else 0)
    (d : Fin 10000) (q : Fin 64) :
    o3 (ix2 (⟨d.val, by omega⟩ : Fin 10240) (⟨q.val, by omega⟩ : Fin 128)) = Cert.Gcn.outK I d q :=
  o3_eq I A B2 o2 o3 hA hB2
    (o2_eq I W2 o1 o2 hW2 (o1_eq I A B1 o0 o1 hA hB1 (o0_eq I X W1 o0 hX hW1 h0) h1) h2) h3 _ _

end Cert.Gcn.Dense

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.R0Value.lean ====
/- The value of the first dense product, h1 = xpad · W1, on the extended reals: after the region's
   five grid points the result array holds, at row r and column q, the sum over k of
   xpad(r, k) · W1(k, q). Three steps. (1) What the body's stores leave in the output block is the
   body's arithmetic applied to the two input blocks: the zero block plus their product. (2) At the
   ideal instance that is, entry by entry, the plain sum over the 256 contraction positions.
   (3) Grid point t handles rows 2048·t … 2048·t + 2047 of the left factor and of the result and the
   whole right factor, so each written-back block is the matching block of one function of the two
   arrays; the five blocks tile the result array, row r lying in block r / 2048. -/
import proofs.«133914_j16801912062630_2_alg».proof.Proof.R0Frame
import proofs.«133914_j16801912062630_2_alg».proof.Proof.LibMatmulRows
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

theorem hz0 : (![0, 0] : Fin 2 → Nat) = fun _ => 0 := funext fun a => by fin_cases a <;> rfl

/-! ## What the body's stores leave in the output block -/

section AnyInstance
variable {F : FTy → Type} [FloatOps F]

/-- The output block ends at the accumulator's last contents: the zero block, read back, plus the
    product of the two input blocks. -/
theorem out0_2_eq (c : Dev nD) (i : grid0.Coords) (arg2 : Memref sig .tc .vmem S2048x256 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : cond0_1 i)
    (x0 : Vec F S2048x256 .f32) (x1 : Vec F S256x128 .f32) :
    out0_2 c i arg2 harg2 arg3 harg3 arg4 harg4 arg5 harg5 hc0 hc1 x0 x1 = k0_pay2 (k0_pay1 (F := F)) x0 x1 := by
  unfold out0_2
  rw [View.read_writes_eq_canon _ _ _ (cover0_2 c i arg2 harg2 arg3 harg3 arg4 harg4 arg5 harg5 hc0 hc1 x0 x1)]
  unfold kernelRun0
  dsimp only
  try sl_unfold_words
  rw [View.canon_unit_zero hz0]
  rw [View.readCov_cons_toLoadRect, View.readCov_cons_toLoadRect]
  simp only [View.readAt_eq_ld, harg2.read_unread, harg3.read_unread, View.ld_unit_zero (S := S2048x256) hz0, View.ld_unit_zero (S := S256x128) hz0]

end AnyInstance

/-! ## The body's arithmetic at an entry, on the extended reals -/

/-- The product's dimension numbers: axis 1 of the left factor against axis 0 of the right. -/
abbrev D0 := dot_S2048x256_S256x128_S2048x128_1_0_0_1_n_n

theorem D0_lhs0 (i : S2048x128.Idx) (q : D0.contr.Idx) : (D0.lhsIdx i q 0).val = (i 0).val := by
  unfold DotDims.lhsIdx
  rw [dif_neg (show ¬(0 : Fin S2048x256.rank) ∈ D0.lhsBatch by decide), dif_pos (show (0 : Fin S2048x256.rank) ∈ D0.lhsNonContracting by decide)]
  rfl
theorem D0_rhs1 (i : S2048x128.Idx) (q : D0.contr.Idx) : (D0.rhsIdx i q 1).val = (i 1).val := by
  unfold DotDims.rhsIdx
  rw [dif_neg (show ¬(1 : Fin S256x128.rank) ∈ D0.rhsBatch by decide), dif_pos (show (1 : Fin S256x128.rank) ∈ D0.rhsNonContracting by decide)]
  rfl

/-- Entry (p, q) of the zero block plus the blocks' product: the sum over the contraction axis. -/
theorem pay0_apply (x0 : Vec Ideal S2048x256 .f32) (x1 : Vec Ideal S256x128 .f32) (p : Fin 2048) (q : Fin 128) :
    k0_pay2 (k0_pay1 (F := Ideal)) x0 x1 (ix2 p q) = ∑ k : Fin 256, x0 (ix2 p k) * x1 (ix2 k q) := by
  unfold k0_pay2 k0_pay1
  simp only [shapeCast_self]
  rw [addf_apply]
  have h1 : broadcast S2048x128 (Scalar.ofBits (F := Ideal) .f32 0x00000000#32) (ix2 p q) = (0 : EReal) := by
    rw [broadcast_apply]; exact Ideal.ofBits_zero_f32
  have h2 := MatmulRows.matmul_zero_apply (φ₁ := .f32) (φ₂ := .f32) D0 none rfl rfl rfl rfl D0_lhs0 D0_rhs1 x0 x1 (ix2 p q)
  refine (congrArg₂ (· + ·) h1 h2).trans ?_
  rw [zero_add]

/-! ## From blocks to the array -/

/-- The product of two whole arrays, entry by entry. -/
def G0 (a : S10240x256.Idx → EReal) (b : S256x128.Idx → EReal) : S10240x128.Idx → EReal :=
  fun i => ∑ k : Fin 256, a (ix2 (i 0) k) * b (ix2 k (i 1))

/-- Where the blocks sit, decided over the grid: at point t the left factor's block and the result's block
    are row block t, column block 0; the right factor's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks
variable (V : (c : Dev nD) → (b : Ref sig .tc) → Buf (Elt Ideal) ((c : Thread nD τ).loc b))

/-- What point t writes back is block t of the product of the two arrays as the region finds them. -/
theorem flushed0_eq (c : Dev nD) (t : Fin cfg0.N) :
    (dat0 (F := Ideal) V c).flushed 2 t = ((cfg0.win 2).blk t).view.read (Elt Ideal) (G0 (V c main_v45) (V c main_arg2)) := by
  show (cfg0.win 2).cut (grid0.coords t) ((dat0 V c).after 2 t) = _
  rw [after0_2, out0_2_eq]
  obtain ⟨e00, e01, e10, e11, e20, e21⟩ := idx_facts0 t
  funext j
  obtain ⟨p, q, rfl⟩ : ∃ (p : Fin 2048) (q : Fin 128), j = ix2 p q := ⟨j 0, j 1, eq_ix2 j⟩
  refine (pay0_apply (iblk0 V c 0 t) (iblk0 V c 1 t) p q).trans ?_
  show _ = G0 (V c main_v45) (V c main_arg2) (((cfg0.win 2).blk t).view.emb (ix2 p q))
  unfold G0
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2048 + 1 * p.val = win0_2.index t (0 : Fin 2) * 2048 + 1 * p.val; rw [e00, e20]
    | ⟨1, _⟩ => show win0_0.index t (1 : Fin 2) * 256 + 1 * k.val = k.val; rw [e01]; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; rw [e10]; omega
    | ⟨1, _⟩ => show win0_1.index t (1 : Fin 2) * 128 + 1 * q.val = win0_2.index t (1 : Fin 2) * 128 + 1 * q.val; rw [e11, e21]
  have key : ∀ (a : S10240x256.Idx → EReal) (b : S256x128.Idx → EReal),
      a (((cfg0.win 0).blk t).view.emb (ix2 p k)) * b (((cfg0.win 1).blk t).view.emb (ix2 k q))
        = a (ix2 ((((cfg0.win 2).blk t).view.emb (ix2 p q)) 0) k) * b (ix2 k ((((cfg0.win 2).blk t).view.emb (ix2 p q)) 1)) :=
    fun a b => congrArg₂ (fun (x : S10240x256.Idx) (y : S256x128.Idx) => a x * b y) h0 h1
  exact key (V c main_v45) (V c main_arg2)

/-- An index of the result array is in point t's block iff each coordinate is in the block's range. -/
theorem mem_blk0 (t : Fin cfg0.N) (i : S10240x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v50).slice (win0_2.rect t)).set ↔ _
  rw [View.set_slice_whole, Rect.mem_set_unit]
  exact Iff.rfl

/-- Row r of the result lies in the block of point r / 2048, and every point writes its block back. -/
theorem cover0 (i : S10240x128.Idx) : ∃ t : Fin cfg0.N, (cfg0.win 2).flush t = true ∧ i ∈ ((cfg0.win 2).blk t).view.set := by
  have hi0 : (i 0).val < 10240 := idx2_lt0 i
  have hi1 : (i 1).val < 128 := idx2_lt1 i
  have hN : grid0.N = 5 := N_0
  obtain ⟨t, ht⟩ : ∃ t : Fin cfg0.N, t.val = (i 0).val / 2048 := ⟨⟨(i 0).val / 2048, by show _ < grid0.N; omega⟩, rfl⟩
  obtain ⟨-, -, -, -, e20, e21⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; rw [e20, ht]; omega
  | ⟨1, _⟩ => show win0_2.index t (1 : Fin 2) * 128 ≤ (i 1).val ∧ (i 1).val < win0_2.index t (1 : Fin 2) * 128 + 128; rw [e21]; omega

/-- So the result array ends holding the product of the two arrays. -/
theorem final0 (c : Dev nD) : (dat0 (F := Ideal) V c).arrAt 2 cfg0.N = G0 (V c main_v45) (V c main_arg2) :=
  (dat0 (F := Ideal) V c).arrAt_eq_of_cover 2 (G0 (V c main_v45) (V c main_arg2)) (fun t _ => flushed0_eq V c t) cover0

/-- The product of two arrays at an entry. -/
theorem G0_apply (a : S10240x256.Idx → EReal) (b : S256x128.Idx → EReal) (r : Fin 10240) (q : Fin 128) :
    G0 a b (ix2 r q) = ∑ k : Fin 256, a (ix2 r k) * b (ix2 k q) := rfl

/-- The result array after the region, entry by entry, the two factor arrays named. -/
theorem value0 (c : Dev nD) (a : S10240x256.Idx → EReal) (b : S256x128.Idx → EReal)
    (ha : V c main_v45 = a) (hb : V c main_arg2 = b) (r : Fin 10240) (q : Fin 128) :
    (dat0 (F := Ideal) V c).arrAt 2 cfg0.N (ValueIdx.ix2 r q) = ∑ k : Fin 256, a (ValueIdx.ix2 r k) * b (ValueIdx.ix2 k q) := by
  rw [final0, ha, hb]; rfl

end Blocks

end Cert.KernelIdeal.Hand

end
-- ==== Proof.R1ValueA.lean ====
/-
  Region 1: what each control case's stores leave, as the body's arithmetic of the blocks it loaded.

  In every case the accumulator ends at the step's sum: the previous accumulator (the zero block at a first step,
  stored and read back) plus the product of the two input blocks.  At a last step the output block ends at the
  finishing arithmetic of that accumulator and the bias row.
-/
import proofs.«133914_j16801912062630_2_alg».proof.Proof.R1Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz1 : (![0, 0] : Fin 2 → Nat) = fun _ => 0 := funext fun a => by fin_cases a <;> rfl

/-- First step: the zero block is stored, read back, and the step's product added. -/
theorem sout1_A_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .f32) (x1 : Vec F S1024x128 .f32) (x2 : Vec F S1x128 .f32) :
    sout1_A_0 c i arg2 harg2 arg3 harg3 arg4 harg4 arg5 harg5 arg6 harg6 hc0 hc1 x0 x1 x2 = k1_pay2 (k1_pay1 (F := F)) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  try sl_unfold_words
  rw [View.canon_cons_unit_zero (S := S1024x128) hz1, View.readCov_unit_zero (S := S1024x128) _ hz1]
  simp only [View.readAt_eq_ld, harg2.read_unread, harg3.read_unread,
    View.ld_unit_zero (S := S1024x1024) hz1, View.ld_unit_zero (S := S1024x128) hz1]

/-- Middle step: the step's product is added to the accumulator. -/
theorem sout1_B_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .f32) (x1 : Vec F S1024x128 .f32) (x2 : Vec F S1x128 .f32) (xs0 : Vec F S1024x128 .f32) :
    sout1_B_0 c i arg2 harg2 arg3 harg3 arg4 harg4 arg5 harg5 arg6 harg6 hc0 hc1 x0 x1 x2 xs0 = k1_pay2 xs0 x0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero hz1]
  simp only [View.readAt_eq_ld, harg2.read_unread, harg3.read_unread, harg6.read_unread,
    View.ld_unit_zero (S := S1024x1024) hz1, View.ld_unit_zero (S := S1024x128) hz1]

/-- Last step, the accumulator: as at a middle step. -/
theorem sout1_C_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) :
    sout1_C_0 c i arg2 harg2 arg3 harg3 arg4 harg4 arg5 harg5 arg6 harg6 hc0 hc1 x0 x1 x2 xs0 = k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  try sl_unfold_words
  rw [View.canon_unit_zero (S := S1024x128) hz1]
  simp only [View.readAt_eq_ld, harg2.read_unread, harg3.read_unread, harg6.read_unread,
    View.ld_unit_zero (S := S1024x1024) hz1, View.ld_unit_zero (S := S1024x128) hz1]

/-- Last step, the output block: the finishing arithmetic of the step's accumulator and the bias row. -/
theorem out1_C_3_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .f32) (x1 : Vec F S1024x128 .f32) (x2 : Vec F S1x128 .f32) (xs0 : Vec F S1024x128 .f32) :
    out1_C_3 c i arg2 harg2 arg3 harg3 arg4 harg4 arg5 harg5 arg6 harg6 hc0 hc1 x0 x1 x2 xs0 = k1_pay3 i (k1_pay2 xs0 x0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  try sl_unfold_words
  rw [View.canon_unit_zero (S := S1024x128) hz1, View.readCov_unit_zero (S := S1024x128) _ hz1]
  simp only [View.readAt_eq_ld, harg2.read_unread, harg3.read_unread, harg4.read_unread, harg6.read_unread,
    View.ld_unit_zero (S := S1024x1024) hz1, View.ld_unit_zero (S := S1024x128) hz1, View.ld_unit_zero (S := S1x128) hz1]

end Cert.KernelIdeal.Hand

end
-- ==== Proof.R1ValueB.lean ====
/-
  Region 1: the body's arithmetic at an entry, on the extended reals.

  The zero block is zero everywhere.  The step's sum at (p, q) is the accumulator there plus the sum over the 1024
  contraction positions of the products of the two blocks' entries.  The finishing arithmetic at (p, q) adds the bias
  row's entry q, takes the positive part, and keeps the result only where the row's global number 1024·i + p is below 10000
  (the comparison is made on 32-bit words; both sides stay far below 2³¹, so it is the comparison of the numbers).
-/
import proofs.«133914_j16801912062630_2_alg».proof.Proof.R1Frame
import proofs.«133914_j16801912062630_2_alg».proof.Proof.LibMatmulRows
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The product's dimension numbers: axis 1 of the left factor against axis 0 of the right. -/
abbrev D1 := dot_S1024x1024_S1024x128_S1024x128_1_0_0_1_n_n

theorem D1_lhs0 (i : S1024x128.Idx) (q : D1.contr.Idx) : (D1.lhsIdx i q 0).val = (i 0).val := by
  unfold DotDims.lhsIdx
  rw [dif_neg (show ¬(0 : Fin S1024x1024.rank) ∈ D1.lhsBatch by decide), dif_pos (show (0 : Fin S1024x1024.rank) ∈ D1.lhsNonContracting by decide)]
  rfl
theorem D1_rhs1 (i : S1024x128.Idx) (q : D1.contr.Idx) : (D1.rhsIdx i q 1).val = (i 1).val := by
  unfold DotDims.rhsIdx
  rw [dif_neg (show ¬(1 : Fin S1024x128.rank) ∈ D1.rhsBatch by decide), dif_pos (show (1 : Fin S1024x128.rank) ∈ D1.rhsNonContracting by decide)]
  rfl

/-- The zero block at an entry. -/
theorem pay1_1_apply (p : Fin 1024) (q : Fin 128) : k1_pay1 (F := Ideal) (ix2 p q) = (0 : EReal) := by
  unfold k1_pay1
  simp only [shapeCast_self]
  rw [broadcast_apply]
  exact Ideal.ofBits_zero_f32

/-- The step's sum at an entry. -/
theorem pay1_2_apply (acc : Vec Ideal S1024x128 .f32) (a : Vec Ideal S1024x1024 .f32) (h : Vec Ideal S1024x128 .f32)
    (p : Fin 1024) (q : Fin 128) :
    k1_pay2 acc a h (ix2 p q) = acc (ix2 p q) + ∑ j : Fin 1024, a (ix2 p j) * h (ix2 j q) := by
  unfold k1_pay2
  simp only [shapeCast_self]
  rw [addf_apply]
  exact congrArg (fun z => acc (ix2 p q) + z)
    (MatmulRows.matmul_zero_apply (φ₁ := .f32) (φ₂ := .f32) D1 none rfl rfl rfl rfl D1_lhs0 D1_rhs1 a h (ix2 p q))

/-- The row test on words is the test on numbers: 1024·a + p with a below 10 and p below 1024 does not wrap. -/
theorem rowTest1 (a : Fin 10) (p : Fin 1024) :
    IntOp.cmpi .slt (IntOp.addi (Scalar.muli (BitVec.ofNat 32 a.val) 1024#32) (BitVec.ofNat 32 p.val)) 10000#32 = 1#1
      ↔ 1024 * a.val + p.val < 10000 := by
  rw [IntOp.cmpi_slt]
  show (BitVec.ofNat 32 a.val * 1024#32 + BitVec.ofNat 32 p.val).toInt < (10000#32 : BitVec 32).toInt ↔ _
  rw [show (10000#32 : BitVec 32).toInt = 10000 from by decide]
  have ha := a.isLt
  have hp := p.isLt
  have e : (BitVec.ofNat 32 a.val * 1024#32 + BitVec.ofNat 32 p.val).toNat = 1024 * a.val + p.val := by
    simp only [BitVec.toNat_add, BitVec.toNat_mul, BitVec.toNat_ofNat]
    omega
  rw [BitVec.toInt_eq_toNat_cond, e]
  split_ifs <;> omega

/-- A select on a one-bit word that says a proposition is the if on the proposition. -/
theorem select_if1 {α : Type} (w : BitVec 1) (P : Prop) [Decidable P] (hw : w = 1#1 ↔ P) (a b a' b' : α) (ha : a = a')
    (hb : b = b') : Scalar.select w a b = if P then a' else b' := by
  subst ha hb
  unfold Scalar.select
  exact if_congr hw rfl rfl

/-- The finishing arithmetic at an entry. -/
theorem pay1_3_apply (i : grid1.Coords) (acc : Vec Ideal S1024x128 .f32) (b : Vec Ideal S1x128 .f32)
    (p : Fin 1024) (q : Fin 128) :
    k1_pay3 i acc b (ix2 p q)
      = if 1024 * (i 0).val + p.val < 10000 then max (acc (ix2 p q) + b (ix2 0 q)) 0 else 0 := by
  unfold k1_pay3
  simp only [shapeCast_self]
  rw [select_apply]
  have hb : broadcastTo S1024x128 b broadcasts_S1x128_S1024x128 (ix2 p q) = b (ix2 0 q) :=
    broadcastTo_apply b broadcasts_S1x128_S1024x128 (ix2 p q) (ix2 0 q) (fun a => by
      match a with
      | ⟨0, _⟩ => rfl
      | ⟨1, _⟩ => rfl)
  refine select_if1 _ _ ?_ _ _ _ _ ?_ ?_
  · show IntOp.cmpi .slt (IntOp.addi _ (iota .tc S1024x128 32 [0] iota_S1024x128_d0_w32 (ix2 p q))) _ = 1#1 ↔ _
    rw [iota_single_apply]
    exact rowTest1 (i 0) p
  · rw [maximumf_apply, addf_apply, hb, broadcast_apply]
    exact congrArg (max (acc (ix2 p q) + b (ix2 0 q))) Ideal.ofBits_zero_f32
  · rw [broadcast_apply]
    exact Ideal.ofBits_zero_f32

end Cert.KernelIdeal.Hand

end
-- ==== Proof.GcnBlocks.lean ====
/-
  A sum over 10240 indices taken in ten consecutive blocks of 1024.

  In a commutative additive monoid the order and grouping of a finite sum do not matter: the index s below 10240 is
  1024·k + j for exactly one pair of k below 10 and j below 1024, so the sum over s is the sum over k of the sums over j.
  An accumulator that starts at zero and adds the k-th block's sum at step k therefore holds, after ten steps, the whole
  sum.  Nothing here needs the terms to be finite.
-/
import proofs.«133914_j16801912062630_2_alg».proof.Proof.GcnSpec

noncomputable section

namespace Cert.Gcn

open Finset

/-- The sum over J·B indices is the sum over the J blocks of the sums over the B places of a block. -/
theorem sum_blocks {M : Type*} [AddCommMonoid M] (J B : ℕ) (f : Fin (J * B) → M) :
    ∑ k : Fin J, ∑ j : Fin B, f (finProdFinEquiv (k, j)) = ∑ s : Fin (J * B), f s := by
  rw [← Fintype.sum_prod_type' (f := fun k j => f (finProdFinEquiv (k, j)))]
  exact Fintype.sum_equiv finProdFinEquiv _ _ fun _ => rfl

/-- Ten blocks of 1024. -/
theorem blocks10 {M : Type*} [AddCommMonoid M] (f : Fin 10240 → M) :
    ∑ k : Fin 10, ∑ j : Fin 1024, f ⟨1024 * k.val + j.val, by omega⟩ = ∑ s : Fin 10240, f s := by
  have h := sum_blocks 10 1024 f
  rw [← h]
  refine Finset.sum_congr rfl fun k _ => Finset.sum_congr rfl fun j _ => ?_
  refine congrArg f (Fin.ext ?_)
  show 1024 * k.val + j.val = j.val + 1024 * k.val
  omega

/-- The k-th block's sum, for any natural k (zero past the tenth block). -/
def blockSum (f : Fin 10240 → EReal) (k : ℕ) : EReal :=
  if h : k < 10 then ∑ j : Fin 1024, f ⟨1024 * k + j.val, by omega⟩ else 0

/-- The accumulator after n steps: zero, then one block's sum added per step. -/
def accUpTo (f : Fin 10240 → EReal) : ℕ → EReal
  | 0 => 0
  | n + 1 => accUpTo f n + blockSum f n

theorem accUpTo_zero (f : Fin 10240 → EReal) : accUpTo f 0 = 0 := rfl

theorem accUpTo_succ (f : Fin 10240 → EReal) (n : ℕ) : accUpTo f (n + 1) = accUpTo f n + blockSum f n := rfl

theorem blockSum_lt (f : Fin 10240 → EReal) (k : ℕ) (h : k < 10) :
    blockSum f k = ∑ j : Fin 1024, f ⟨1024 * k + j.val, by omega⟩ := dif_pos h

theorem accUpTo_eq_sum_range (f : Fin 10240 → EReal) (n : ℕ) : accUpTo f n = ∑ k ∈ Finset.range n, blockSum f k := by
  induction n with
  | zero => rfl
  | succ n ih => rw [accUpTo_succ, ih, Finset.sum_range_succ]

/-- After the ten steps the accumulator holds the whole sum. -/
theorem accUpTo_ten (f : Fin 10240 → EReal) : accUpTo f 10 = ∑ s : Fin 10240, f s := by
  rw [accUpTo_eq_sum_range, ← Fin.sum_univ_eq_sum_range (fun k => blockSum f k) 10, ← blocks10 f]
  exact Finset.sum_congr rfl fun k _ => blockSum_lt f k.val k.isLt

end Cert.Gcn

end
-- ==== Proof.R1ValueC.lean ====
/-
  Region 1: the accumulator after every grid point, and the output block after a last step.

  Point t = 10·i + k works on row block i of the weight matrix and of the result and on block k of the contraction
  axis: its weight block holds rows 1024·i + p and columns 1024·k + j, its feature block rows 1024·k + j.  So the step's
  product at (p, q) is the k-th block of the sum over s of A(1024·i + p, s) · H(s, q), and by induction on the point the
  accumulator after point t holds the first k + 1 blocks of that sum; after a last step (k = 9) that is the whole sum.
-/
import proofs.«133914_j16801912062630_2_alg».proof.Proof.R1ValueA
import proofs.«133914_j16801912062630_2_alg».proof.Proof.R1ValueB
import proofs.«133914_j16801912062630_2_alg».proof.Proof.GcnBlocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- Where the blocks sit, decided over the grid: at point t the weight block is (t / 10, t % 10), the feature block
    (t % 10, 0), the bias block (0, 0), the result block (t / 10, 0); the point's first coordinate is t / 10. -/
theorem idx_facts1 : ∀ t : Fin cfg1.N,
    win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = 0 ∧ win1_2.index t (1 : Fin 2) = 0
    ∧ win1_3.index t (0 : Fin 2) = t.val / 10 ∧ win1_3.index t (1 : Fin 2) = 0
    ∧ ((grid1.coords t) 0).val = t.val / 10 :=
  (by decide +kernel : ∀ t : Fin grid1.N, _)

/-- The weight block read where the rectangle says. -/
theorem blk1_0 (c : Dev nD) (t : Fin cfg1.N) (p j : Fin 1024) (r s : Fin 10240)
    (hr : r.val = 1024 * (t.val / 10) + p.val) (hs : s.val = 1024 * (t.val % 10) + j.val) :
    iblk1 V c 0 t (ix2 p j) = V c main_v44 (ix2 r s) := by
  obtain ⟨e00, e01, -⟩ := idx_facts1 t
  show V c main_v44 (((cfg1.win 0).blk t).view.emb (ix2 p j)) = _
  refine congrArg (V c main_v44) (funext fun a => Fin.ext ?_)
  match a with
  | ⟨0, _⟩ => show win1_0.index t (0 : Fin 2) * 1024 + 1 * p.val = r.val; rw [e00, hr]; omega
  | ⟨1, _⟩ => show win1_0.index t (1 : Fin 2) * 1024 + 1 * j.val = s.val; rw [e01, hs]; omega

/-- The feature block read where the rectangle says. -/
theorem blk1_1 (c : Dev nD) (t : Fin cfg1.N) (j : Fin 1024) (q : Fin 128) (s : Fin 10240)
    (hs : s.val = 1024 * (t.val % 10) + j.val) :
    iblk1 V c 1 t (ix2 j q) = V c main_v50 (ix2 s q) := by
  obtain ⟨-, -, e10, e11, -⟩ := idx_facts1 t
  show V c main_v50 (((cfg1.win 1).blk t).view.emb (ix2 j q)) = _
  refine congrArg (V c main_v50) (funext fun a => Fin.ext ?_)
  match a with
  | ⟨0, _⟩ => show win1_1.index t (0 : Fin 2) * 1024 + 1 * j.val = s.val; rw [e10, hs]; omega
  | ⟨1, _⟩ => show win1_1.index t (1 : Fin 2) * 128 + 1 * q.val = q.val; rw [e11]; omega

/-- The bias block is the bias row. -/
theorem blk1_2 (c : Dev nD) (t : Fin cfg1.N) (q : Fin 128) :
    iblk1 V c 2 t (ix2 0 q) = V c main_v46 (ix2 0 q) := by
  obtain ⟨-, -, -, -, e20, e21, -⟩ := idx_facts1 t
  show V c main_v46 (((cfg1.win 2).blk t).view.emb (ix2 0 q)) = _
  refine congrArg (V c main_v46) (funext fun a => Fin.ext ?_)
  match a with
  | ⟨0, _⟩ => show win1_2.index t (0 : Fin 2) * 1 + 1 * 0 = 0; rw [e20]
  | ⟨1, _⟩ => show win1_2.index t (1 : Fin 2) * 128 + 1 * q.val = q.val; rw [e21]; omega

/-- The terms of row r, column q of the product of two arrays. -/
def term1 (A : S10240x10240.Idx → EReal) (H : S10240x128.Idx → EReal) (r : Fin 10240) (q : Fin 128) : Fin 10240 → EReal :=
  fun s => A (ix2 r s) * H (ix2 s q)

/-- The step's product at (p, q) is the step's block of the row's sum. -/
theorem step1 (c : Dev nD) (t : Fin cfg1.N) (p : Fin 1024) (q : Fin 128) (r : Fin 10240)
    (hr : r.val = 1024 * (t.val / 10) + p.val) (x0 : Vec Ideal S1024x1024 .f32) (x1 : Vec Ideal S1024x128 .f32)
    (h0 : x0 = iblk1 V c 0 t) (h1 : x1 = iblk1 V c 1 t) :
    ∑ j : Fin 1024, x0 (ix2 p j) * x1 (ix2 j q)
      = Cert.Gcn.blockSum (term1 (V c main_v44) (V c main_v50) r q) (t.val % 10) := by
  subst h0 h1
  have hk : t.val % 10 < 10 := Nat.mod_lt _ (by decide)
  rw [Cert.Gcn.blockSum_lt _ _ hk]
  refine Finset.sum_congr rfl fun j _ => ?_
  have hj := j.isLt
  exact congrArg₂ (fun (a b : EReal) => a * b)
    (blk1_0 V c t p j r ⟨1024 * (t.val % 10) + j.val, by omega⟩ hr rfl)
    (blk1_1 V c t j q ⟨1024 * (t.val % 10) + j.val, by omega⟩ rfl)

/-- After a first step the accumulator holds the first block of the row's sum. -/
theorem acc1_A (c : Dev nD) (t : Fin cfg1.N) (h0 : t.val % 10 = 0) (p : Fin 1024) (q : Fin 128) (r : Fin 10240)
    (hr : r.val = 1024 * (t.val / 10) + p.val) :
    (outsAt1 V c t.val t.isLt).2 (ix2 p q) = Cert.Gcn.accUpTo (term1 (V c main_v44) (V c main_v50) r q) (t.val % 10 + 1) := by
  have h1 : ¬t.val % 10 = 9 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) (ix2 p q)).trans ?_
  refine (pay1_2_apply (k1_pay1 (F := Ideal)) (iblk1 V c 0 t) (iblk1 V c 1 t) p q).trans ?_
  refine (congrArg₂ (fun (a b : EReal) => a + b) (pay1_1_apply p q)
    (step1 V c t p q r hr (iblk1 V c 0 t) (iblk1 V c 1 t) rfl rfl)).trans ?_
  rw [h0]
  rfl

/-- After a later step the accumulator holds one more block of the row's sum than before it. -/
theorem acc1_BC (c : Dev nD) (t : Fin cfg1.N) (h0 : ¬t.val % 10 = 0) (p : Fin 1024) (q : Fin 128) (r : Fin 10240)
    (hr : r.val = 1024 * (t.val / 10) + p.val)
    (prev : (outsAt1 V c (t.val - 1) (Nat.lt_of_le_of_lt (Nat.sub_le _ _) t.isLt)).2 (ix2 p q)
      = Cert.Gcn.accUpTo (term1 (V c main_v44) (V c main_v50) r q) (t.val % 10)) :
    (outsAt1 V c t.val t.isLt).2 (ix2 p q) = Cert.Gcn.accUpTo (term1 (V c main_v44) (V c main_v50) r q) (t.val % 10 + 1) := by
  by_cases h1 : t.val % 10 = 9
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p q)).trans ?_
    refine (pay1_2_apply (outsAt1 V c (t.val - 1) (Nat.lt_of_le_of_lt (Nat.sub_le _ _) t.isLt)).2 (iblk1 V c 0 t) (iblk1 V c 1 t) p q).trans ?_
    exact congrArg₂ (fun (a b : EReal) => a + b) prev
      (step1 V c t p q r hr (iblk1 V c 0 t) (iblk1 V c 1 t) rfl rfl)
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) (ix2 p q)).trans ?_
    refine (pay1_2_apply (outsAt1 V c (t.val - 1) (Nat.lt_of_le_of_lt (Nat.sub_le _ _) t.isLt)).2 (iblk1 V c 0 t) (iblk1 V c 1 t) p q).trans ?_
    exact congrArg₂ (fun (a b : EReal) => a + b) prev
      (step1 V c t p q r hr (iblk1 V c 0 t) (iblk1 V c 1 t) rfl rfl)

/-- The accumulator after point t = 10·i + k, at (p, q): the first k + 1 blocks of the sum of row 1024·i + p. -/
theorem acc1 (c : Dev nD) : ∀ (n : ℕ) (t : Fin cfg1.N), t.val = n → ∀ (p : Fin 1024) (q : Fin 128) (r : Fin 10240),
    r.val = 1024 * (t.val / 10) + p.val →
    (outsAt1 V c t.val t.isLt).2 (ix2 p q) = Cert.Gcn.accUpTo (term1 (V c main_v44) (V c main_v50) r q) (t.val % 10 + 1) := by
  intro n
  induction n with
  | zero =>
    intro t ht p q r hr
    exact acc1_A V c t (by rw [ht]) p q r hr
  | succ n ih =>
    intro t ht p q r hr
    by_cases h0 : t.val % 10 = 0
    · exact acc1_A V c t h0 p q r hr
    · refine acc1_BC V c t h0 p q r hr ?_
      have hlt : t.val - 1 < cfg1.N := Nat.lt_of_le_of_lt (Nat.sub_le _ _) t.isLt
      have e := ih ⟨t.val - 1, hlt⟩ (by show t.val - 1 = n; omega) p q r (by show r.val = 1024 * ((t.val - 1) / 10) + p.val; omega)
      have hk : (t.val - 1) % 10 + 1 = t.val % 10 := by omega
      rw [show ((⟨t.val - 1, hlt⟩ : Fin cfg1.N).val % 10 + 1) = t.val % 10 from hk] at e
      exact e

end Cert.KernelIdeal.Hand

end
-- ==== Proof.R1Value.lean ====
/-
  Region 1: the result array after the region, entry by entry.

  After a last step the accumulator holds the whole sum of its row, and the output block holds, at (p, q), the sum
  plus the bias entry, its positive part taken, kept only where the row's global number is below 10000.  The result's block
  at point t = 10·i + 9 is row block i; these ten blocks tile the result array (row r lies in block r / 1024), so the
  array ends holding one function of the three arrays the region reads.
-/
import proofs.«133914_j16801912062630_2_alg».proof.Proof.R1ValueC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The layer as one function of three arrays: the dense matrix, the features, the bias row. -/
def G1 (A : S10240x10240.Idx → EReal) (H : S10240x128.Idx → EReal) (B : S1x128.Idx → EReal) : S10240x128.Idx → EReal :=
  fun i => if (i 0).val < 10000 then max ((∑ s : Fin 10240, A (ix2 (i 0) s) * H (ix2 s (i 1))) + B (ix2 0 (i 1))) 0 else 0

theorem G1_apply (A : S10240x10240.Idx → EReal) (H : S10240x128.Idx → EReal) (B : S1x128.Idx → EReal) (r : Fin 10240) (q : Fin 128) :
    G1 A H B (ix2 r q) = if r.val < 10000 then max ((∑ s : Fin 10240, term1 A H r q s) + B (ix2 0 q)) 0 else 0 := rfl

/-- Two such conditionals agree when their conditions and their parts do. -/
theorem fin_congr1 {P Q : Prop} [Decidable P] [Decidable Q] (hPQ : P ↔ Q) {a a' b b' : EReal} (ha : a = a') (hb : b = b') :
    (if P then max (a + b) 0 else 0) = if Q then max (a' + b') 0 else 0 := by
  subst ha hb
  exact if_congr hPQ rfl rfl

variable (V : (c : Dev nD) → (b : Ref sig .tc) → Buf (Elt Ideal) ((c : Thread nD τ).loc b))

/-- After a last step the step's sum is the whole sum of the row. -/
theorem last_sum1 (c : Dev nD) (t : Fin cfg1.N) (h1 : t.val % 10 = 9) (p : Fin 1024) (q : Fin 128) (r : Fin 10240)
    (hr : r.val = 1024 * (t.val / 10) + p.val) :
    k1_pay2 (outsAt1 V c (t.val - 1) (Nat.lt_of_le_of_lt (Nat.sub_le _ _) t.isLt)).2 (iblk1 V c 0 t) (iblk1 V c 1 t) (ix2 p q)
      = ∑ s : Fin 10240, term1 (V c main_v44) (V c main_v50) r q s := by
  have hlt : t.val - 1 < cfg1.N := Nat.lt_of_le_of_lt (Nat.sub_le _ _) t.isLt
  have prev := acc1 V c (t.val - 1) ⟨t.val - 1, hlt⟩ rfl p q r (by show r.val = 1024 * ((t.val - 1) / 10) + p.val; omega)
  refine (pay1_2_apply (outsAt1 V c (t.val - 1) hlt).2 (iblk1 V c 0 t) (iblk1 V c 1 t) p q).trans ?_
  refine (congrArg₂ (fun (a b : EReal) => a + b) prev
    (step1 V c t p q r hr (iblk1 V c 0 t) (iblk1 V c 1 t) rfl rfl)).trans ?_
  rw [show (⟨t.val - 1, hlt⟩ : Fin cfg1.N).val % 10 + 1 = 9 from by show (t.val - 1) % 10 + 1 = 9; omega, h1]
  exact (Cert.Gcn.accUpTo_succ _ 9).symm.trans (Cert.Gcn.accUpTo_ten _)

/-- What a last step leaves in the output block, entry by entry. -/
theorem out1_last (c : Dev nD) (t : Fin cfg1.N) (h1 : t.val % 10 = 9) (p : Fin 1024) (q : Fin 128) (r : Fin 10240)
    (hr : r.val = 1024 * (t.val / 10) + p.val) :
    (outsAt1 V c t.val t.isLt).1 (ix2 p q) = G1 (V c main_v44) (V c main_v50) (V c main_v46) (ix2 r q) := by
  have h0 : ¬t.val % 10 = 0 := by omega
  obtain ⟨-, -, -, -, -, -, -, -, ec⟩ := idx_facts1 t
  rw [outsAt1_C V c t h0 h1]
  dsimp only
  refine (congrFun (out1_C_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p q)).trans ?_
  refine (pay1_3_apply (grid1.coords t) (k1_pay2 (outsAt1 V c (t.val - 1) (Nat.lt_of_le_of_lt (Nat.sub_le _ _) t.isLt)).2 (iblk1 V c 0 t) (iblk1 V c 1 t)) (iblk1 V c 2 t) p q).trans ?_
  refine Eq.trans ?_ (G1_apply (V c main_v44) (V c main_v50) (V c main_v46) r q).symm
  exact fin_congr1 (by rw [ec, hr]) (last_sum1 V c t h1 p q r hr) (blk1_2 V c t q)

/-- What a last step writes back is its block of the layer's function of the arrays as the region finds them. -/
theorem flushed1_eq (c : Dev nD) (t : Fin cfg1.N) (hf : (cfg1.win 3).flush t = true) :
    (dat1 (F := Ideal) V c).flushed 3 t
      = ((cfg1.win 3).blk t).view.read (Elt Ideal) (G1 (V c main_v44) (V c main_v50) (V c main_v46)) := by
  have h1 : t.val % 10 = 9 := (flush1_3 t).mp hf
  show (cfg1.win 3).cut (grid1.coords t) ((dat1 V c).after 3 t) = _
  rw [after1_3]
  obtain ⟨-, -, -, -, -, -, e30, e31, -⟩ := idx_facts1 t
  have ht : t.val < 100 := lt_of_lt_of_eq t.isLt N_1
  funext j
  obtain ⟨p, q, rfl⟩ : ∃ (p : Fin 1024) (q : Fin 128), j = ix2 p q := ⟨j 0, j 1, eq_ix2 j⟩
  have hp := p.isLt
  refine (out1_last V c t h1 p q ⟨1024 * (t.val / 10) + p.val, by omega⟩ rfl).trans ?_
  show _ = G1 (V c main_v44) (V c main_v50) (V c main_v46) (((cfg1.win 3).blk t).view.emb (ix2 p q))
  refine congrArg (G1 (V c main_v44) (V c main_v50) (V c main_v46)) (funext fun a => Fin.ext ?_)
  match a with
  | ⟨0, _⟩ => show 1024 * (t.val / 10) + p.val = win1_3.index t (0 : Fin 2) * 1024 + 1 * p.val; rw [e30]; omega
  | ⟨1, _⟩ => show q.val = win1_3.index t (1 : Fin 2) * 128 + 1 * q.val; rw [e31]; omega

/-- An index of the result array is in point t's block iff each coordinate is in the block's range. -/
theorem mem_blk1 (t : Fin cfg1.N) (i : S10240x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v51).slice (win1_3.rect t)).set ↔ _
  rw [View.set_slice_whole, Rect.mem_set_unit]
  exact Iff.rfl

/-- Row r of the result lies in the block of the last step of row block r / 1024, which writes it back. -/
theorem cover1 (i : S10240x128.Idx) : ∃ t : Fin cfg1.N, (cfg1.win 3).flush t = true ∧ i ∈ ((cfg1.win 3).blk t).view.set := by
  have hi0 : (i 0).val < 10240 := idx2_lt0 i
  have hi1 : (i 1).val < 128 := idx2_lt1 i
  have hN : grid1.N = 100 := N_1
  obtain ⟨t, ht⟩ : ∃ t : Fin cfg1.N, t.val = 10 * ((i 0).val / 1024) + 9 :=
    ⟨⟨10 * ((i 0).val / 1024) + 9, by show _ < grid1.N; omega⟩, rfl⟩
  obtain ⟨-, -, -, -, -, -, e30, e31, -⟩ := idx_facts1 t
  refine ⟨t, (flush1_3 t).mpr (by omega), ?_⟩
  rw [mem_blk1]
  intro a
  match a with
  | ⟨0, _⟩ => show win1_3.index t (0 : Fin 2) * 1024 ≤ (i 0).val ∧ (i 0).val < win1_3.index t (0 : Fin 2) * 1024 + 1024; rw [e30, ht]; omega
  | ⟨1, _⟩ => show win1_3.index t (1 : Fin 2) * 128 ≤ (i 1).val ∧ (i 1).val < win1_3.index t (1 : Fin 2) * 128 + 128; rw [e31]; omega

/-- So the result array ends holding the layer's function of the three arrays. -/
theorem final1 (c : Dev nD) :
    (dat1 (F := Ideal) V c).arrAt 3 cfg1.N = G1 (V c main_v44) (V c main_v50) (V c main_v46) :=
  (dat1 (F := Ideal) V c).arrAt_eq_of_cover 3 (G1 (V c main_v44) (V c main_v50) (V c main_v46)) (fun t hf => flushed1_eq V c t hf) cover1

/-- The result array after the region, entry by entry, over named arrays. -/
theorem value1 (c : Dev nD) (A : S10240x10240.Idx → EReal) (H : S10240x128.Idx → EReal) (B : S1x128.Idx → EReal)
    (hA : V c main_v44 = A) (hH : V c main_v50 = H) (hB : V c main_v46 = B) (r : Fin 10240) (q : Fin 128) :
    (dat1 (F := Ideal) V c).arrAt 3 cfg1.N (ix2 r q)
      = if r.val < 10000 then max ((∑ s : Fin 10240, A (ix2 r s) * H (ix2 s q)) + B (ix2 0 q)) 0 else 0 := by
  subst hA hH hB
  rw [final1]
  rfl

end Cert.KernelIdeal.Hand

end
-- ==== Proof.R2Value.lean ====
/- The value of the second dense product, h2 = h · W2pad, on the extended reals: after the region's
   five grid points the result array holds, at row r and column q, the sum over k of
   h(r, k) · W2pad(k, q). Three steps. (1) What the body's stores leave in the output block is the
   body's arithmetic applied to the two input blocks: the zero block plus their product. (2) At the
   ideal instance that is, entry by entry, the plain sum over the 128 contraction positions.
   (3) Grid point t handles rows 2048·t … 2048·t + 2047 of the left factor and of the result and the
   whole right factor, so each written-back block is the matching block of one function of the two
   arrays; the five blocks tile the result array, row r lying in block r / 2048. -/
import proofs.«133914_j16801912062630_2_alg».proof.Proof.R2Frame
import proofs.«133914_j16801912062630_2_alg».proof.Proof.LibMatmulRows
import Idealize.ShloMosaic.Lib.Pipeline.Value
import Idealize.ShloMosaic.Lib.Tactic

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

theorem hz2 : (![0, 0] : Fin 2 → Nat) = fun _ => 0 := funext fun a => by fin_cases a <;> rfl

/-! ## What the body's stores leave in the output block -/

section AnyInstance
variable {F : FTy → Type} [FloatOps F]

/-- The output block ends at the accumulator's last contents: the zero block, read back, plus the
    product of the two input blocks. -/
theorem out2_2_eq (c : Dev nD) (i : grid2.Coords) (arg2 : Memref sig .tc .vmem S2048x128 .f32) (harg2 : arg2.IsWhole) (arg3 : Memref sig .tc .vmem S128x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : cond2_1 i)
    (x0 : Vec F S2048x128 .f32) (x1 : Vec F S128x128 .f32) :
    out2_2 c i arg2 harg2 arg3 harg3 arg4 harg4 arg5 harg5 hc0 hc1 x0 x1 = k2_pay2 (k2_pay1 (F := F)) x0 x1 := by
  unfold out2_2
  rw [View.read_writes_eq_canon _ _ _ (cover2_2 c i arg2 harg2 arg3 harg3 arg4 harg4 arg5 harg5 hc0 hc1 x0 x1)]
  unfold kernelRun2
  dsimp only
  try sl_unfold_words
  rw [View.canon_unit_zero hz2]
  rw [View.readCov_cons_toLoadRect, View.readCov_cons_toLoadRect]
  simp only [View.readAt_eq_ld, harg2.read_unread, harg3.read_unread, View.ld_unit_zero (S := S2048x128) hz2, View.ld_unit_zero (S := S128x128) hz2]

end AnyInstance

/-! ## The body's arithmetic at an entry, on the extended reals -/

/-- The product's dimension numbers: axis 1 of the left factor against axis 0 of the right. -/
abbrev D2 := dot_S2048x128_S128x128_S2048x128_1_0_0_1_n_n

theorem D2_lhs0 (i : S2048x128.Idx) (q : D2.contr.Idx) : (D2.lhsIdx i q 0).val = (i 0).val := by
  unfold DotDims.lhsIdx
  rw [dif_neg (show ¬(0 : Fin S2048x128.rank) ∈ D2.lhsBatch by decide), dif_pos (show (0 : Fin S2048x128.rank) ∈ D2.lhsNonContracting by decide)]
  rfl
theorem D2_rhs1 (i : S2048x128.Idx) (q : D2.contr.Idx) : (D2.rhsIdx i q 1).val = (i 1).val := by
  unfold DotDims.rhsIdx
  rw [dif_neg (show ¬(1 : Fin S128x128.rank) ∈ D2.rhsBatch by decide), dif_pos (show (1 : Fin S128x128.rank) ∈ D2.rhsNonContracting by decide)]
  rfl

/-- Entry (p, q) of the zero block plus the blocks' product: the sum over the contraction axis. -/
theorem pay2_apply (x0 : Vec Ideal S2048x128 .f32) (x1 : Vec Ideal S128x128 .f32) (p : Fin 2048) (q : Fin 128) :
    k2_pay2 (k2_pay1 (F := Ideal)) x0 x1 (ix2 p q) = ∑ k : Fin 128, x0 (ix2 p k) * x1 (ix2 k q) := by
  unfold k2_pay2 k2_pay1
  simp only [shapeCast_self]
  rw [addf_apply]
  have h1 : broadcast S2048x128 (Scalar.ofBits (F := Ideal) .f32 0x00000000#32) (ix2 p q) = (0 : EReal) := by
    rw [broadcast_apply]; exact Ideal.ofBits_zero_f32
  have h2 := MatmulRows.matmul_zero_apply (φ₁ := .f32) (φ₂ := .f32) D2 none rfl rfl rfl rfl D2_lhs0 D2_rhs1 x0 x1 (ix2 p q)
  refine (congrArg₂ (· + ·) h1 h2).trans ?_
  rw [zero_add]

/-! ## From blocks to the array -/

/-- The product of two whole arrays, entry by entry. -/
def G2 (a : S10240x128.Idx → EReal) (b : S128x128.Idx → EReal) : S10240x128.Idx → EReal :=
  fun i => ∑ k : Fin 128, a (ix2 (i 0) k) * b (ix2 k (i 1))

/-- Where the blocks sit, decided over the grid: at point t the left factor's block and the result's block
    are row block t, column block 0; the right factor's block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Blocks
variable (V : (c : Dev nD) → (b : Ref sig .tc) → Buf (Elt Ideal) ((c : Thread nD τ).loc b))

/-- What point t writes back is block t of the product of the two arrays as the region finds them. -/
theorem flushed2_eq (c : Dev nD) (t : Fin cfg2.N) :
    (dat2 (F := Ideal) V c).flushed 2 t = ((cfg2.win 2).blk t).view.read (Elt Ideal) (G2 (V c main_v51) (V c main_v47)) := by
  show (cfg2.win 2).cut (grid2.coords t) ((dat2 V c).after 2 t) = _
  rw [after2_2, out2_2_eq]
  obtain ⟨e00, e01, e10, e11, e20, e21⟩ := idx_facts2 t
  funext j
  obtain ⟨p, q, rfl⟩ : ∃ (p : Fin 2048) (q : Fin 128), j = ix2 p q := ⟨j 0, j 1, eq_ix2 j⟩
  refine (pay2_apply (iblk2 V c 0 t) (iblk2 V c 1 t) p q).trans ?_
  show _ = G2 (V c main_v51) (V c main_v47) (((cfg2.win 2).blk t).view.emb (ix2 p q))
  unfold G2
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 2048 + 1 * p.val = win2_2.index t (0 : Fin 2) * 2048 + 1 * p.val; rw [e00, e20]
    | ⟨1, _⟩ => show win2_0.index t (1 : Fin 2) * 128 + 1 * k.val = k.val; rw [e01]; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; rw [e10]; omega
    | ⟨1, _⟩ => show win2_1.index t (1 : Fin 2) * 128 + 1 * q.val = win2_2.index t (1 : Fin 2) * 128 + 1 * q.val; rw [e11, e21]
  have key : ∀ (a : S10240x128.Idx → EReal) (b : S128x128.Idx → EReal),
      a (((cfg2.win 0).blk t).view.emb (ix2 p k)) * b (((cfg2.win 1).blk t).view.emb (ix2 k q))
        = a (ix2 ((((cfg2.win 2).blk t).view.emb (ix2 p q)) 0) k) * b (ix2 k ((((cfg2.win 2).blk t).view.emb (ix2 p q)) 1)) :=
    fun a b => congrArg₂ (fun (x : S10240x128.Idx) (y : S128x128.Idx) => a x * b y) h0 h1
  exact key (V c main_v51) (V c main_v47)

/-- An index of the result array is in point t's block iff each coordinate is in the block's range. -/
theorem mem_blk2 (t : Fin cfg2.N) (i : S10240x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v52).slice (win2_2.rect t)).set ↔ _
  rw [View.set_slice_whole, Rect.mem_set_unit]
  exact Iff.rfl

/-- Row r of the result lies in the block of point r / 2048, and every point writes its block back. -/
theorem cover2 (i : S10240x128.Idx) : ∃ t : Fin cfg2.N, (cfg2.win 2).flush t = true ∧ i ∈ ((cfg2.win 2).blk t).view.set := by
  have hi0 : (i 0).val < 10240 := idx2_lt0 i
  have hi1 : (i 1).val < 128 := idx2_lt1 i
  have hN : grid2.N = 5 := N_2
  obtain ⟨t, ht⟩ : ∃ t : Fin cfg2.N, t.val = (i 0).val / 2048 := ⟨⟨(i 0).val / 2048, by show _ < grid2.N; omega⟩, rfl⟩
  obtain ⟨-, -, -, -, e20, e21⟩ := idx_facts2 t
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; rw [e20, ht]; omega
  | ⟨1, _⟩ => show win2_2.index t (1 : Fin 2) * 128 ≤ (i 1).val ∧ (i 1).val < win2_2.index t (1 : Fin 2) * 128 + 128; rw [e21]; omega

/-- So the result array ends holding the product of the two arrays. -/
theorem final2 (c : Dev nD) : (dat2 (F := Ideal) V c).arrAt 2 cfg2.N = G2 (V c main_v51) (V c main_v47) :=
  (dat2 (F := Ideal) V c).arrAt_eq_of_cover 2 (G2 (V c main_v51) (V c main_v47)) (fun t _ => flushed2_eq V c t) cover2

/-- The product of two arrays at an entry. -/
theorem G2_apply (a : S10240x128.Idx → EReal) (b : S128x128.Idx → EReal) (r : Fin 10240) (q : Fin 128) :
    G2 a b (ix2 r q) = ∑ k : Fin 128, a (ix2 r k) * b (ix2 k q) := rfl

/-- The result array after the region, entry by entry, the two factor arrays named. -/
theorem value2 (c : Dev nD) (a : S10240x128.Idx → EReal) (b : S128x128.Idx → EReal)
    (ha : V c main_v51 = a) (hb : V c main_v47 = b) (r : Fin 10240) (q : Fin 128) :
    (dat2 (F := Ideal) V c).arrAt 2 cfg2.N (ValueIdx.ix2 r q) = ∑ k : Fin 128, a (ValueIdx.ix2 r k) * b (ValueIdx.ix2 k q) := by
  rw [final2, ha, hb]; rfl

end Blocks

end Cert.KernelIdeal.Hand

end
-- ==== Proof.R3ValueA.lean ====
/-
  Region 3: what each control case's stores leave, as the body's arithmetic of the blocks it loaded.

  In every case the accumulator ends at the step's sum: the previous accumulator (the zero block at a first step,
  stored and read back) plus the product of the two input blocks.  At a last step the output block ends at the
  finishing arithmetic of that accumulator and the bias row.
-/
import proofs.«133914_j16801912062630_2_alg».proof.Proof.R3Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0] : Fin 2 → Nat) = fun _ => 0 := funext fun a => by fin_cases a <;> rfl

/-- First step: the zero block is stored, read back, and the step's product added. -/
theorem sout3_A_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x1024 .f32) (x1 : Vec F S1024x128 .f32) (x2 : Vec F S1x128 .f32) :
    sout3_A_0 c i arg2 harg2 arg3 harg3 arg4 harg4 arg5 harg5 arg6 harg6 hc0 hc1 x0 x1 x2 = k3_pay2 (k3_pay1 (F := F)) x0 x1 := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  try sl_unfold_words
  rw [View.canon_cons_unit_zero (S := S1024x128) hz3, View.readCov_unit_zero (S := S1024x128) _ hz3]
  simp only [View.readAt_eq_ld, harg2.read_unread, harg3.read_unread,
    View.ld_unit_zero (S := S1024x1024) hz3, View.ld_unit_zero (S := S1024x128) hz3]

/-- Middle step: the step's product is added to the accumulator. -/
theorem sout3_B_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x1024 .f32) (x1 : Vec F S1024x128 .f32) (x2 : Vec F S1x128 .f32) (xs0 : Vec F S1024x128 .f32) :
    sout3_B_0 c i arg2 harg2 arg3 harg3 arg4 harg4 arg5 harg5 arg6 harg6 hc0 hc1 x0 x1 x2 xs0 = k3_pay2 xs0 x0 x1 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  rw [View.canon_unit_zero hz3]
  simp only [View.readAt_eq_ld, harg2.read_unread, harg3.read_unread, harg6.read_unread,
    View.ld_unit_zero (S := S1024x1024) hz3, View.ld_unit_zero (S := S1024x128) hz3]

/-- Last step, the accumulator: as at a middle step. -/
theorem sout3_C_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) :
    sout3_C_0 c i arg2 harg2 arg3 harg3 arg4 harg4 arg5 harg5 arg6 harg6 hc0 hc1 x0 x1 x2 xs0 = k3_pay2 xs0 x0 x1 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  try sl_unfold_words
  rw [View.canon_unit_zero (S := S1024x128) hz3]
  simp only [View.readAt_eq_ld, harg2.read_unread, harg3.read_unread, harg6.read_unread,
    View.ld_unit_zero (S := S1024x1024) hz3, View.ld_unit_zero (S := S1024x128) hz3]

/-- Last step, the output block: the finishing arithmetic of the step's accumulator and the bias row. -/
theorem out3_C_3_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x1024 .f32) (x1 : Vec F S1024x128 .f32) (x2 : Vec F S1x128 .f32) (xs0 : Vec F S1024x128 .f32) :
    out3_C_3 c i arg2 harg2 arg3 harg3 arg4 harg4 arg5 harg5 arg6 harg6 hc0 hc1 x0 x1 x2 xs0 = k3_pay3 i (k3_pay2 xs0 x0 x1) x2 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  try sl_unfold_words
  rw [View.canon_unit_zero (S := S1024x128) hz3, View.readCov_unit_zero (S := S1024x128) _ hz3]
  simp only [View.readAt_eq_ld, harg2.read_unread, harg3.read_unread, harg4.read_unread, harg6.read_unread,
    View.ld_unit_zero (S := S1024x1024) hz3, View.ld_unit_zero (S := S1024x128) hz3, View.ld_unit_zero (S := S1x128) hz3]

end Cert.KernelIdeal.Hand

end
-- ==== Proof.R3ValueB.lean ====
/-
  Region 3: the body's arithmetic at an entry, on the extended reals.

  The zero block is zero everywhere.  The step's sum at (p, q) is the accumulator there plus the sum over the 1024
  contraction positions of the products of the two blocks' entries.  The finishing arithmetic at (p, q) adds the bias
  row's entry q and keeps the result only where the row's global number 1024·i + p is below 10000
  (the comparison is made on 32-bit words; both sides stay far below 2³¹, so it is the comparison of the numbers).
-/
import proofs.«133914_j16801912062630_2_alg».proof.Proof.R3Frame
import proofs.«133914_j16801912062630_2_alg».proof.Proof.LibMatmulRows
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The product's dimension numbers: axis 1 of the left factor against axis 0 of the right. -/
abbrev D3 := dot_S1024x1024_S1024x128_S1024x128_1_0_0_1_n_n

theorem D3_lhs0 (i : S1024x128.Idx) (q : D3.contr.Idx) : (D3.lhsIdx i q 0).val = (i 0).val := by
  unfold DotDims.lhsIdx
  rw [dif_neg (show ¬(0 : Fin S1024x1024.rank) ∈ D3.lhsBatch by decide), dif_pos (show (0 : Fin S1024x1024.rank) ∈ D3.lhsNonContracting by decide)]
  rfl
theorem D3_rhs1 (i : S1024x128.Idx) (q : D3.contr.Idx) : (D3.rhsIdx i q 1).val = (i 1).val := by
  unfold DotDims.rhsIdx
  rw [dif_neg (show ¬(1 : Fin S1024x128.rank) ∈ D3.rhsBatch by decide), dif_pos (show (1 : Fin S1024x128.rank) ∈ D3.rhsNonContracting by decide)]
  rfl

/-- The zero block at an entry. -/
theorem pay3_1_apply (p : Fin 1024) (q : Fin 128) : k3_pay1 (F := Ideal) (ix2 p q) = (0 : EReal) := by
  unfold k3_pay1
  simp only [shapeCast_self]
  rw [broadcast_apply]
  exact Ideal.ofBits_zero_f32

/-- The step's sum at an entry. -/
theorem pay3_2_apply (acc : Vec Ideal S1024x128 .f32) (a : Vec Ideal S1024x1024 .f32) (h : Vec Ideal S1024x128 .f32)
    (p : Fin 1024) (q : Fin 128) :
    k3_pay2 acc a h (ix2 p q) = acc (ix2 p q) + ∑ j : Fin 1024, a (ix2 p j) * h (ix2 j q) := by
  unfold k3_pay2
  simp only [shapeCast_self]
  rw [addf_apply]
  exact congrArg (fun z => acc (ix2 p q) + z)
    (MatmulRows.matmul_zero_apply (φ₁ := .f32) (φ₂ := .f32) D3 none rfl rfl rfl rfl D3_lhs0 D3_rhs1 a h (ix2 p q))

/-- The row test on words is the test on numbers: 1024·a + p with a below 10 and p below 1024 does not wrap. -/
theorem rowTest3 (a : Fin 10) (p : Fin 1024) :
    IntOp.cmpi .slt (IntOp.addi (Scalar.muli (BitVec.ofNat 32 a.val) 1024#32) (BitVec.ofNat 32 p.val)) 10000#32 = 1#1
      ↔ 1024 * a.val + p.val < 10000 := by
  rw [IntOp.cmpi_slt]
  show (BitVec.ofNat 32 a.val * 1024#32 + BitVec.ofNat 32 p.val).toInt < (10000#32 : BitVec 32).toInt ↔ _
  rw [show (10000#32 : BitVec 32).toInt = 10000 from by decide]
  have ha := a.isLt
  have hp := p.isLt
  have e : (BitVec.ofNat 32 a.val * 1024#32 + BitVec.ofNat 32 p.val).toNat = 1024 * a.val + p.val := by
    simp only [BitVec.toNat_add, BitVec.toNat_mul, BitVec.toNat_ofNat]
    omega
  rw [BitVec.toInt_eq_toNat_cond, e]
  split_ifs <;> omega

/-- A select on a one-bit word that says a proposition is the if on the proposition. -/
theorem select_if3 {α : Type} (w : BitVec 1) (P : Prop) [Decidable P] (hw : w = 1#1 ↔ P) (a b a' b' : α) (ha : a = a')
    (hb : b = b') : Scalar.select w a b = if P then a' else b' := by
  subst ha hb
  unfold Scalar.select
  exact if_congr hw rfl rfl

/-- The finishing arithmetic at an entry. -/
theorem pay3_3_apply (i : grid3.Coords) (acc : Vec Ideal S1024x128 .f32) (b : Vec Ideal S1x128 .f32)
    (p : Fin 1024) (q : Fin 128) :
    k3_pay3 i acc b (ix2 p q)
      = if 1024 * (i 0).val + p.val < 10000 then acc (ix2 p q) + b (ix2 0 q) else 0 := by
  unfold k3_pay3
  simp only [shapeCast_self]
  rw [select_apply]
  have hb : broadcastTo S1024x128 b broadcasts_S1x128_S1024x128 (ix2 p q) = b (ix2 0 q) :=
    broadcastTo_apply b broadcasts_S1x128_S1024x128 (ix2 p q) (ix2 0 q) (fun a => by
      match a with
      | ⟨0, _⟩ => rfl
      | ⟨1, _⟩ => rfl)
  refine select_if3 _ _ ?_ _ _ _ _ ?_ ?_
  · show IntOp.cmpi .slt (IntOp.addi _ (iota .tc S1024x128 32 [0] iota_S1024x128_d0_w32 (ix2 p q))) _ = 1#1 ↔ _
    rw [iota_single_apply]
    exact rowTest3 (i 0) p
  · rw [addf_apply, hb]
  · rw [broadcast_apply]
    exact Ideal.ofBits_zero_f32

end Cert.KernelIdeal.Hand

end
-- ==== Proof.R3ValueC.lean ====
/-
  Region 3: the accumulator after every grid point, and the output block after a last step.

  Point t = 10·i + k works on row block i of the weight matrix and of the result and on block k of the contraction
  axis: its weight block holds rows 1024·i + p and columns 1024·k + j, its feature block rows 1024·k + j.  So the step's
  product at (p, q) is the k-th block of the sum over s of A(1024·i + p, s) · H(s, q), and by induction on the point the
  accumulator after point t holds the first k + 1 blocks of that sum; after a last step (k = 9) that is the whole sum.
-/
import proofs.«133914_j16801912062630_2_alg».proof.Proof.R3ValueA
import proofs.«133914_j16801912062630_2_alg».proof.Proof.R3ValueB
import proofs.«133914_j16801912062630_2_alg».proof.Proof.GcnBlocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- Where the blocks sit, decided over the grid: at point t the weight block is (t / 10, t % 10), the feature block
    (t % 10, 0), the bias block (0, 0), the result block (t / 10, 0); the point's first coordinate is t / 10. -/
theorem idx_facts3 : ∀ t : Fin cfg3.N,
    win3_0.index t (0 : Fin 2) = t.val / 10 ∧ win3_0.index t (1 : Fin 2) = t.val % 10
    ∧ win3_1.index t (0 : Fin 2) = t.val % 10 ∧ win3_1.index t (1 : Fin 2) = 0
    ∧ win3_2.index t (0 : Fin 2) = 0 ∧ win3_2.index t (1 : Fin 2) = 0
    ∧ win3_3.index t (0 : Fin 2) = t.val / 10 ∧ win3_3.index t (1 : Fin 2) = 0
    ∧ ((grid3.coords t) 0).val = t.val / 10 :=
  (by decide +kernel : ∀ t : Fin grid3.N, _)

/-- The weight block read where the rectangle says. -/
theorem blk3_0 (c : Dev nD) (t : Fin cfg3.N) (p j : Fin 1024) (r s : Fin 10240)
    (hr : r.val = 1024 * (t.val / 10) + p.val) (hs : s.val = 1024 * (t.val % 10) + j.val) :
    iblk3 V c 0 t (ix2 p j) = V c main_v44 (ix2 r s) := by
  obtain ⟨e00, e01, -⟩ := idx_facts3 t
  show V c main_v44 (((cfg3.win 0).blk t).view.emb (ix2 p j)) = _
  refine congrArg (V c main_v44) (funext fun a => Fin.ext ?_)
  match a with
  | ⟨0, _⟩ => show win3_0.index t (0 : Fin 2) * 1024 + 1 * p.val = r.val; rw [e00, hr]; omega
  | ⟨1, _⟩ => show win3_0.index t (1 : Fin 2) * 1024 + 1 * j.val = s.val; rw [e01, hs]; omega

/-- The feature block read where the rectangle says. -/
theorem blk3_1 (c : Dev nD) (t : Fin cfg3.N) (j : Fin 1024) (q : Fin 128) (s : Fin 10240)
    (hs : s.val = 1024 * (t.val % 10) + j.val) :
    iblk3 V c 1 t (ix2 j q) = V c main_v52 (ix2 s q) := by
  obtain ⟨-, -, e10, e11, -⟩ := idx_facts3 t
  show V c main_v52 (((cfg3.win 1).blk t).view.emb (ix2 j q)) = _
  refine congrArg (V c main_v52) (funext fun a => Fin.ext ?_)
  match a with
  | ⟨0, _⟩ => show win3_1.index t (0 : Fin 2) * 1024 + 1 * j.val = s.val; rw [e10, hs]; omega
  | ⟨1, _⟩ => show win3_1.index t (1 : Fin 2) * 128 + 1 * q.val = q.val; rw [e11]; omega

/-- The bias block is the bias row. -/
theorem blk3_2 (c : Dev nD) (t : Fin cfg3.N) (q : Fin 128) :
    iblk3 V c 2 t (ix2 0 q) = V c main_v49 (ix2 0 q) := by
  obtain ⟨-, -, -, -, e20, e21, -⟩ := idx_facts3 t
  show V c main_v49 (((cfg3.win 2).blk t).view.emb (ix2 0 q)) = _
  refine congrArg (V c main_v49) (funext fun a => Fin.ext ?_)
  match a with
  | ⟨0, _⟩ => show win3_2.index t (0 : Fin 2) * 1 + 1 * 0 = 0; rw [e20]
  | ⟨1, _⟩ => show win3_2.index t (1 : Fin 2) * 128 + 1 * q.val = q.val; rw [e21]; omega

/-- The terms of row r, column q of the product of two arrays. -/
def term3 (A : S10240x10240.Idx → EReal) (H : S10240x128.Idx → EReal) (r : Fin 10240) (q : Fin 128) : Fin 10240 → EReal :=
  fun s => A (ix2 r s) * H (ix2 s q)

/-- The step's product at (p, q) is the step's block of the row's sum. -/
theorem step3 (c : Dev nD) (t : Fin cfg3.N) (p : Fin 1024) (q : Fin 128) (r : Fin 10240)
    (hr : r.val = 1024 * (t.val / 10) + p.val) (x0 : Vec Ideal S1024x1024 .f32) (x1 : Vec Ideal S1024x128 .f32)
    (h0 : x0 = iblk3 V c 0 t) (h1 : x1 = iblk3 V c 1 t) :
    ∑ j : Fin 1024, x0 (ix2 p j) * x1 (ix2 j q)
      = Cert.Gcn.blockSum (term3 (V c main_v44) (V c main_v52) r q) (t.val % 10) := by
  subst h0 h1
  have hk : t.val % 10 < 10 := Nat.mod_lt _ (by decide)
  rw [Cert.Gcn.blockSum_lt _ _ hk]
  refine Finset.sum_congr rfl fun j _ => ?_
  have hj := j.isLt
  exact congrArg₂ (fun (a b : EReal) => a * b)
    (blk3_0 V c t p j r ⟨1024 * (t.val % 10) + j.val, by omega⟩ hr rfl)
    (blk3_1 V c t j q ⟨1024 * (t.val % 10) + j.val, by omega⟩ rfl)

/-- After a first step the accumulator holds the first block of the row's sum. -/
theorem acc3_A (c : Dev nD) (t : Fin cfg3.N) (h0 : t.val % 10 = 0) (p : Fin 1024) (q : Fin 128) (r : Fin 10240)
    (hr : r.val = 1024 * (t.val / 10) + p.val) :
    (outsAt3 V c t.val t.isLt).2 (ix2 p q) = Cert.Gcn.accUpTo (term3 (V c main_v44) (V c main_v52) r q) (t.val % 10 + 1) := by
  have h1 : ¬t.val % 10 = 9 := by omega
  rw [outsAt3_A V c t h0 h1]
  dsimp only
  refine (congrFun (sout3_A_0_eq (F := Ideal) c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) (ix2 p q)).trans ?_
  refine (pay3_2_apply (k3_pay1 (F := Ideal)) (iblk3 V c 0 t) (iblk3 V c 1 t) p q).trans ?_
  refine (congrArg₂ (fun (a b : EReal) => a + b) (pay3_1_apply p q)
    (step3 V c t p q r hr (iblk3 V c 0 t) (iblk3 V c 1 t) rfl rfl)).trans ?_
  rw [h0]
  rfl

/-- After a later step the accumulator holds one more block of the row's sum than before it. -/
theorem acc3_BC (c : Dev nD) (t : Fin cfg3.N) (h0 : ¬t.val % 10 = 0) (p : Fin 1024) (q : Fin 128) (r : Fin 10240)
    (hr : r.val = 1024 * (t.val / 10) + p.val)
    (prev : (outsAt3 V c (t.val - 1) (Nat.lt_of_le_of_lt (Nat.sub_le _ _) t.isLt)).2 (ix2 p q)
      = Cert.Gcn.accUpTo (term3 (V c main_v44) (V c main_v52) r q) (t.val % 10)) :
    (outsAt3 V c t.val t.isLt).2 (ix2 p q) = Cert.Gcn.accUpTo (term3 (V c main_v44) (V c main_v52) r q) (t.val % 10 + 1) := by
  by_cases h1 : t.val % 10 = 9
  · rw [outsAt3_C V c t h0 h1]
    dsimp only
    refine (congrFun (sout3_C_0_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) (ix2 p q)).trans ?_
    refine (pay3_2_apply (outsAt3 V c (t.val - 1) (Nat.lt_of_le_of_lt (Nat.sub_le _ _) t.isLt)).2 (iblk3 V c 0 t) (iblk3 V c 1 t) p q).trans ?_
    exact congrArg₂ (fun (a b : EReal) => a + b) prev
      (step3 V c t p q r hr (iblk3 V c 0 t) (iblk3 V c 1 t) rfl rfl)
  · rw [outsAt3_B V c t h0 h1]
    dsimp only
    refine (congrFun (sout3_B_0_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) (ix2 p q)).trans ?_
    refine (pay3_2_apply (outsAt3 V c (t.val - 1) (Nat.lt_of_le_of_lt (Nat.sub_le _ _) t.isLt)).2 (iblk3 V c 0 t) (iblk3 V c 1 t) p q).trans ?_
    exact congrArg₂ (fun (a b : EReal) => a + b) prev
      (step3 V c t p q r hr (iblk3 V c 0 t) (iblk3 V c 1 t) rfl rfl)

/-- The accumulator after point t = 10·i + k, at (p, q): the first k + 1 blocks of the sum of row 1024·i + p. -/
theorem acc3 (c : Dev nD) : ∀ (n : ℕ) (t : Fin cfg3.N), t.val = n → ∀ (p : Fin 1024) (q : Fin 128) (r : Fin 10240),
    r.val = 1024 * (t.val / 10) + p.val →
    (outsAt3 V c t.val t.isLt).2 (ix2 p q) = Cert.Gcn.accUpTo (term3 (V c main_v44) (V c main_v52) r q) (t.val % 10 + 1) := by
  intro n
  induction n with
  | zero =>
    intro t ht p q r hr
    exact acc3_A V c t (by rw [ht]) p q r hr
  | succ n ih =>
    intro t ht p q r hr
    by_cases h0 : t.val % 10 = 0
    · exact acc3_A V c t h0 p q r hr
    · refine acc3_BC V c t h0 p q r hr ?_
      have hlt : t.val - 1 < cfg3.N := Nat.lt_of_le_of_lt (Nat.sub_le _ _) t.isLt
      have e := ih ⟨t.val - 1, hlt⟩ (by show t.val - 1 = n; omega) p q r (by show r.val = 1024 * ((t.val - 1) / 10) + p.val; omega)
      have hk : (t.val - 1) % 10 + 1 = t.val % 10 := by omega
      rw [show ((⟨t.val - 1, hlt⟩ : Fin cfg3.N).val % 10 + 1) = t.val % 10 from hk] at e
      exact e

end Cert.KernelIdeal.Hand

end
-- ==== Proof.R3Value.lean ====
/-
  Region 3: the result array after the region, entry by entry.

  After a last step the accumulator holds the whole sum of its row, and the output block holds, at (p, q), the sum
  plus the bias entry kept only where the row's global number is below 10000.  The result's block
  at point t = 10·i + 9 is row block i; these ten blocks tile the result array (row r lies in block r / 1024), so the
  array ends holding one function of the three arrays the region reads.
-/
import proofs.«133914_j16801912062630_2_alg».proof.Proof.R3ValueC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The layer as one function of three arrays: the dense matrix, the features, the bias row. -/
def G3 (A : S10240x10240.Idx → EReal) (H : S10240x128.Idx → EReal) (B : S1x128.Idx → EReal) : S10240x128.Idx → EReal :=
  fun i => if (i 0).val < 10000 then (∑ s : Fin 10240, A (ix2 (i 0) s) * H (ix2 s (i 1))) + B (ix2 0 (i 1)) else 0

theorem G3_apply (A : S10240x10240.Idx → EReal) (H : S10240x128.Idx → EReal) (B : S1x128.Idx → EReal) (r : Fin 10240) (q : Fin 128) :
    G3 A H B (ix2 r q) = if r.val < 10000 then (∑ s : Fin 10240, term3 A H r q s) + B (ix2 0 q) else 0 := rfl

/-- Two such conditionals agree when their conditions and their parts do. -/
theorem fin_congr3 {P Q : Prop} [Decidable P] [Decidable Q] (hPQ : P ↔ Q) {a a' b b' : EReal} (ha : a = a') (hb : b = b') :
    (if P then a + b else 0) = if Q then a' + b' else 0 := by
  subst ha hb
  exact if_congr hPQ rfl rfl

variable (V : (c : Dev nD) → (b : Ref sig .tc) → Buf (Elt Ideal) ((c : Thread nD τ).loc b))

/-- After a last step the step's sum is the whole sum of the row. -/
theorem last_sum3 (c : Dev nD) (t : Fin cfg3.N) (h1 : t.val % 10 = 9) (p : Fin 1024) (q : Fin 128) (r : Fin 10240)
    (hr : r.val = 1024 * (t.val / 10) + p.val) :
    k3_pay2 (outsAt3 V c (t.val - 1) (Nat.lt_of_le_of_lt (Nat.sub_le _ _) t.isLt)).2 (iblk3 V c 0 t) (iblk3 V c 1 t) (ix2 p q)
      = ∑ s : Fin 10240, term3 (V c main_v44) (V c main_v52) r q s := by
  have hlt : t.val - 1 < cfg3.N := Nat.lt_of_le_of_lt (Nat.sub_le _ _) t.isLt
  have prev := acc3 V c (t.val - 1) ⟨t.val - 1, hlt⟩ rfl p q r (by show r.val = 1024 * ((t.val - 1) / 10) + p.val; omega)
  refine (pay3_2_apply (outsAt3 V c (t.val - 1) hlt).2 (iblk3 V c 0 t) (iblk3 V c 1 t) p q).trans ?_
  refine (congrArg₂ (fun (a b : EReal) => a + b) prev
    (step3 V c t p q r hr (iblk3 V c 0 t) (iblk3 V c 1 t) rfl rfl)).trans ?_
  rw [show (⟨t.val - 1, hlt⟩ : Fin cfg3.N).val % 10 + 1 = 9 from by show (t.val - 1) % 10 + 1 = 9; omega, h1]
  exact (Cert.Gcn.accUpTo_succ _ 9).symm.trans (Cert.Gcn.accUpTo_ten _)

/-- What a last step leaves in the output block, entry by entry. -/
theorem out3_last (c : Dev nD) (t : Fin cfg3.N) (h1 : t.val % 10 = 9) (p : Fin 1024) (q : Fin 128) (r : Fin 10240)
    (hr : r.val = 1024 * (t.val / 10) + p.val) :
    (outsAt3 V c t.val t.isLt).1 (ix2 p q) = G3 (V c main_v44) (V c main_v52) (V c main_v49) (ix2 r q) := by
  have h0 : ¬t.val % 10 = 0 := by omega
  obtain ⟨-, -, -, -, -, -, -, -, ec⟩ := idx_facts3 t
  rw [outsAt3_C V c t h0 h1]
  dsimp only
  refine (congrFun (out3_C_3_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) (ix2 p q)).trans ?_
  refine (pay3_3_apply (grid3.coords t) (k3_pay2 (outsAt3 V c (t.val - 1) (Nat.lt_of_le_of_lt (Nat.sub_le _ _) t.isLt)).2 (iblk3 V c 0 t) (iblk3 V c 1 t)) (iblk3 V c 2 t) p q).trans ?_
  refine Eq.trans ?_ (G3_apply (V c main_v44) (V c main_v52) (V c main_v49) r q).symm
  exact fin_congr3 (by rw [ec, hr]) (last_sum3 V c t h1 p q r hr) (blk3_2 V c t q)

/-- What a last step writes back is its block of the layer's function of the arrays as the region finds them. -/
theorem flushed3_eq (c : Dev nD) (t : Fin cfg3.N) (hf : (cfg3.win 3).flush t = true) :
    (dat3 (F := Ideal) V c).flushed 3 t
      = ((cfg3.win 3).blk t).view.read (Elt Ideal) (G3 (V c main_v44) (V c main_v52) (V c main_v49)) := by
  have h1 : t.val % 10 = 9 := (flush3_3 t).mp hf
  show (cfg3.win 3).cut (grid3.coords t) ((dat3 V c).after 3 t) = _
  rw [after3_3]
  obtain ⟨-, -, -, -, -, -, e30, e31, -⟩ := idx_facts3 t
  have ht : t.val < 100 := lt_of_lt_of_eq t.isLt N_3
  funext j
  obtain ⟨p, q, rfl⟩ : ∃ (p : Fin 1024) (q : Fin 128), j = ix2 p q := ⟨j 0, j 1, eq_ix2 j⟩
  have hp := p.isLt
  refine (out3_last V c t h1 p q ⟨1024 * (t.val / 10) + p.val, by omega⟩ rfl).trans ?_
  show _ = G3 (V c main_v44) (V c main_v52) (V c main_v49) (((cfg3.win 3).blk t).view.emb (ix2 p q))
  refine congrArg (G3 (V c main_v44) (V c main_v52) (V c main_v49)) (funext fun a => Fin.ext ?_)
  match a with
  | ⟨0, _⟩ => show 1024 * (t.val / 10) + p.val = win3_3.index t (0 : Fin 2) * 1024 + 1 * p.val; rw [e30]; omega
  | ⟨1, _⟩ => show q.val = win3_3.index t (1 : Fin 2) * 128 + 1 * q.val; rw [e31]; omega

/-- An index of the result array is in point t's block iff each coordinate is in the block's range. -/
theorem mem_blk3 (t : Fin cfg3.N) (i : S10240x128.Idx) :
    i ∈ ((cfg3.win 3).blk t).view.set ↔ ∀ a : Fin 2, win3_3.index t a * S1024x128.size a ≤ (i a).val ∧ (i a).val < win3_3.index t a * S1024x128.size a + S1024x128.size a := by
  show i ∈ ((View.whole main_v53).slice (win3_3.rect t)).set ↔ _
  rw [View.set_slice_whole, Rect.mem_set_unit]
  exact Iff.rfl

/-- Row r of the result lies in the block of the last step of row block r / 1024, which writes it back. -/
theorem cover3 (i : S10240x128.Idx) : ∃ t : Fin cfg3.N, (cfg3.win 3).flush t = true ∧ i ∈ ((cfg3.win 3).blk t).view.set := by
  have hi0 : (i 0).val < 10240 := idx2_lt0 i
  have hi1 : (i 1).val < 128 := idx2_lt1 i
  have hN : grid3.N = 100 := N_3
  obtain ⟨t, ht⟩ : ∃ t : Fin cfg3.N, t.val = 10 * ((i 0).val / 1024) + 9 :=
    ⟨⟨10 * ((i 0).val / 1024) + 9, by show _ < grid3.N; omega⟩, rfl⟩
  obtain ⟨-, -, -, -, -, -, e30, e31, -⟩ := idx_facts3 t
  refine ⟨t, (flush3_3 t).mpr (by omega), ?_⟩
  rw [mem_blk3]
  intro a
  match a with
  | ⟨0, _⟩ => show win3_3.index t (0 : Fin 2) * 1024 ≤ (i 0).val ∧ (i 0).val < win3_3.index t (0 : Fin 2) * 1024 + 1024; rw [e30, ht]; omega
  | ⟨1, _⟩ => show win3_3.index t (1 : Fin 2) * 128 ≤ (i 1).val ∧ (i 1).val < win3_3.index t (1 : Fin 2) * 128 + 128; rw [e31]; omega

/-- So the result array ends holding the layer's function of the three arrays. -/
theorem final3 (c : Dev nD) :
    (dat3 (F := Ideal) V c).arrAt 3 cfg3.N = G3 (V c main_v44) (V c main_v52) (V c main_v49) :=
  (dat3 (F := Ideal) V c).arrAt_eq_of_cover 3 (G3 (V c main_v44) (V c main_v52) (V c main_v49)) (fun t hf => flushed3_eq V c t hf) cover3

/-- The result array after the region, entry by entry, over named arrays. -/
theorem value3 (c : Dev nD) (A : S10240x10240.Idx → EReal) (H : S10240x128.Idx → EReal) (B : S1x128.Idx → EReal)
    (hA : V c main_v44 = A) (hH : V c main_v52 = H) (hB : V c main_v49 = B) (r : Fin 10240) (q : Fin 128) :
    (dat3 (F := Ideal) V c).arrAt 3 cfg3.N (ix2 r q)
      = if r.val < 10000 then (∑ s : Fin 10240, A (ix2 r s) * H (ix2 s q)) + B (ix2 0 q) else 0 := by
  subst hA hH hB
  rw [final3]
  rfl

end Cert.KernelIdeal.Hand

end
-- ==== Proof.KernelValue.lean ====
/-
  The value of the kernel program: under the range condition on the edge array, its result at (d, q) is the dense
  arrangement of the two-layer graph convolution on the data read off its launch arrays.

  The result is the leading corner of what the fourth region leaves.  Each region's result array is a function of the
  arrays the region is entered on; the arrays no region writes are still what the host operations before the regions
  left, and those are the specification's dense matrix, padded features, weights and biases.  The chain of the four
  array equations then ends in the specification's dense result.
-/
import proofs.«133914_j16801912062630_2_alg».proof.Proof.Assembly
import proofs.«133914_j16801912062630_2_alg».proof.Proof.HostValue
import proofs.«133914_j16801912062630_2_alg».proof.Proof.KernelChain
import proofs.«133914_j16801912062630_2_alg».proof.Proof.R0Value
import proofs.«133914_j16801912062630_2_alg».proof.Proof.R1Value
import proofs.«133914_j16801912062630_2_alg».proof.Proof.R2Value
import proofs.«133914_j16801912062630_2_alg».proof.Proof.R3Value

noncomputable section

open scoped BigOperators

namespace Cert.KernelIdeal.KernelValue

open Cert.KernelIdeal Cert.KernelIdeal.Gen Cert.KernelIdeal.Hand Idealize.ShloMosaic Idealize.ShloMosaic.TcCoe Idealize.SL.Sem
  Idealize.ShloMosaic.ValueIdx

/-! ## What each region's value says, with the arrays it reads named -/

/-- Region 0: the padded features times the first weights. -/
def Value0 : Prop :=
  ∀ (V : (c : Dev nD) → (b : Ref sig .tc) → Buf (Elt Ideal) ((c : Thread nD τ).loc b)) (c : Dev nD)
    (a : S10240x256.Idx → EReal) (b : S256x128.Idx → EReal), V c main_v45 = a → V c main_arg2 = b →
    ∀ (r : Fin 10240) (q : Fin 128),
      (dat0 (F := Ideal) V c).arrAt 2 cfg0.N (ix2 r q) = ∑ k : Fin 256, a (ix2 r k) * b (ix2 k q)

/-- Region 1: on the rows below 10000 the positive part of the dense matrix times region 0's result plus the first
    bias; zero on the other rows. -/
def Value1 : Prop :=
  ∀ (V : (c : Dev nD) → (b : Ref sig .tc) → Buf (Elt Ideal) ((c : Thread nD τ).loc b)) (c : Dev nD)
    (A : S10240x10240.Idx → EReal) (H : S10240x128.Idx → EReal) (B : S1x128.Idx → EReal),
    V c main_v44 = A → V c main_v50 = H → V c main_v46 = B →
    ∀ (r : Fin 10240) (q : Fin 128),
      (dat1 (F := Ideal) V c).arrAt 3 cfg1.N (ix2 r q)
        = if r.val < 10000 then max ((∑ s : Fin 10240, A (ix2 r s) * H (ix2 s q)) + B (ix2 (0 : Fin 1) q)) 0 else 0

/-- Region 2: region 1's result times the padded second weights. -/
def Value2 : Prop :=
  ∀ (V : (c : Dev nD) → (b : Ref sig .tc) → Buf (Elt Ideal) ((c : Thread nD τ).loc b)) (c : Dev nD)
    (a : S10240x128.Idx → EReal) (b : S128x128.Idx → EReal), V c main_v51 = a → V c main_v47 = b →
    ∀ (r : Fin 10240) (q : Fin 128),
      (dat2 (F := Ideal) V c).arrAt 2 cfg2.N (ix2 r q) = ∑ k : Fin 128, a (ix2 r k) * b (ix2 k q)

/-- Region 3: on the rows below 10000 the dense matrix times region 2's result plus the padded second bias; zero on
    the other rows. -/
def Value3 : Prop :=
  ∀ (V : (c : Dev nD) → (b : Ref sig .tc) → Buf (Elt Ideal) ((c : Thread nD τ).loc b)) (c : Dev nD)
    (A : S10240x10240.Idx → EReal) (H : S10240x128.Idx → EReal) (B : S1x128.Idx → EReal),
    V c main_v44 = A → V c main_v52 = H → V c main_v49 = B →
    ∀ (r : Fin 10240) (q : Fin 128),
      (dat3 (F := Ideal) V c).arrAt 3 cfg3.N (ix2 r q)
        = if r.val < 10000 then (∑ s : Fin 10240, A (ix2 r s) * H (ix2 s q)) + B (ix2 (0 : Fin 1) q) else 0

variable (m : (ℓ : Loc nD τ sig) → Buf (Elt Ideal) ℓ) (c : Dev nD)

/-- What the regions leave in the result array of the last one is the fourth array of the chain. -/
theorem outs_13 : outs m 13 main_v53 c = o3 m c := by
  show (if (13 : ℕ) = 10 then _ else if (13 : ℕ) = 11 then _ else if (13 : ℕ) = 12 then _ else X13 m c main_v53) = _
  rw [if_neg (by decide), if_neg (by decide), if_neg (by decide)]
  exact X13_self m c

/-- The kernel's result, given the four regions' values. -/
theorem kernel_value_of (hv0 : Value0) (hv1 : Value1) (hv2 : Value2) (hv3 : Value3)
    (hrange : ∀ i : S2x640000.Idx, (HostValue.eiArr m c i).toNat < 10000) (d : Fin 10000) (q : Fin 64) :
    (V14 (F := Ideal) m (outs m) c main_v54 : S10000x64.Idx → EReal) (ix2 d q)
      = Cert.Gcn.outK (HostValue.inputsAt m c) d q := by
  rw [HostValue.v54_eq, outs_13]
  exact Cert.Gcn.Dense.chain (HostValue.inputsAt m c)
    (V9 (F := Ideal) m c main_v44) (V9 (F := Ideal) m c main_v45) (V9 (F := Ideal) m c main_arg2)
    (V9 (F := Ideal) m c main_v46) (V9 (F := Ideal) m c main_v47) (V9 (F := Ideal) m c main_v49)
    (o0 m c) (o1 m c) (o2 m c) (o3 m c)
    (HostValue.v44_eq m c hrange) (HostValue.v45_eq m c) (HostValue.arg2_eq m c) (HostValue.v46_eq m c)
    (HostValue.v47_eq m c) (HostValue.v49_eq m c)
    (fun r q => hv0 (E9 m) c _ _ rfl rfl r q)
    (fun r q => hv1 (E10 m) c _ _ _ (X10_of_ne m c main_v44 (by decide)) (X10_self m c)
      (X10_of_ne m c main_v46 (by decide)) r q)
    (fun r q => hv2 (E11 m) c _ _ (X11_self m c)
      ((X11_of_ne m c main_v47 (by decide)).trans (X10_of_ne m c main_v47 (by decide))) r q)
    (fun r q => hv3 (E12 m) c _ _ _
      ((X12_of_ne m c main_v44 (by decide)).trans ((X11_of_ne m c main_v44 (by decide)).trans
        (X10_of_ne m c main_v44 (by decide))))
      (X12_self m c)
      ((X12_of_ne m c main_v49 (by decide)).trans ((X11_of_ne m c main_v49 (by decide)).trans
        (X10_of_ne m c main_v49 (by decide)))) r q)
    d q

/-- The kernel's result is the specification's dense result on the launch arrays' data. -/
theorem kernel_value (hrange : ∀ i : S2x640000.Idx, (HostValue.eiArr m c i).toNat < 10000) (d : Fin 10000) (q : Fin 64) :
    (V14 (F := Ideal) m (outs m) c main_v54 : S10000x64.Idx → EReal) (ix2 d q)
      = Cert.Gcn.outK (HostValue.inputsAt m c) d q :=
  kernel_value_of m c (fun V c a b ha hb r q => value0 V c a b ha hb r q)
    (fun V c A H B hA hH hB r q => value1 V c A H B hA hH hB r q)
    (fun V c a b ha hb r q => value2 V c a b ha hb r q)
    (fun V c A H B hA hH hB r q => value3 V c A H B hA hH hB r q) hrange d q

end Cert.KernelIdeal.KernelValue

end
-- ==== Proof.lean ====
/-
  The certificate of a two-layer graph convolution: a kernel program that sums the edge list into a dense 10240 x 10240
  weight matrix once and then runs four dense block-matrix kernels (features times weights; matrix times that, plus bias,
  positive part; again features times weights; matrix times that, plus bias), against a reference that sends, edge by
  edge, the source's row times the edge's weight to the destination and sums what arrives.

  Over the extended reals, with every float input a real number and every edge end a node number below 10000, the two
  compute the same array: Σ_s (Σ_{e : dst e = d, src e = s} w_e) · g(s) = Σ_{e : dst e = d} g(src e) · w_e, which is
  distributivity and needs the summands real.  The index bound is what makes the dense matrix's padding (rows and columns
  10000 … 10239, where the padded features are zero) invisible, and the reference's index wrap and clamp the identity.

  The three frames: each kernel region's body is run symbolically once per control case (first, middle and last step
  along the reduction axis), the accumulator's contents carried from grid point to grid point by the region's invariant;
  the regions are chained through the program's host operations.  The reference's frame is its run with the result
  dropped.  The idealization rewrote nothing, so the word-level program's relation to its idealization is trivial.
-/
import proofs.«133914_j16801912062630_2_alg».proof.Defs
import proofs.«133914_j16801912062630_2_alg».proof.Proof.Gen.Kernel
import proofs.«133914_j16801912062630_2_alg».proof.Proof.Gen.KernelIdeal
import proofs.«133914_j16801912062630_2_alg».proof.Proof.Gen.ReferenceIdeal
import proofs.«133914_j16801912062630_2_alg».proof.Proof.Gen.Pre_finite_inputs
import proofs.«133914_j16801912062630_2_alg».proof.Proof.K.Assembly
import proofs.«133914_j16801912062630_2_alg».proof.Proof.Assembly
import proofs.«133914_j16801912062630_2_alg».proof.Proof.RefRunP
import proofs.«133914_j16801912062630_2_alg».proof.Proof.RunAt
import proofs.«133914_j16801912062630_2_alg».proof.Proof.RefValue
import proofs.«133914_j16801912062630_2_alg».proof.Proof.PreFacts
import proofs.«133914_j16801912062630_2_alg».proof.Proof.GcnAlgebra
import proofs.«133914_j16801912062630_2_alg».proof.Proof.KernelValue
import Idealize.ShloMosaic.Adequacy
import Idealize.ShloMosaic.Init

noncomputable section

namespace Cert.Proof

open Idealize.ShloMosaic Idealize.ShloMosaic.TcCoe Idealize.SL.Sem

/-- The word-level program's frame. -/
theorem frame_k : Cert.frame_Kernel (hKernel := Cert.Kernel.Gen.facts) (hPre_finite_inputs := Cert.Pre_finite_inputs.Gen.facts) :=
  fun m g _ => Cert.Kernel.Hand.frame m g

/-- The idealized program's frame. -/
theorem frame_ki : Cert.frame_KernelIdeal (hKernelIdeal := Cert.KernelIdeal.Gen.facts) (hPre_finite_inputs := Cert.Pre_finite_inputs.Gen.facts) :=
  fun m g _ => Cert.KernelIdeal.Hand.frame m g

/-- The reference's frame: its run, the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.ValueP.run (F := Ideal) m g)

/-- The idealization rewrote nothing. -/
theorem preserves : Cert.preserves_Kernel_KernelIdeal := trivial

/-- Both idealized programs end with the same array: the kernel program's result buffer holds the dense arrangement
    of the arguments, the reference's the edge-by-edge one, and the two arrangements agree on real inputs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' hpre hagree
  refine ⟨fun c => Cert.KernelIdeal.Gen.V14 m (Cert.KernelIdeal.Hand.outs m) c Cert.KernelIdeal.main_v54, Cert.KernelIdeal.Hand.run_value m g, ?_⟩
  refine (θ_run Cert.ReferenceIdeal.defs _ _).mono (fun _ h c => ⟨(h c).1.trans ?_, (h c).2⟩)
    (Cert.ReferenceIdeal.ValueP.run (F := Ideal) m' g')
  have hp := hpre c
  have hfin := Cert.PreFacts.finite_of_pre _ _ _ _ _ _ hp
  have hrange := Cert.PreFacts.range_of_pre _ _ _ _ _ _ hp
  funext j
  obtain ⟨d, q, rfl⟩ : ∃ (d : Fin 10000) (q : Fin 64), j = ValueIdx.ix2 d q := ⟨j 0, j 1, ValueIdx.eq_ix2 j⟩
  refine (Cert.ReferenceIdeal.RefValue.ref_value m' c (by rw [(hagree c).2.1]; exact hrange) d q).trans ?_
  rw [(hagree c).1, (hagree c).2.1, (hagree c).2.2.1, (hagree c).2.2.2.1, (hagree c).2.2.2.2.1, (hagree c).2.2.2.2.2]
  refine Eq.trans ?_ (Cert.KernelIdeal.KernelValue.kernel_value m c hrange d q).symm
  exact congrFun (congrFun (Cert.Gcn.out_eq_outK _ hfin) d) q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
